-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x64 : Shape := ⟨2, ![512, 64]⟩
abbrev S128x1 : Shape := ⟨2, ![128, 1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S128x1 : S_.BroadcastsInDim S128x1 (![] : Fin 0 → Fin S128x1.rank)
  reducesTo_S128x1_S_d0_1 : S128x1.ReducesTo [0, 1] S_

variable [Facts]

def fn {F : FTy → Type} [FloatOps F] (main_arg0 : FVec F S8192x512 .f32) (main_arg1 : IVec S8192x8192 32) (main_arg2 : FVec F S512x64 .f32) (main_arg3 : FVec F S128x1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S128x1 .f32 := Host.absf main_arg3
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  main_v13
-- ==== Kernel.lean ====
abbrev S8192x512 : Shape := ⟨2, ![8192, 512]⟩
abbrev S8192x8192 : Shape := ⟨2, ![8192, 8192]⟩
abbrev S512x64 : Shape := ⟨2, ![512, 64]⟩
abbrev S128x1 : Shape := ⟨2, ![128, 1]⟩
abbrev S8192x64 : Shape := ⟨2, ![8192, 64]⟩
abbrev S64x1 : Shape := ⟨2, ![64, 1]⟩
abbrev S8192x1 : Shape := ⟨2, ![8192, 1]⟩
abbrev S1x8192 : Shape := ⟨2, ![1, 8192]⟩
abbrev S64x8192 : Shape := ⟨2, ![64, 8192]⟩
abbrev S1024x1024 : Shape := ⟨2, ![1024, 1024]⟩
abbrev S1024x1 : Shape := ⟨2, ![1024, 1]⟩
abbrev S1x1024 : Shape := ⟨2, ![1, 1024]⟩
abbrev S8x1024 : Shape := ⟨2, ![8, 1024]⟩
abbrev S1024 : Shape := ⟨1, ![1024]⟩
abbrev S1024x64 : Shape := ⟨2, ![1024, 64]⟩

abbrev nBuf : Space → Nat
  | .hbm => 12
  | .vmem => 25
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S512x64, .f32⟩
  | .hbm, ⟨3, _⟩ => ⟨S128x1, .f32⟩
  | .hbm, ⟨4, _⟩ => ⟨S8192x64, .f32⟩
  | .hbm, ⟨5, _⟩ => ⟨S64x1, .f32⟩
  | .hbm, ⟨6, _⟩ => ⟨S8192x1, .f32⟩
  | .hbm, ⟨7, _⟩ => ⟨S1x8192, .f32⟩
  | .hbm, ⟨8, _⟩ => ⟨S1x8192, .f32⟩
  | .hbm, ⟨9, _⟩ => ⟨S8192x8192, .bf16⟩
  | .hbm, ⟨10, _⟩ => ⟨S64x8192, .f32⟩
  | .hbm, ⟨11, _⟩ => ⟨S8192x64, .f32⟩
  | .local _ .vmem, ⟨0, _⟩ => ⟨S1024x1024, .i32⟩
  | .local _ .vmem, ⟨1, _⟩ => ⟨S1024x1024, .i32⟩
  | .local _ .vmem, ⟨2, _⟩ => ⟨S1024x1, .f32⟩
  | .local _ .vmem, ⟨3, _⟩ => ⟨S1024x1, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S8x1024, .f32⟩
  | .local _ .vmem, ⟨11, _⟩ => ⟨S8x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S8x1024, .f32⟩
  | .local _ .vmem, ⟨17, _⟩ => ⟨S8x1024, .f32⟩
  | .local _ .vmem, ⟨18, _⟩ => ⟨S1x1024, .f32⟩
  | .local _ .vmem, ⟨19, _⟩ => ⟨S1x1024, .f32⟩
  | .local _ .vmem, ⟨20, _⟩ => ⟨S1024x64, .f32⟩
  | .local _ .vmem, ⟨21, _⟩ => ⟨S1024x64, .f32⟩
  | .local _ .vmem, ⟨22, _⟩ => ⟨S1024x64, .f32⟩
  | .local _ .vmem, ⟨23, _⟩ => ⟨S1024x64, .f32⟩
  | .local _ .vmem, ⟨24, _⟩ => ⟨S1024x64, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_24 : BitVec 32 := 0#32
  let v46 : BitVec 1 := Scalar.cmpi .ne v45 c0_i32_24
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_12 : BitVec 32 := 0#32
  let v25 : BitVec 1 := Scalar.cmpi .ne v24 c0_i32_12
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S128x1_S64x1_0_0 : S128x1.Slices ![0, 0] S64x1
  shapeCasts_S8192x1_S1x8192 : S8192x1.ShapeCasts S1x8192
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [0] S1024
  shapeCasts_S1024_S1x1024 : S1024.ShapeCasts S1x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  broadcasts_S1x1024_S8x1024 : S1x1024.Broadcasts S8x1024
  inb_S8x1024_S8x1024_0_0 : ∀ a, (![0, 0] : Fin 2 → Nat) a + S8x1024.size a ≤ S8x1024.size a
  h_S8x1024 : 0 < S8x1024.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S8x1024_S1x1024_0_0 : ∀ a, (![0, 0] : Fin 2 → Nat) a + S1x1024.size a ≤ S8x1024.size a
  shapeCasts_S1024x1024_S1024x1024 : S1024x1024.ShapeCasts S1024x1024
  dot_S8192x512_S512x64_S8192x64_1_0_0_1_n_n_wf : DotDims.WF S8192x512 S512x64 S8192x64 [1] [0] [0] [1] [] []
  dot_S8192x64_S64x1_S8192x1_1_0_0_1_n_n_wf : DotDims.WF S8192x64 S64x1 S8192x1 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .i32 = 32 ∨ (Rect.block (s := S8192x8192) S1024x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .bf16 = 32 ∨ (Rect.block (s := S8192x8192) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1024.size a ≤ S64x8192.size a
  hwx0_5 : ∀ i : grid0.Coords, EltTy.bits .f32 = 32 ∨ (Rect.block (s := S64x8192) S8x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .bf16 = 32 ∨ (Rect.block (s := S8192x8192) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x1024.size a ≤ S64x8192.size a
  hwx1_1 : ∀ i : grid1.Coords, EltTy.bits .f32 = 32 ∨ (Rect.block (s := S64x8192) S8x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S8192x64.size a
  hwx1_3 : ∀ i : grid1.Coords, EltTy.bits .f32 = 32 ∨ (Rect.block (s := S8192x64) S1024x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x64.size a ≤ S8192x64.size a
  hwx1_4 : ∀ i : grid1.Coords, EltTy.bits .f32 = 32 ∨ (Rect.block (s := S8192x64) S1024x64.size (cc1_transform_4 i) (hinb1_4 i)).WholeWords (EltTy.packing .f32)

variable [Facts₀]

def dot_S8192x512_S512x64_S8192x64_1_0_0_1_n_n : DotDims S8192x512 S512x64 S8192x64 where
  lhsContracting := [1]
  rhsContracting := [0]
  lhsNonContracting := [0]
  rhsNonContracting := [1]
  lhsBatch := []
  rhsBatch := []
  wf := dot_S8192x512_S512x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_2) S8x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun _ => false | 5 => fun _ => false | ⟨_ + 6, h⟩ => absurd h (Nat.not_lt.2 (Nat.le_add_left _ _))

abbrev win1_0 : Pipeline.Window sig grid1 :=
  Pipeline.Window.ofSpec (Memref.whole main_v4_1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_2) S8x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_0) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1024x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1024x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x64 : Shape := ⟨2, ![512, 64]⟩
abbrev S128x1 : Shape := ⟨2, ![128, 1]⟩
abbrev S8192x64 : Shape := ⟨2, ![8192, 64]⟩
abbrev S64x1 : Shape := ⟨2, ![64, 1]⟩
abbrev S8192x1 : Shape := ⟨2, ![8192, 1]⟩
abbrev S1x8192 : Shape := ⟨2, ![1, 8192]⟩
abbrev S_ : Shape := ⟨0, ![]⟩
abbrev S8192 : Shape := ⟨1, ![8192]⟩

abbrev nBuf : Space → Nat
  | .hbm => 55
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S512x64, .f32⟩
  | .hbm, ⟨3, _⟩ => ⟨S128x1, .f32⟩
  | .hbm, ⟨4, _⟩ => ⟨S8192x64, .f32⟩
  | .hbm, ⟨5, _⟩ => ⟨S64x1, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S_, .f32⟩
  | .hbm, ⟨13, _⟩ => ⟨S8192x8192, .f32⟩
  | .hbm, ⟨14, _⟩ => ⟨S8192x8192, .i1⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S1x8192, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S1x8192, .f32⟩
  | .hbm, ⟨37, _⟩ => ⟨S8192x8192, .f32⟩
  | .hbm, ⟨38, _⟩ => ⟨S8192x8192, .f32⟩
  | .hbm, ⟨39, _⟩ => ⟨S8192x64, .f32⟩
  | .hbm, ⟨40, _⟩ => ⟨S_, .f32⟩
  | .hbm, ⟨41, _⟩ => ⟨S8192x64, .f32⟩
  | .hbm, ⟨42, _⟩ => ⟨S8192x64, .i1⟩
  | .hbm, ⟨43, _⟩ => ⟨S_, .f32⟩
  | .hbm, ⟨44, _⟩ => ⟨S8192x64, .f32⟩
  | .hbm, ⟨45, _⟩ => ⟨S8192x64, .i1⟩
  | .hbm, ⟨46, _⟩ => ⟨S_, .f32⟩
  | .hbm, ⟨47, _⟩ => ⟨S_, .f32⟩
  | .hbm, ⟨48, _⟩ => ⟨S8192x64, .f32⟩
  | .hbm, ⟨49, _⟩ => ⟨S8192x64, .f32⟩
  | .hbm, ⟨50, _⟩ => ⟨S8192x64, .f32⟩
  | .hbm, ⟨51, _⟩ => ⟨S_, .f32⟩
  | .hbm, ⟨52, _⟩ => ⟨S8192x64, .f32⟩
  | .hbm, ⟨53, _⟩ => ⟨S8192x64, .f32⟩
  | .hbm, ⟨54, _⟩ => ⟨S8192x64, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_call1_v0 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call2_cst : Ref sig .tc := ⟨.hbm, 40, rfl⟩
abbrev main_call2_v0 : Ref sig .tc := ⟨.hbm, 41, rfl⟩
abbrev main_call2_v1 : Ref sig .tc := ⟨.hbm, 42, rfl⟩
abbrev main_call2_cst_0 : Ref sig .tc := ⟨.hbm, 43, rfl⟩
abbrev main_call2_v2 : Ref sig .tc := ⟨.hbm, 44, rfl⟩
abbrev main_call2_v3 : Ref sig .tc := ⟨.hbm, 45, rfl⟩
abbrev main_call2_cst_1 : Ref sig .tc := ⟨.hbm, 46, rfl⟩
abbrev main_call2_call0_v0 : Ref sig .tc := ⟨.hbm, 47, rfl⟩
abbrev main_call2_call0_v1 : Ref sig .tc := ⟨.hbm, 48, rfl⟩
abbrev main_call2_v4 : Ref sig .tc := ⟨.hbm, 49, rfl⟩
abbrev main_call2_v5 : Ref sig .tc := ⟨.hbm, 50, rfl⟩
abbrev main_call2_cst_2 : Ref sig .tc := ⟨.hbm, 51, rfl⟩
abbrev main_call2_v6 : Ref sig .tc := ⟨.hbm, 52, rfl⟩
abbrev main_call2_v7 : Ref sig .tc := ⟨.hbm, 53, rfl⟩
abbrev main_v23 : Ref sig .tc := ⟨.hbm, 54, rfl⟩

abbrev nD : Nat := 1
abbrev τ : Topo := Topo.v7x

variable {F : FTy → Type} [FloatOps F]

class Facts₀ : Prop where
  slices_S128x1_S64x1_0_0 : S128x1.Slices ![0, 0] S64x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d0 : S8192x8192.ReducesTo [0] S8192
  h_S_ : 0 < S_.numel
  bcast_S_S8192 : S_.BroadcastsInDim S8192 (![] : Fin 0 → Fin S8192.rank)
  bcast_S8192_S1x8192_1 : S8192.BroadcastsInDim S1x8192 (![1] : Fin 1 → Fin S1x8192.rank)
  bcast_S_S8192x64 : S_.BroadcastsInDim S8192x64 (![] : Fin 0 → Fin S8192x64.rank)
  dot_S8192x512_S512x64_S8192x64_1_0_0_1_n_n_wf : DotDims.WF S8192x512 S512x64 S8192x64 [1] [0] [0] [1] [] []
  dot_S8192x64_S64x1_S8192x1_1_0_0_1_n_n_wf : DotDims.WF S8192x64 S64x1 S8192x1 [1] [0] [0] [1] [] []
  dot_S8192x8192_S8192x64_S8192x64_1_0_0_1_n_n_wf : DotDims.WF S8192x8192 S8192x64 S8192x64 [1] [0] [0] [1] [] []

variable [Facts₀]

def dot_S8192x512_S512x64_S8192x64_1_0_0_1_n_n : DotDims S8192x512 S512x64 S8192x64 where
  lhsContracting := [1]
  rhsContracting := [0]
  lhsNonContracting := [0]
  rhsNonContracting := [1]
  lhsBatch := []
  rhsBatch := []
  wf := dot_S8192x512_S512x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.KB.R0Base.lean ====
import proofs.«178722_j75866302316653_2_alg».proof.Proof.Gen.Kernel.Launch
import proofs.«178722_j75866302316653_2_alg».proof.Proof.Gen.Kernel.Skeleton
import proofs.«178722_j75866302316653_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first pass (the column statistics), at the contents `V` its region is entered with

What the three control cases of its body share. The grid is `8 × 8`, the point `t = 8·jt + it` (the column block
outside, the row block inside); the running maximum and the running sum are reset where `it = 0` and the
column's log-sum-exp is written where `it = 7`. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## Where each case holds -/

/-- The running statistics are reset: the inner coordinate is `0`. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The log-sum-exp is written: the inner coordinate is `7`. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel

/-! ## The memrefs the body is called with -/

abbrev VO0_3 : View sig .tc .vmem S1x1024 .f32 := (Memref.whole cc0_stg3_0 : Memref sig .tc .vmem S1x1024 .f32).view
abbrev VO0_4 : View sig .tc .vmem S1024x1024 .bf16 := (Memref.whole cc0_stg4_0 : Memref sig .tc .vmem S1024x1024 .bf16).view
abbrev VO0_5 : View sig .tc .vmem S8x1024 .f32 := (Memref.whole cc0_stg5_0 : Memref sig .tc .vmem S8x1024 .f32).view
abbrev ms0_0 (t : Fin cfg0.N) : Memref sig .tc .vmem S1024x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x1024 .f32 := win0_5.stage (cfg0.slots t 5)
abbrev hs0_5 (t : Fin cfg0.N) : (ms0_5 t).IsWhole := hstage0_5 ((cfg0.slots t 5).cast nbuf0_5)
/-- The running maximum and the running sum: whole scoped buffers of the kernel's own, carried from point to point. -/
abbrev scM0_0 : Memref sig .tc .vmem S1x1024 .f32 := Memref.whole cc0_scratch0
abbrev scM0_1 : Memref sig .tc .vmem S1x1024 .f32 := Memref.whole cc0_scratch1
abbrev VS0_0 : View sig .tc .vmem S1x1024 .f32 := scM0_0.view
abbrev VS0_1 : View sig .tc .vmem S1x1024 .f32 := scM0_1.view

/-! ## The scoped buffers the body does not touch -/

/-- The core's scoped buffers that are neither a staging buffer of this region nor one of its two scratch buffers. -/
def oth0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The region's class invariant with the two scratch buffers as memrefs owned at some contents. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ oth0 c) ∗ (∃ r, prngReg c r)) := by
  unfold Pipeline.ΦA oth0; rw [scopedRest0_eq]; simp only [scM0_0, scM0_1, owns_whole]; rfl

end Cert.Kernel.Reg

end
-- ==== Proof.KB.R0RunA.lean ====
import proofs.«178722_j75866302316653_2_alg».proof.Proof.KB.R0Base

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first pass's body, run whole, in case A of its two conditions -/

set_option maxHeartbeats 4000000 in
/-- The body in case A: on whole memrefs — the inputs' at their contents, an output the case leaves alone at contents
    handed back untouched, an output it stores at anything, a carried scratch at what the point before left or (when the case
    stores it whole first) at anything — the body runs, and leaves in each buffer it stored the pieces the run finds. -/
noncomputable def kernelRun0_A (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S1024x1024 .i32) (x1 : Vec F S1024x1 .f32) (x2 : Vec F S1x1024 .f32)  :
    Σ' (L3 : List (View.Piece (Elt F) S1x1024 .f32)) (L4 : List (View.Piece (Elt F) S1024x1024 .bf16)) (L5 : List (View.Piece (Elt F) S8x1024 .f32)) (LS0 : List (View.Piece (Elt F) S1x1024 .f32)), { LS1 : List (View.Piece (Elt F) S1x1024 .f32) //
      ∀ (xi3 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9) K } := by
  refine ⟨[], ?_, ?_, ?_, ?_, fun xi3 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%fo3, %hfo3, HO3⟩, ⟨%do4, %fo4, -, HO4⟩, ⟨%do5, %fo5, -, HO5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hfo3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO3]
    · iexists _; isplitr; · ipureintro; exact harg5.read_unread _
      iexact HO3
    isplitl [HO4]; · iexists _; iexact HO4
    isplitl [HO5]; · iexists _; iexact HO5
    isplitl [HS0]; · iexists _; iexact HS0
    iexists _; iexact HS1

end Cert.Kernel.Reg

end
-- ==== Proof.KB.R0RunB.lean ====
import proofs.«178722_j75866302316653_2_alg».proof.Proof.KB.R0Base

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first pass's body, run whole, in case B of its two conditions -/

set_option maxHeartbeats 4000000 in
/-- The body in case B: on whole memrefs — the inputs' at their contents, an output the case leaves alone at contents
    handed back untouched, an output it stores at anything, a carried scratch at what the point before left or (when the case
    stores it whole first) at anything — the body runs, and leaves in each buffer it stored the pieces the run finds. -/
noncomputable def kernelRun0_B (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S1024x1024 .i32) (x1 : Vec F S1024x1 .f32) (x2 : Vec F S1x1024 .f32) (xs0 : Vec F S1x1024 .f32) (xs1 : Vec F S1x1024 .f32) :
    Σ' (L3 : List (View.Piece (Elt F) S1x1024 .f32)) (L4 : List (View.Piece (Elt F) S1024x1024 .bf16)) (L5 : List (View.Piece (Elt F) S8x1024 .f32)) (LS0 : List (View.Piece (Elt F) S1x1024 .f32)), { LS1 : List (View.Piece (Elt F) S1x1024 .f32) //
      ∀ (xi3 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9) K } := by
  refine ⟨[], ?_, ?_, ?_, ?_, fun xi3 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%fo3, %hfo3, HO3⟩, ⟨%do4, %fo4, -, HO4⟩, ⟨%do5, %fo5, -, HO5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfo3; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO3]
    · iexists _; isplitr; · ipureintro; exact harg5.read_unread _
      iexact HO3
    isplitl [HO4]; · iexists _; iexact HO4
    isplitl [HO5]; · iexists _; iexact HO5
    isplitl [HS0]; · iexists _; iexact HS0
    iexists _; iexact HS1

end Cert.Kernel.Reg

end
-- ==== Proof.KB.R0RunC.lean ====
import proofs.«178722_j75866302316653_2_alg».proof.Proof.KB.R0Base

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first pass's body, run whole, in case C of its two conditions -/

set_option maxHeartbeats 4000000 in
/-- The body in case C: on whole memrefs — the inputs' at their contents, an output the case leaves alone at contents
    handed back untouched, an output it stores at anything, a carried scratch at what the point before left or (when the case
    stores it whole first) at anything — the body runs, and leaves in each buffer it stored the pieces the run finds. -/
noncomputable def kernelRun0_C (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S1024x1024 .i32) (x1 : Vec F S1024x1 .f32) (x2 : Vec F S1x1024 .f32) (xs0 : Vec F S1x1024 .f32) (xs1 : Vec F S1x1024 .f32) :
    Σ' (L3 : List (View.Piece (Elt F) S1x1024 .f32)) (L4 : List (View.Piece (Elt F) S1024x1024 .bf16)) (L5 : List (View.Piece (Elt F) S8x1024 .f32)) (LS0 : List (View.Piece (Elt F) S1x1024 .f32)), { LS1 : List (View.Piece (Elt F) S1x1024 .f32) //
      ∀  (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9) K } := by
  refine ⟨?_, ?_, ?_, ?_, ?_, fun  E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%do3, %fo3, -, HO3⟩, ⟨%do4, %fo4, -, HO4⟩, ⟨%do5, %fo5, -, HO5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO3]; · iexists _; iexact HO3
    isplitl [HO4]; · iexists _; iexact HO4
    isplitl [HO5]; · iexists _; iexact HO5
    isplitl [HS0]; · iexists _; iexact HS0
    iexists _; iexact HS1

end Cert.Kernel.Reg

end
-- ==== Proof.KB.R0Frame.lean ====
import proofs.«178722_j75866302316653_2_alg».proof.Proof.KB.R0RunA
import proofs.«178722_j75866302316653_2_alg».proof.Proof.KB.R0RunB
import proofs.«178722_j75866302316653_2_alg».proof.Proof.KB.R0RunC

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first pass as a region: what its two scratch rows and its three outputs hold point by point, and the body obligation

At every grid point the body folds one block of scores into the running maximum and the running sum of its column block,
and writes the block's rescaled exponentials and the running maximum; where the inner coordinate is `0` it resets the
two running rows first, where it is `7` it also writes the column block's log-sum-exp. What the running rows hold after
point `n` is a recursion on `n` through the three cases; the region's invariant carries them from one point to the next. -/

/-- What case A leaves in output window 3's staging buffer (nothing: a placeholder nothing consults). -/
def out0_A_3 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S1024x1024 .i32) (x1 : Vec F S1024x1 .f32) (x2 : Vec F S1x1024 .f32) : Vec F S1x1024 .f32 :=
  VO0_3.read (Elt F) (VO0_3.writes (Elt F) VO0_3.junk (kernelRun0_A c i arg2 harg2 arg3 harg3 arg4 harg4 arg5 harg5 arg6 harg6 arg7 harg7 arg8 harg8 arg9 harg9 hc0 hc1 x0 x1 x2).1)

/-- Case A's stores into output window 4 cover its block. -/
theorem cover0_A_4 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S1024x1024 .i32) (x1 : Vec F S1024x1 .f32) (x2 : Vec F S1x1024 .f32) (y : S1024x1024.Idx) :
    ∃ pc ∈ (kernelRun0_A c i arg2 harg2 arg3 harg3 arg4 harg4 arg5 harg5 arg6 harg6 arg7 harg7 arg8 harg8 arg9 harg9 hc0 hc1 x0 x1 x2).2.1, y ∈ pc.1.set :=
  View.cover_of_tiledL (kernelRun0_A c i arg2 harg2 arg3 harg3 arg4 harg4 arg5 harg5 arg6 harg6 arg7 harg7 arg8 harg8 arg9 harg9 hc0 hc1 x0 x1 x2).2.1 S1024x1024.size (by sl_kernel_rfl) y

/-- What case A leaves in output window 4's staging buffer. -/
def out0_A_4 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S1024x1024 .i32) (x1 : Vec F S1024x1 .f32) (x2 : Vec F S1x1024 .f32) : Vec F S1024x1024 .bf16 :=
  VO0_4.read (Elt F) (VO0_4.writes (Elt F) VO0_4.junk (kernelRun0_A c i arg2 harg2 arg3 harg3 arg4 harg4 arg5 harg5 arg6 harg6 arg7 harg7 arg8 harg8 arg9 harg9 hc0 hc1 x0 x1 x2).2.1)

/-- Case A's stores into output window 5 cover its block. -/
theorem cover0_A_5 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S1024x1024 .i32) (x1 : Vec F S1024x1 .f32) (x2 : Vec F S1x1024 .f32) (y : S8x1024.Idx) :
    ∃ pc ∈ (kernelRun0_A c i arg2 harg2 arg3 harg3 arg4 harg4 arg5 harg5 arg6 harg6 arg7 harg7 arg8 harg8 arg9 harg9 hc0 hc1 x0 x1 x2).2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.1 S8x1024.size (by sl_kernel_rfl) y

/-- What case A leaves in output window 5's staging buffer. -/
def out0_A_5 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S1024x1024 .i32) (x1 : Vec F S1024x1 .f32) (x2 : Vec F S1x1024 .f32) : Vec F S8x1024 .f32 :=
  VO0_5.read (Elt F) (VO0_5.writes (Elt F) VO0_5.junk (kernelRun0_A c i arg2 harg2 arg3 harg3 arg4 harg4 arg5 harg5 arg6 harg6 arg7 harg7 arg8 harg8 arg9 harg9 hc0 hc1 x0 x1 x2).2.2.1)

/-- Case A's stores into scratch 0 cover it. -/
theorem scover0_A_0 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S1024x1024 .i32) (x1 : Vec F S1024x1 .f32) (x2 : Vec F S1x1024 .f32) (y : S1x1024.Idx) :
    ∃ pc ∈ (kernelRun0_A c i arg2 harg2 arg3 harg3 arg4 harg4 arg5 harg5 arg6 harg6 arg7 harg7 arg8 harg8 arg9 harg9 hc0 hc1 x0 x1 x2).2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.2.1 S1x1024.size (by sl_kernel_rfl) y

/-- What case A leaves in scratch 0. -/
def sout0_A_0 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S1024x1024 .i32) (x1 : Vec F S1024x1 .f32) (x2 : Vec F S1x1024 .f32) : Vec F S1x1024 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2).2.2.2.1)

/-- Case A's stores into scratch 1 cover it. -/
theorem scover0_A_1 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S1024x1024 .i32) (x1 : Vec F S1024x1 .f32) (x2 : Vec F S1x1024 .f32) (y : S1x1024.Idx) :
    ∃ pc ∈ (kernelRun0_A c i arg2 harg2 arg3 harg3 arg4 harg4 arg5 harg5 arg6 harg6 arg7 harg7 arg8 harg8 arg9 harg9 hc0 hc1 x0 x1 x2).2.2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.2.2.1 S1x1024.size (by sl_kernel_rfl) y

/-- What case A leaves in scratch 1. -/
def sout0_A_1 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S1024x1024 .i32) (x1 : Vec F S1024x1 .f32) (x2 : Vec F S1x1024 .f32) : Vec F S1x1024 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2).2.2.2.2.1)

/-- What case B leaves in output window 3's staging buffer (nothing: a placeholder nothing consults). -/
def out0_B_3 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S1024x1024 .i32) (x1 : Vec F S1024x1 .f32) (x2 : Vec F S1x1024 .f32) (xs0 : Vec F S1x1024 .f32) (xs1 : Vec F S1x1024 .f32) : Vec F S1x1024 .f32 :=
  VO0_3.read (Elt F) (VO0_3.writes (Elt F) VO0_3.junk (kernelRun0_B c i arg2 harg2 arg3 harg3 arg4 harg4 arg5 harg5 arg6 harg6 arg7 harg7 arg8 harg8 arg9 harg9 hc0 hc1 x0 x1 x2 xs0 xs1).1)

/-- Case B's stores into output window 4 cover its block. -/
theorem cover0_B_4 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S1024x1024 .i32) (x1 : Vec F S1024x1 .f32) (x2 : Vec F S1x1024 .f32) (xs0 : Vec F S1x1024 .f32) (xs1 : Vec F S1x1024 .f32) (y : S1024x1024.Idx) :
    ∃ pc ∈ (kernelRun0_B c i arg2 harg2 arg3 harg3 arg4 harg4 arg5 harg5 arg6 harg6 arg7 harg7 arg8 harg8 arg9 harg9 hc0 hc1 x0 x1 x2 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).2.1 S1024x1024.size (by sl_kernel_rfl) y

/-- What case B leaves in output window 4's staging buffer. -/
def out0_B_4 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S1024x1024 .i32) (x1 : Vec F S1024x1 .f32) (x2 : Vec F S1x1024 .f32) (xs0 : Vec F S1x1024 .f32) (xs1 : Vec F S1x1024 .f32) : Vec F S1024x1024 .bf16 :=
  VO0_4.read (Elt F) (VO0_4.writes (Elt F) VO0_4.junk (kernelRun0_B c i arg2 harg2 arg3 harg3 arg4 harg4 arg5 harg5 arg6 harg6 arg7 harg7 arg8 harg8 arg9 harg9 hc0 hc1 x0 x1 x2 xs0 xs1).2.1)

/-- Case B's stores into output window 5 cover its block. -/
theorem cover0_B_5 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S1024x1024 .i32) (x1 : Vec F S1024x1 .f32) (x2 : Vec F S1x1024 .f32) (xs0 : Vec F S1x1024 .f32) (xs1 : Vec F S1x1024 .f32) (y : S8x1024.Idx) :
    ∃ pc ∈ (kernelRun0_B c i arg2 harg2 arg3 harg3 arg4 harg4 arg5 harg5 arg6 harg6 arg7 harg7 arg8 harg8 arg9 harg9 hc0 hc1 x0 x1 x2 xs0 xs1).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).2.2.1 S8x1024.size (by sl_kernel_rfl) y

/-- What case B leaves in output window 5's staging buffer. -/
def out0_B_5 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S1024x1024 .i32) (x1 : Vec F S1024x1 .f32) (x2 : Vec F S1x1024 .f32) (xs0 : Vec F S1x1024 .f32) (xs1 : Vec F S1x1024 .f32) : Vec F S8x1024 .f32 :=
  VO0_5.read (Elt F) (VO0_5.writes (Elt F) VO0_5.junk (kernelRun0_B c i arg2 harg2 arg3 harg3 arg4 harg4 arg5 harg5 arg6 harg6 arg7 harg7 arg8 harg8 arg9 harg9 hc0 hc1 x0 x1 x2 xs0 xs1).2.2.1)

/-- Case B's stores into scratch 0 cover it. -/
theorem scover0_B_0 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S1024x1024 .i32) (x1 : Vec F S1024x1 .f32) (x2 : Vec F S1x1024 .f32) (xs0 : Vec F S1x1024 .f32) (xs1 : Vec F S1x1024 .f32) (y : S1x1024.Idx) :
    ∃ pc ∈ (kernelRun0_B c i arg2 harg2 arg3 harg3 arg4 harg4 arg5 harg5 arg6 harg6 arg7 harg7 arg8 harg8 arg9 harg9 hc0 hc1 x0 x1 x2 xs0 xs1).2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).2.2.2.1 S1x1024.size (by sl_kernel_rfl) y

/-- What case B leaves in scratch 0. -/
def sout0_B_0 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S1024x1024 .i32) (x1 : Vec F S1024x1 .f32) (x2 : Vec F S1x1024 .f32) (xs0 : Vec F S1x1024 .f32) (xs1 : Vec F S1x1024 .f32) : Vec F S1x1024 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 xs0 xs1).2.2.2.1)

/-- Case B's stores into scratch 1 cover it. -/
theorem scover0_B_1 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S1024x1024 .i32) (x1 : Vec F S1024x1 .f32) (x2 : Vec F S1x1024 .f32) (xs0 : Vec F S1x1024 .f32) (xs1 : Vec F S1x1024 .f32) (y : S1x1024.Idx) :
    ∃ pc ∈ (kernelRun0_B c i arg2 harg2 arg3 harg3 arg4 harg4 arg5 harg5 arg6 harg6 arg7 harg7 arg8 harg8 arg9 harg9 hc0 hc1 x0 x1 x2 xs0 xs1).2.2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).2.2.2.2.1 S1x1024.size (by sl_kernel_rfl) y

/-- What case B leaves in scratch 1. -/
def sout0_B_1 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S1024x1024 .i32) (x1 : Vec F S1024x1 .f32) (x2 : Vec F S1x1024 .f32) (xs0 : Vec F S1x1024 .f32) (xs1 : Vec F S1x1024 .f32) : Vec F S1x1024 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 xs0 xs1).2.2.2.2.1)

/-- Case C's stores into output window 3 cover its block. -/
theorem cover0_C_3 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S1024x1024 .i32) (x1 : Vec F S1024x1 .f32) (x2 : Vec F S1x1024 .f32) (xs0 : Vec F S1x1024 .f32) (xs1 : Vec F S1x1024 .f32) (y : S1x1024.Idx) :
    ∃ pc ∈ (kernelRun0_C c i arg2 harg2 arg3 harg3 arg4 harg4 arg5 harg5 arg6 harg6 arg7 harg7 arg8 harg8 arg9 harg9 hc0 hc1 x0 x1 x2 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).1 S1x1024.size (by sl_kernel_rfl) y

/-- What case C leaves in output window 3's staging buffer. -/
def out0_C_3 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S1024x1024 .i32) (x1 : Vec F S1024x1 .f32) (x2 : Vec F S1x1024 .f32) (xs0 : Vec F S1x1024 .f32) (xs1 : Vec F S1x1024 .f32) : Vec F S1x1024 .f32 :=
  VO0_3.read (Elt F) (VO0_3.writes (Elt F) VO0_3.junk (kernelRun0_C c i arg2 harg2 arg3 harg3 arg4 harg4 arg5 harg5 arg6 harg6 arg7 harg7 arg8 harg8 arg9 harg9 hc0 hc1 x0 x1 x2 xs0 xs1).1)

/-- Case C's stores into output window 4 cover its block. -/
theorem cover0_C_4 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S1024x1024 .i32) (x1 : Vec F S1024x1 .f32) (x2 : Vec F S1x1024 .f32) (xs0 : Vec F S1x1024 .f32) (xs1 : Vec F S1x1024 .f32) (y : S1024x1024.Idx) :
    ∃ pc ∈ (kernelRun0_C c i arg2 harg2 arg3 harg3 arg4 harg4 arg5 harg5 arg6 harg6 arg7 harg7 arg8 harg8 arg9 harg9 hc0 hc1 x0 x1 x2 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).2.1 S1024x1024.size (by sl_kernel_rfl) y

/-- What case C leaves in output window 4's staging buffer. -/
def out0_C_4 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S1024x1024 .i32) (x1 : Vec F S1024x1 .f32) (x2 : Vec F S1x1024 .f32) (xs0 : Vec F S1x1024 .f32) (xs1 : Vec F S1x1024 .f32) : Vec F S1024x1024 .bf16 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 xs0 xs1).2.1)

/-- Case C's stores into output window 5 cover its block. -/
theorem cover0_C_5 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S1024x1024 .i32) (x1 : Vec F S1024x1 .f32) (x2 : Vec F S1x1024 .f32) (xs0 : Vec F S1x1024 .f32) (xs1 : Vec F S1x1024 .f32) (y : S8x1024.Idx) :
    ∃ pc ∈ (kernelRun0_C c i arg2 harg2 arg3 harg3 arg4 harg4 arg5 harg5 arg6 harg6 arg7 harg7 arg8 harg8 arg9 harg9 hc0 hc1 x0 x1 x2 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).2.2.1 S8x1024.size (by sl_kernel_rfl) y

/-- What case C leaves in output window 5's staging buffer. -/
def out0_C_5 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S1024x1024 .i32) (x1 : Vec F S1024x1 .f32) (x2 : Vec F S1x1024 .f32) (xs0 : Vec F S1x1024 .f32) (xs1 : Vec F S1x1024 .f32) : Vec F S8x1024 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 xs0 xs1).2.2.1)

/-- Case C's stores into scratch 0 cover it. -/
theorem scover0_C_0 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S1024x1024 .i32) (x1 : Vec F S1024x1 .f32) (x2 : Vec F S1x1024 .f32) (xs0 : Vec F S1x1024 .f32) (xs1 : Vec F S1x1024 .f32) (y : S1x1024.Idx) :
    ∃ pc ∈ (kernelRun0_C c i arg2 harg2 arg3 harg3 arg4 harg4 arg5 harg5 arg6 harg6 arg7 harg7 arg8 harg8 arg9 harg9 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).2.2.2.1 S1x1024.size (by sl_kernel_rfl) y

/-- What case C leaves in scratch 0. -/
def sout0_C_0 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S1024x1024 .i32) (x1 : Vec F S1024x1 .f32) (x2 : Vec F S1x1024 .f32) (xs0 : Vec F S1x1024 .f32) (xs1 : Vec F S1x1024 .f32) : Vec F S1x1024 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 xs0 xs1).2.2.2.1)

/-- Case C's stores into scratch 1 cover it. -/
theorem scover0_C_1 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S1024x1024 .i32) (x1 : Vec F S1024x1 .f32) (x2 : Vec F S1x1024 .f32) (xs0 : Vec F S1x1024 .f32) (xs1 : Vec F S1x1024 .f32) (y : S1x1024.Idx) :
    ∃ pc ∈ (kernelRun0_C c i arg2 harg2 arg3 harg3 arg4 harg4 arg5 harg5 arg6 harg6 arg7 harg7 arg8 harg8 arg9 harg9 hc0 hc1 x0 x1 x2 xs0 xs1).2.2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).2.2.2.2.1 S1x1024.size (by sl_kernel_rfl) y

/-- What case C leaves in scratch 1. -/
def sout0_C_1 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S1024x1024 .i32) (x1 : Vec F S1024x1 .f32) (x2 : Vec F S1x1024 .f32) (xs0 : Vec F S1x1024 .f32) (xs1 : Vec F S1x1024 .f32) : Vec F S1x1024 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 xs0 xs1).2.2.2.2.1)

section
variable (V : (c : Dev nD) → (b : Ref sig .tc) → Buf (Elt F) ((c : Thread nD τ).loc b))

/-- What the three output windows' buffers and the two scratch rows hold after the body at position `n`. -/
def outsAt0 (c : Dev nD) : (n : ℕ) → n < cfg0.N → Vec F S1x1024 .f32 × Vec F S1024x1024 .bf16 × Vec F S8x1024 .f32 × Vec F S1x1024 .f32 × Vec F S1x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
          out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
          out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
          sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
          sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
          out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
          out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
          sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
          out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
          out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
          sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
          out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
          out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
          sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val % 8 = 0) (h1 : ¬t.val % 8 = 7) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t),
          out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t),
          out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t),
          sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t),
          sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
          out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
          out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
          sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
          sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
          out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
          out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
          sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
          sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's own (every scoped buffer at anything);
    afterwards the two scratch rows at what the point before left in them, the other scoped buffers at anything. -/
def PhiS0 (c : Dev nD) : (n : ℕ) → n ≤ cfg0.N → sProp 𝕄
  | 0, _ => Pipeline.ΦA spec0 c
  | n + 1, hn => iprop((owns (c : Thread nD τ) scM0_0 fullShare ((outsAt0 V c n hn).2.2.2.1) ∗ owns (c : Thread nD τ) scM0_1 fullShare ((outsAt0 V c n hn).2.2.2.2) ∗ oth0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0_0 fullShare ((outsAt0 V c n hn).2.2.2.1) ∗ owns (c : Thread nD τ) scM0_1 fullShare ((outsAt0 V c n hn).2.2.2.2) ∗ oth0 c) ∗ (∃ r, prngReg c r)) := rfl

theorem PhiS0_pos (c : Dev nD) (n : ℕ) (h : n ≤ cfg0.N) (hz : n ≠ 0) :
    PhiS0 V c n h = iprop((owns (c : Thread nD τ) scM0_0 fullShare ((outsAt0 V c (n - 1) (by omega)).2.2.2.1) ∗ owns (c : Thread nD τ) scM0_1 fullShare ((outsAt0 V c (n - 1) (by omega)).2.2.2.2) ∗ oth0 c) ∗ (∃ r, prngReg c r)) := by
  cases n with
  | zero => exact absurd rfl hz
  | succ n => rfl

/-- The region's proof data on core `c`: the arrays as the region finds them; after the body at point `t` each input's
    buffer at its block and each output's at its component of `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' memrefs hold their blocks; the point's position in its column of eight says which
    case it is in; the invariant hands the body the two scratch rows at what the point before left and takes them back at
    this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [outsAt0_A V c t h0 h1]
      unfold out0_A_4 out0_A_5 sout0_A_0 sout0_A_1; (try dsimp only)
      by_cases hz : t.val = 0
      · rw [PhiS0_castSucc V c t, PhiS0_zero V c _ _ hz, PhiA0_eq]
        iintro ⟨⟨⟨HS0, HS1, HRest⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t)).2.2.2.2.2 _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, H3, ⟨%e4, H4⟩, ⟨%e5, H5⟩, ⟨%es0, HS0⟩, ⟨%es1, HS1⟩⟩
        isplitl [HS0 HS1 HRest Hg]
        · isplitl [HS0 HS1 HRest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _)
            iexact HRest
          iexact Hg
        isplitl [Ho]; · iexact Ho
        isplitl [H0]; · iexact H0
        isplitl [H1]; · iexact H1
        isplitl [H2]; · iexact H2
        isplitl [H3]; · iexists _; iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _ _)
        unfold owns; iexists _; isplitr
        swap; · iexact H5
        ipureintro; exact View.read_writes_of_cover _ _ _ _ _ (cover0_A_5 c _ _ _ _ _ _ _ _ _ _ _ _ _ _ _ _ _ _ _ _ _ _)
      · rw [PhiS0_castSucc V c t, PhiS0_pos V c _ _ hz]
        iintro ⟨⟨⟨HS0, HS1, HRest⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t)).2.2.2.2.2 _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexists _; iexact HS0
        isplitl [HS1]; · iexists _; iexact HS1
        iintro ⟨H0, H1, H2, H3, ⟨%e4, H4⟩, ⟨%e5, H5⟩, ⟨%es0, HS0⟩, ⟨%es1, HS1⟩⟩
        isplitl [HS0 HS1 HRest Hg]
        · isplitl [HS0 HS1 HRest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _)
            iexact HRest
          iexact Hg
        isplitl [Ho]; · iexact Ho
        isplitl [H0]; · iexact H0
        isplitl [H1]; · iexact H1
        isplitl [H2]; · iexact H2
        isplitl [H3]; · iexists _; iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _ _)
        unfold owns; iexists _; isplitr
        swap; · iexact H5
        ipureintro; exact View.read_writes_of_cover _ _ _ _ _ (cover0_A_5 c _ _ _ _ _ _ _ _ _ _ _ _ _ _ _ _ _ _ _ _ _ _)
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [outsAt0_C V c t h0 h1]
      unfold out0_C_3 out0_C_4 out0_C_5 sout0_C_0 sout0_C_1; (try dsimp only)
      by_cases hz : t.val = 0
      · exfalso; omega
      · rw [PhiS0_castSucc V c t, PhiS0_pos V c _ _ hz]
        iintro ⟨⟨⟨HS0, HS1, HRest⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) _ _).2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        isplitl [HS1]; · iexact HS1
        iintro ⟨H0, H1, H2, ⟨%e3, H3⟩, ⟨%e4, H4⟩, ⟨%e5, H5⟩, ⟨%es0, HS0⟩, ⟨%es1, HS1⟩⟩
        isplitl [HS0 HS1 HRest Hg]
        · isplitl [HS0 HS1 HRest]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _)
            iexact HRest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _)
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [outsAt0_B V c t h0 h1]
      unfold out0_B_4 out0_B_5 sout0_B_0 sout0_B_1; (try dsimp only)
      by_cases hz : t.val = 0
      · exfalso; omega
      · rw [PhiS0_castSucc V c t, PhiS0_pos V c _ _ hz]
        iintro ⟨⟨⟨HS0, HS1, HRest⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) _ _).2.2.2.2.2 _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, H3, ⟨%e4, H4⟩, ⟨%e5, H5⟩, ⟨%es0, HS0⟩, ⟨%es1, HS1⟩⟩
        isplitl [HS0 HS1 HRest Hg]
        · isplitl [HS0 HS1 HRest]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _)
            iexact HRest
          iexact Hg
        isplitl [Ho]; · iexact Ho
        isplitl [H0]; · iexact H0
        isplitl [H1]; · iexact H1
        isplitl [H2]; · iexact H2
        isplitl [H3]; · iexists _; iexact H3
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _ _)
        unfold owns; iexists _; isplitr
        swap; · iexact H5
        ipureintro; exact View.read_writes_of_cover _ _ _ _ _ (cover0_B_5 c _ _ _ _ _ _ _ _ _ _ _ _ _ _ _ _ _ _ _ _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: what the scratch rows hold is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HRest⟩, Hg⟩
  isplitl [HS0 HS1 HRest]
  · isplitl [HS0]; · iexists _; iexact HS0
    isplitl [HS1]; · iexists _; iexact HS1
    iexact HRest
  iexact Hg

theorem hout0 (c : Dev nD) : (dat0 V c).Φ (Fin.last cfg0.N) ⊢ Pipeline.ΦA spec0 c :=
  Phi_out0 V c _ (by rw [Fin.val_last]; have : cfg0.N = 64 := N_0; omega)

end

end Cert.Kernel.Reg

end
-- ==== Proof.KB.R1Base.lean ====
import proofs.«178722_j75866302316653_2_alg».proof.Proof.Gen.Kernel.Launch
import proofs.«178722_j75866302316653_2_alg».proof.Proof.Gen.Kernel.Skeleton
import proofs.«178722_j75866302316653_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second pass (the weighted sum), at the contents `V` its region is entered with

What the three control cases of its body share: the blocks its windows read, where in the grid each case holds,
where the output window is idle, and the scoped buffers the body does not touch. The grid is `8 × 8`, the
point `t = 8·it + jt`; the accumulator is cleared where `jt = 0` and the output written where `jt = 7`. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## Where each case holds -/

/-- The accumulator is cleared: the inner coordinate is `0`. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The output is written: the inner coordinate is `7`. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated. -/
abbrev VO1_4 : View sig .tc .vmem S1024x64 .f32 := (Memref.whole cc1_stg4_0 : Memref sig .tc .vmem S1024x64 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x64 .f32 := win1_4.stage (cfg1.slots t 4)
abbrev hs1_4 (t : Fin cfg1.N) : (ms1_4 t).IsWhole := hstage1_4 ((cfg1.slots t 4).cast nbuf1_4)
/-- The accumulator: a whole scoped buffer of the kernel's own, carried from point to point. -/
abbrev scM1_0 : Memref sig .tc .vmem S1024x64 .f32 := Memref.whole cc1_scratch0
abbrev VS1_0 : View sig .tc .vmem S1024x64 .f32 := scM1_0.view

/-! ## The scoped buffers the body does not touch -/

/-- The core's scoped buffers that are no staging buffer of this region, the accumulator last and held as `X`. -/
def rest1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ X)

theorem rest1_out (c : Dev nD) (X : sProp 𝕄) : rest1 c X ⊢ iprop(X ∗ rest1 c iprop(emp)) := by
  unfold rest1
  iintro ⟨H0, H1, H2, H3, H4, H5, H6, H7, H8, H9, H10, H11, H12, H13, HX⟩
  isplitl [HX]; · iexact HX
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iempintro

theorem rest1_in (c : Dev nD) (X : sProp 𝕄) : iprop(X ∗ rest1 c iprop(emp)) ⊢ rest1 c X := by
  unfold rest1
  iintro ⟨HX, H0, H1, H2, H3, H4, H5, H6, H7, H8, H9, H10, H11, H12, H13, -⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact HX

/-- The region's class invariant with the accumulator as a memref owned at some contents. -/
theorem PhiA1_eq (c : Dev nD) :
    (Pipeline.ΦA spec1 c : sProp 𝕄)
      = iprop(rest1 c iprop(∃ d, owns (c : Thread nD τ) scM1_0 fullShare d) ∗ (∃ r, prngReg c r)) := by
  unfold Pipeline.ΦA rest1; rw [scopedRest1_eq]; simp only [scM1_0, owns_whole]; rfl

end Cert.Kernel.Reg

end
-- ==== Proof.KB.R1RunA.lean ====
import proofs.«178722_j75866302316653_2_alg».proof.Proof.KB.R1Base

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second pass's body, run whole, in case A of its two conditions -/

set_option maxHeartbeats 4000000 in
/-- The body in case A: on whole memrefs — the inputs' at their contents, an output the case leaves alone at contents
    handed back untouched, an output it stores at anything, a carried scratch at what the point before left or (when the case
    stores it whole first) at anything — the body runs, and leaves in each buffer it stored the pieces the run finds. -/
noncomputable def kernelRun1_A (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : cond1_0 i) (hc1 : ¬cond1_1 i)
    (x0 : Vec F S1024x1024 .bf16) (x1 : Vec F S8x1024 .f32) (x2 : Vec F S1x1024 .f32) (x3 : Vec F S1024x64 .f32)  :
    Σ' (L4 : List (View.Piece (Elt F) S1024x64 .f32)), { LS0 : List (View.Piece (Elt F) S1024x64 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__weighted_kernel i arg2 harg2 arg3 harg3 arg4 harg4 arg5 harg5 arg6 harg6 arg7 harg7) K } := by
  refine ⟨[], ?_, fun xi4 E K => ?run⟩
  case run =>
    simp only [cc1__weighted_kernel_eq_skeleton]; unfold cc1__weighted_kernel_skel
    unfold owns
    iintro ⟨⟨%f0, %hf0, H0⟩, ⟨%f1, %hf1, H1⟩, ⟨%f2, %hf2, H2⟩, ⟨%f3, %hf3, H3⟩, ⟨%fo4, %hfo4, HO4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hfo4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO4]
    · iexists _; isplitr; · ipureintro; exact harg6.read_unread _
      iexact HO4
    iexists _; iexact HS0

end Cert.Kernel.Reg

end
-- ==== Proof.KB.R1RunB.lean ====
import proofs.«178722_j75866302316653_2_alg».proof.Proof.KB.R1Base

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second pass's body, run whole, in case B of its two conditions -/

set_option maxHeartbeats 4000000 in
/-- The body in case B: on whole memrefs — the inputs' at their contents, an output the case leaves alone at contents
    handed back untouched, an output it stores at anything, a carried scratch at what the point before left or (when the case
    stores it whole first) at anything — the body runs, and leaves in each buffer it stored the pieces the run finds. -/
noncomputable def kernelRun1_B (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : ¬cond1_1 i)
    (x0 : Vec F S1024x1024 .bf16) (x1 : Vec F S8x1024 .f32) (x2 : Vec F S1x1024 .f32) (x3 : Vec F S1024x64 .f32) (xs0 : Vec F S1024x64 .f32) :
    Σ' (L4 : List (View.Piece (Elt F) S1024x64 .f32)), { LS0 : List (View.Piece (Elt F) S1024x64 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__weighted_kernel i arg2 harg2 arg3 harg3 arg4 harg4 arg5 harg5 arg6 harg6 arg7 harg7) K } := by
  refine ⟨[], ?_, fun xi4 E K => ?run⟩
  case run =>
    simp only [cc1__weighted_kernel_eq_skeleton]; unfold cc1__weighted_kernel_skel
    unfold owns
    iintro ⟨⟨%f0, %hf0, H0⟩, ⟨%f1, %hf1, H1⟩, ⟨%f2, %hf2, H2⟩, ⟨%f3, %hf3, H3⟩, ⟨%fo4, %hfo4, HO4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfo4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO4]
    · iexists _; isplitr; · ipureintro; exact harg6.read_unread _
      iexact HO4
    iexists _; iexact HS0

end Cert.Kernel.Reg

end
-- ==== Proof.KB.R1RunC.lean ====
import proofs.«178722_j75866302316653_2_alg».proof.Proof.KB.R1Base

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second pass's body, run whole, in case C of its two conditions -/

set_option maxHeartbeats 4000000 in
/-- The body in case C: on whole memrefs — the inputs' at their contents, an output the case leaves alone at contents
    handed back untouched, an output it stores at anything, a carried scratch at what the point before left or (when the case
    stores it whole first) at anything — the body runs, and leaves in each buffer it stored the pieces the run finds. -/
noncomputable def kernelRun1_C (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1024x1024 .bf16) (x1 : Vec F S8x1024 .f32) (x2 : Vec F S1x1024 .f32) (x3 : Vec F S1024x64 .f32) (xs0 : Vec F S1024x64 .f32) :
    Σ' (L4 : List (View.Piece (Elt F) S1024x64 .f32)), { LS0 : List (View.Piece (Elt F) S1024x64 .f32) //
      ∀  (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__weighted_kernel i arg2 harg2 arg3 harg3 arg4 harg4 arg5 harg5 arg6 harg6 arg7 harg7) K } := by
  refine ⟨?_, ?_, fun  E K => ?run⟩
  case run =>
    simp only [cc1__weighted_kernel_eq_skeleton]; unfold cc1__weighted_kernel_skel
    unfold owns
    iintro ⟨⟨%f0, %hf0, H0⟩, ⟨%f1, %hf1, H1⟩, ⟨%f2, %hf2, H2⟩, ⟨%f3, %hf3, H3⟩, ⟨%do4, %fo4, -, HO4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO4]; · iexists _; iexact HO4
    iexists _; iexact HS0

end Cert.Kernel.Reg

end
-- ==== Proof.KB.R1Frame.lean ====
import proofs.«178722_j75866302316653_2_alg».proof.Proof.KB.R1RunA
import proofs.«178722_j75866302316653_2_alg».proof.Proof.KB.R1RunB
import proofs.«178722_j75866302316653_2_alg».proof.Proof.KB.R1RunC

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second pass as a region: what its accumulator and its output hold point by point, and the body obligation

At every grid point the body adds one block product to the accumulator; where the inner coordinate is `0` it clears the
accumulator first, where it is `7` it also writes the output block. What the accumulator holds after point `n` is a
recursion on `n` through the three cases; the region's invariant carries it from one point to the next. -/

/-- Case A stores nothing into the output window (idle there, and not written back): a placeholder nothing consults. -/
def out1_A_4 (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : cond1_0 i) (hc1 : ¬cond1_1 i)
    (x0 : Vec F S1024x1024 .bf16) (x1 : Vec F S8x1024 .f32) (x2 : Vec F S1x1024 .f32) (x3 : Vec F S1024x64 .f32) : Vec F S1024x64 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- Case A's stores into the accumulator cover it. -/
theorem scover1_A_0 (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : cond1_0 i) (hc1 : ¬cond1_1 i)
    (x0 : Vec F S1024x1024 .bf16) (x1 : Vec F S8x1024 .f32) (x2 : Vec F S1x1024 .f32) (x3 : Vec F S1024x64 .f32) (y : S1024x64.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S1024x64.size (by sl_kernel_rfl) y

/-- What case A leaves in the accumulator. -/
def sout1_A_0 (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : cond1_0 i) (hc1 : ¬cond1_1 i)
    (x0 : Vec F S1024x1024 .bf16) (x1 : Vec F S8x1024 .f32) (x2 : Vec F S1x1024 .f32) (x3 : Vec F S1024x64 .f32) : Vec F S1024x64 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- Case B stores nothing into the output window (idle there, and not written back): a placeholder nothing consults. -/
def out1_B_4 (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : ¬cond1_1 i)
    (x0 : Vec F S1024x1024 .bf16) (x1 : Vec F S8x1024 .f32) (x2 : Vec F S1x1024 .f32) (x3 : Vec F S1024x64 .f32) (xs0 : Vec F S1024x64 .f32) : Vec F S1024x64 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- Case B's stores into the accumulator cover it. -/
theorem scover1_B_0 (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : ¬cond1_1 i)
    (x0 : Vec F S1024x1024 .bf16) (x1 : Vec F S8x1024 .f32) (x2 : Vec F S1x1024 .f32) (x3 : Vec F S1024x64 .f32) (xs0 : Vec F S1024x64 .f32) (y : S1024x64.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S1024x64.size (by sl_kernel_rfl) y

/-- What case B leaves in the accumulator. -/
def sout1_B_0 (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : ¬cond1_1 i)
    (x0 : Vec F S1024x1024 .bf16) (x1 : Vec F S8x1024 .f32) (x2 : Vec F S1x1024 .f32) (x3 : Vec F S1024x64 .f32) (xs0 : Vec F S1024x64 .f32) : Vec F S1024x64 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-- Case C's one store covers the output block. -/
theorem cover1_C_4 (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1024x1024 .bf16) (x1 : Vec F S8x1024 .f32) (x2 : Vec F S1x1024 .f32) (x3 : Vec F S1024x64 .f32) (xs0 : Vec F S1024x64 .f32) (y : S1024x64.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1024x64.size (by sl_kernel_rfl) y

/-- What case C leaves in the output window's staging buffer. -/
def out1_C_4 (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1024x1024 .bf16) (x1 : Vec F S8x1024 .f32) (x2 : Vec F S1x1024 .f32) (x3 : Vec F S1024x64 .f32) (xs0 : Vec F S1024x64 .f32) : Vec F S1024x64 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-- Case C's stores into the accumulator cover it. -/
theorem scover1_C_0 (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1024x1024 .bf16) (x1 : Vec F S8x1024 .f32) (x2 : Vec F S1x1024 .f32) (x3 : Vec F S1024x64 .f32) (xs0 : Vec F S1024x64 .f32) (y : S1024x64.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1024x64.size (by sl_kernel_rfl) y

/-- What case C leaves in the accumulator. -/
def sout1_C_0 (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1024x1024 .bf16) (x1 : Vec F S8x1024 .f32) (x2 : Vec F S1x1024 .f32) (x3 : Vec F S1024x64 .f32) (xs0 : Vec F S1024x64 .f32) : Vec F S1024x64 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

section
variable (V : (c : Dev nD) → (b : Ref sig .tc) → Buf (Elt F) ((c : Thread nD τ).loc b))

/-- What the output window's buffer and the accumulator hold after the body at position `n`. -/
def outsAt1 (c : Dev nD) : (n : ℕ) → n < cfg1.N → Vec F S1024x64 .f32 × Vec F S1024x64 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's own (every scoped buffer at anything);
    afterwards the accumulator at what the point before left in it, the other scoped buffers at anything. -/
def PhiS1 (c : Dev nD) : (n : ℕ) → n ≤ cfg1.N → sProp 𝕄
  | 0, _ => Pipeline.ΦA spec1 c
  | n + 1, hn => iprop(rest1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(rest1 c (owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(rest1 c (owns (c : Thread nD τ) scM1_0 fullShare ((outsAt1 V c (n - 1) (by omega)).2)) ∗ (∃ r, prngReg c r)) := by
  cases n with
  | zero => exact absurd rfl hz
  | succ n => rfl

/-- The region's proof data on core `c`: the arrays as the region finds them; after the body at point `t` each input's
    buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the point's position in its row of eight says which case
    it is in; the invariant hands the body the accumulator at what the point before left and takes it back at this
    point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨HR, Hg⟩, Ho, ⟨%d0, H0⟩, ⟨%d1, H1⟩, ⟨%d2, H2⟩, ⟨%d3, H3⟩, ⟨%d4, H4⟩⟩
        ihave HR' := rest1_out c _ $$ HR
        icases HR' with ⟨HS0, HRest⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HRest Hg]
        · isplitl [HS0 HRest]
          · iapply rest1_in; isplitl [HS0]
            · unfold owns; iexists _; isplitr
              swap; · iexact HS0
              ipureintro; exact View.read_writes_of_cover _ _ _ _ _ (scover1_A_0 c _ _ _ _ _ _ _ _ _ _ _ _ _ _ _ _ _ _ _)
            iexact HRest
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨HR, Hg⟩, Ho, ⟨%d0, H0⟩, ⟨%d1, H1⟩, ⟨%d2, H2⟩, ⟨%d3, H3⟩, ⟨%d4, H4⟩⟩
        ihave HR' := rest1_out c _ $$ HR
        icases HR' with ⟨HS0, HRest⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HRest Hg]
        · isplitl [HS0 HRest]
          · iapply rest1_in; isplitl [HS0]
            · unfold owns; iexists _; isplitr
              swap; · iexact HS0
              ipureintro; exact View.read_writes_of_cover _ _ _ _ _ (scover1_A_0 c _ _ _ _ _ _ _ _ _ _ _ _ _ _ _ _ _ _ _)
            iexact HRest
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      by_cases hz : t.val = 0
      · exfalso; omega
      · rw [PhiS1_castSucc V c t, PhiS1_pos V c _ _ hz]
        iintro ⟨⟨HR, Hg⟩, Ho, ⟨%d0, H0⟩, ⟨%d1, H1⟩, ⟨%d2, H2⟩, ⟨%d3, H3⟩, ⟨%d4, H4⟩⟩
        ihave HR' := rest1_out c _ $$ HR
        icases HR' with ⟨HS0, HRest⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HRest Hg]
        · isplitl [HS0 HRest]
          · iapply rest1_in; isplitl [HS0]
            · unfold owns; iexists _; isplitr
              swap; · iexact HS0
              ipureintro; exact View.read_writes_of_cover _ _ _ _ _ (scover1_C_0 c _ _ _ _ _ _ _ _ _ _ _ _ _ _ _ _ _ _ _ _)
            iexact HRest
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨HR, Hg⟩, Ho, ⟨%d0, H0⟩, ⟨%d1, H1⟩, ⟨%d2, H2⟩, ⟨%d3, H3⟩, ⟨%d4, H4⟩⟩
        ihave HR' := rest1_out c _ $$ HR
        icases HR' with ⟨HS0, HRest⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HRest Hg]
        · isplitl [HS0 HRest]
          · iapply rest1_in; isplitl [HS0]
            · unfold owns; iexists _; isplitr
              swap; · iexact HS0
              ipureintro; exact View.read_writes_of_cover _ _ _ _ _ (scover1_B_0 c _ _ _ _ _ _ _ _ _ _ _ _ _ _ _ _ _ _ _ _)
            iexact HRest
          iexact Hg
        isplitl [Ho]; · iexact Ho
        isplitl [H0]; · iexact H0
        isplitl [H1]; · iexact H1
        isplitl [H2]; · iexact H2
        isplitl [H3]; · iexact H3
        iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HR, Hg⟩
  isplitl [HR]
  · ihave HR' := rest1_out c _ $$ HR
    icases HR' with ⟨HS0, HRest⟩
    iapply rest1_in; isplitl [HS0]
    · iexists _; iexact HS0
    iexact HRest
  iexact Hg

theorem hout1 (c : Dev nD) : (dat1 V c).Φ (Fin.last cfg1.N) ⊢ Pipeline.ΦA spec1 c :=
  Phi_out1 V c _ (by rw [Fin.val_last]; have : cfg1.N = 64 := N_1; omega)

end

end Cert.Kernel.Reg

end
-- ==== Proof.KB.Run.lean ====
import proofs.«178722_j75866302316653_2_alg».proof.Proof.KB.R0Frame
import proofs.«178722_j75866302316653_2_alg».proof.Proof.KB.R1Frame
import proofs.«178722_j75866302316653_2_alg».proof.Proof.Gen.Kernel.Regions

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The whole program run: the host prefix, the first pass, the second pass

The contents of every unscoped buffer at each boundary are a fold from the launch memory: the host prefix computes
`Wh`, the slice of `a`, the score column and its row reshape; the first pass leaves its three outputs (every other buffer
as entered); the second pass leaves the result (every other buffer as entered). The run ends with the result buffer at
what the second pass's write-backs leave and with the four argument arrays as launched. -/

variable (m : (ℓ : Loc nD τ sig) → Buf (Elt F) ℓ) (ρ : Dev nD → PrngReg)

/-- Core `c`'s buffers at launch, -/
abbrev W0 : Dev nD → Valuation τ sig (Elt F) := fun c => Gen.V0 m c
/-- after the host prefix (the first pass's entry), -/
abbrev W1 : Dev nD → Valuation τ sig (Elt F) := fun c => Gen.V1 m c
abbrev V1 : (c : Dev nD) → (b : Ref sig .tc) → Buf (Elt F) ((c : Thread nD τ).loc b) := fun c b => W1 m c b
/-- at the first pass's exit: its arrays at what the pipeline leaves, every other buffer as entered, -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- and at the second pass's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### The arguments end as launched: the host prefix writes none, the first pass reads the adjacency through an input
    window and bypasses the others, the second pass bypasses all four -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = m ((c : Thread nD τ).loc main_arg0) := Gen.V1_of m c main_arg0 (by decide)

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 0).trans (((dat0 (V1 m) c).arrAt_in 0 rfl _).trans (A_eq0 (V1 m) c 0))
    _ = m ((c : Thread nD τ).loc main_arg1) := Gen.V1_of m c main_arg1 (by decide)

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := Gen.V1_of m c main_arg2 (by decide)

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := Gen.V1_of m c main_arg3 (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at the contents before it, left at the contents
    after it. Its arrays are split out of the unscoped buffers and put back at their exit contents; the generator register
    and the scoped buffers go into the region's invariant and come back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hΦ := hin0 (V1 m) c
    unfold Pipeline.ΦA at hΦ
    rw [show (pdats m 0 c).Φ 0 = (dat0 (V1 m) c).Φ 0 from rfl]
    iintro ⟨Hp, -, Hr⟩
    iapply hΦ
    isplitl [Hr]; · iexact Hr
    iexact Hp
  hout c := by
    have hΦ := hout0 (V1 m) c
    unfold Pipeline.ΦA at hΦ
    rw [Pipeline.ownSems0_none, show (pdats m 0 c).Φ (Fin.last _) = (dat0 (V1 m) c).Φ (Fin.last cfg0.N) from rfl]
    iintro H
    ihave H' := hΦ $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at their exit contents; the generator register
    and the scoped buffers go into the region's invariant and come back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hΦ := hin1 (V2 m) c
    unfold Pipeline.ΦA at hΦ
    rw [show (pdats m 1 c).Φ 0 = (dat1 (V2 m) c).Φ 0 from rfl]
    iintro ⟨Hp, -, Hr⟩
    iapply hΦ
    isplitl [Hr]; · iexact Hr
    iexact Hp
  hout c := by
    have hΦ := hout1 (V2 m) c
    unfold Pipeline.ΦA at hΦ
    rw [Pipeline.ownSems0_none, show (pdats m 1 c).Φ (Fin.last _) = (dat1 (V2 m) c).Φ (Fin.last cfg1.N) from rfl]
    iintro H
    ihave H' := hΦ $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN, at any `F`: from any memory with zero counters every weakly fair execution of the program terminates, nothing
    faulting, and every final state has the result buffer at what the second pass's write-backs leave (the pipeline's fold
    over its proof data) and the four argument arrays as launched. -/
theorem run_main : θ_run defs (onTc (τ := τ) (main (F := F))) ⟨m, fun _ => 0, ρ⟩ (fun r => ∀ c : Dev nD,
      r.2.mem ((c.tc : Thread nD τ).loc main_v5) = (dat1 (V2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v5 (by decide))).trans (W3_arr m c 4),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c)⟩)

end Cert.Kernel.Reg

end
-- ==== Proof.KI.R0Base.lean ====
import proofs.«178722_j75866302316653_2_alg».proof.Proof.Gen.KernelIdeal.Launch
import proofs.«178722_j75866302316653_2_alg».proof.Proof.Gen.KernelIdeal.Skeleton
import proofs.«178722_j75866302316653_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first pass (the column statistics), at the contents `V` its region is entered with

What the three control cases of its body share. The grid is `8 × 8`, the point `t = 8·jt + it` (the column block
outside, the row block inside); the running maximum and the running sum are reset where `it = 0` and the
column's log-sum-exp is written where `it = 7`. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## Where each case holds -/

/-- The running statistics are reset: the inner coordinate is `0`. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The log-sum-exp is written: the inner coordinate is `7`. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel

/-! ## The memrefs the body is called with -/

abbrev VO0_3 : View sig .tc .vmem S1x1024 .f32 := (Memref.whole cc0_stg3_0 : Memref sig .tc .vmem S1x1024 .f32).view
abbrev VO0_4 : View sig .tc .vmem S1024x1024 .bf16 := (Memref.whole cc0_stg4_0 : Memref sig .tc .vmem S1024x1024 .bf16).view
abbrev VO0_5 : View sig .tc .vmem S8x1024 .f32 := (Memref.whole cc0_stg5_0 : Memref sig .tc .vmem S8x1024 .f32).view
abbrev ms0_0 (t : Fin cfg0.N) : Memref sig .tc .vmem S1024x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x1024 .f32 := win0_5.stage (cfg0.slots t 5)
abbrev hs0_5 (t : Fin cfg0.N) : (ms0_5 t).IsWhole := hstage0_5 ((cfg0.slots t 5).cast nbuf0_5)
/-- The running maximum and the running sum: whole scoped buffers of the kernel's own, carried from point to point. -/
abbrev scM0_0 : Memref sig .tc .vmem S1x1024 .f32 := Memref.whole cc0_scratch0
abbrev scM0_1 : Memref sig .tc .vmem S1x1024 .f32 := Memref.whole cc0_scratch1
abbrev VS0_0 : View sig .tc .vmem S1x1024 .f32 := scM0_0.view
abbrev VS0_1 : View sig .tc .vmem S1x1024 .f32 := scM0_1.view

/-! ## The scoped buffers the body does not touch -/

/-- The core's scoped buffers that are neither a staging buffer of this region nor one of its two scratch buffers. -/
def oth0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The region's class invariant with the two scratch buffers as memrefs owned at some contents. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ oth0 c) ∗ (∃ r, prngReg c r)) := by
  unfold Pipeline.ΦA oth0; rw [scopedRest0_eq]; simp only [scM0_0, scM0_1, owns_whole]; rfl

end Cert.KernelIdeal.Reg

end
-- ==== Proof.KI.R0RunA.lean ====
import proofs.«178722_j75866302316653_2_alg».proof.Proof.KI.R0Base

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first pass's body, run whole, in case A of its two conditions -/

set_option maxHeartbeats 4000000 in
/-- The body in case A: on whole memrefs — the inputs' at their contents, an output the case leaves alone at contents
    handed back untouched, an output it stores at anything, a carried scratch at what the point before left or (when the case
    stores it whole first) at anything — the body runs, and leaves in each buffer it stored the pieces the run finds. -/
noncomputable def kernelRun0_A (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S1024x1024 .i32) (x1 : Vec F S1024x1 .f32) (x2 : Vec F S1x1024 .f32)  :
    Σ' (L3 : List (View.Piece (Elt F) S1x1024 .f32)) (L4 : List (View.Piece (Elt F) S1024x1024 .bf16)) (L5 : List (View.Piece (Elt F) S8x1024 .f32)) (LS0 : List (View.Piece (Elt F) S1x1024 .f32)), { LS1 : List (View.Piece (Elt F) S1x1024 .f32) //
      ∀ (xi3 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9) K } := by
  refine ⟨[], ?_, ?_, ?_, ?_, fun xi3 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%fo3, %hfo3, HO3⟩, ⟨%do4, %fo4, -, HO4⟩, ⟨%do5, %fo5, -, HO5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hfo3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO3]
    · iexists _; isplitr; · ipureintro; exact harg5.read_unread _
      iexact HO3
    isplitl [HO4]; · iexists _; iexact HO4
    isplitl [HO5]; · iexists _; iexact HO5
    isplitl [HS0]; · iexists _; iexact HS0
    iexists _; iexact HS1

end Cert.KernelIdeal.Reg

end
-- ==== Proof.KI.R0RunB.lean ====
import proofs.«178722_j75866302316653_2_alg».proof.Proof.KI.R0Base

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first pass's body, run whole, in case B of its two conditions -/

set_option maxHeartbeats 4000000 in
/-- The body in case B: on whole memrefs — the inputs' at their contents, an output the case leaves alone at contents
    handed back untouched, an output it stores at anything, a carried scratch at what the point before left or (when the case
    stores it whole first) at anything — the body runs, and leaves in each buffer it stored the pieces the run finds. -/
noncomputable def kernelRun0_B (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S1024x1024 .i32) (x1 : Vec F S1024x1 .f32) (x2 : Vec F S1x1024 .f32) (xs0 : Vec F S1x1024 .f32) (xs1 : Vec F S1x1024 .f32) :
    Σ' (L3 : List (View.Piece (Elt F) S1x1024 .f32)) (L4 : List (View.Piece (Elt F) S1024x1024 .bf16)) (L5 : List (View.Piece (Elt F) S8x1024 .f32)) (LS0 : List (View.Piece (Elt F) S1x1024 .f32)), { LS1 : List (View.Piece (Elt F) S1x1024 .f32) //
      ∀ (xi3 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9) K } := by
  refine ⟨[], ?_, ?_, ?_, ?_, fun xi3 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%fo3, %hfo3, HO3⟩, ⟨%do4, %fo4, -, HO4⟩, ⟨%do5, %fo5, -, HO5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfo3; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO3]
    · iexists _; isplitr; · ipureintro; exact harg5.read_unread _
      iexact HO3
    isplitl [HO4]; · iexists _; iexact HO4
    isplitl [HO5]; · iexists _; iexact HO5
    isplitl [HS0]; · iexists _; iexact HS0
    iexists _; iexact HS1

end Cert.KernelIdeal.Reg

end
-- ==== Proof.KI.R0RunC.lean ====
import proofs.«178722_j75866302316653_2_alg».proof.Proof.KI.R0Base

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first pass's body, run whole, in case C of its two conditions -/

set_option maxHeartbeats 4000000 in
/-- The body in case C: on whole memrefs — the inputs' at their contents, an output the case leaves alone at contents
    handed back untouched, an output it stores at anything, a carried scratch at what the point before left or (when the case
    stores it whole first) at anything — the body runs, and leaves in each buffer it stored the pieces the run finds. -/
noncomputable def kernelRun0_C (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S1024x1024 .i32) (x1 : Vec F S1024x1 .f32) (x2 : Vec F S1x1024 .f32) (xs0 : Vec F S1x1024 .f32) (xs1 : Vec F S1x1024 .f32) :
    Σ' (L3 : List (View.Piece (Elt F) S1x1024 .f32)) (L4 : List (View.Piece (Elt F) S1024x1024 .bf16)) (L5 : List (View.Piece (Elt F) S8x1024 .f32)) (LS0 : List (View.Piece (Elt F) S1x1024 .f32)), { LS1 : List (View.Piece (Elt F) S1x1024 .f32) //
      ∀  (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9) K } := by
  refine ⟨?_, ?_, ?_, ?_, ?_, fun  E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%do3, %fo3, -, HO3⟩, ⟨%do4, %fo4, -, HO4⟩, ⟨%do5, %fo5, -, HO5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO3]; · iexists _; iexact HO3
    isplitl [HO4]; · iexists _; iexact HO4
    isplitl [HO5]; · iexists _; iexact HO5
    isplitl [HS0]; · iexists _; iexact HS0
    iexists _; iexact HS1

end Cert.KernelIdeal.Reg

end
-- ==== Proof.KI.R0Frame.lean ====
import proofs.«178722_j75866302316653_2_alg».proof.Proof.KI.R0RunA
import proofs.«178722_j75866302316653_2_alg».proof.Proof.KI.R0RunB
import proofs.«178722_j75866302316653_2_alg».proof.Proof.KI.R0RunC

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first pass as a region: what its two scratch rows and its three outputs hold point by point, and the body obligation

At every grid point the body folds one block of scores into the running maximum and the running sum of its column block,
and writes the block's rescaled exponentials and the running maximum; where the inner coordinate is `0` it resets the
two running rows first, where it is `7` it also writes the column block's log-sum-exp. What the running rows hold after
point `n` is a recursion on `n` through the three cases; the region's invariant carries them from one point to the next. -/

/-- What case A leaves in output window 3's staging buffer (nothing: a placeholder nothing consults). -/
def out0_A_3 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S1024x1024 .i32) (x1 : Vec F S1024x1 .f32) (x2 : Vec F S1x1024 .f32) : Vec F S1x1024 .f32 :=
  VO0_3.read (Elt F) (VO0_3.writes (Elt F) VO0_3.junk (kernelRun0_A c i arg2 harg2 arg3 harg3 arg4 harg4 arg5 harg5 arg6 harg6 arg7 harg7 arg8 harg8 arg9 harg9 hc0 hc1 x0 x1 x2).1)

/-- Case A's stores into output window 4 cover its block. -/
theorem cover0_A_4 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S1024x1024 .i32) (x1 : Vec F S1024x1 .f32) (x2 : Vec F S1x1024 .f32) (y : S1024x1024.Idx) :
    ∃ pc ∈ (kernelRun0_A c i arg2 harg2 arg3 harg3 arg4 harg4 arg5 harg5 arg6 harg6 arg7 harg7 arg8 harg8 arg9 harg9 hc0 hc1 x0 x1 x2).2.1, y ∈ pc.1.set :=
  View.cover_of_tiledL (kernelRun0_A c i arg2 harg2 arg3 harg3 arg4 harg4 arg5 harg5 arg6 harg6 arg7 harg7 arg8 harg8 arg9 harg9 hc0 hc1 x0 x1 x2).2.1 S1024x1024.size (by sl_kernel_rfl) y

/-- What case A leaves in output window 4's staging buffer. -/
def out0_A_4 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S1024x1024 .i32) (x1 : Vec F S1024x1 .f32) (x2 : Vec F S1x1024 .f32) : Vec F S1024x1024 .bf16 :=
  VO0_4.read (Elt F) (VO0_4.writes (Elt F) VO0_4.junk (kernelRun0_A c i arg2 harg2 arg3 harg3 arg4 harg4 arg5 harg5 arg6 harg6 arg7 harg7 arg8 harg8 arg9 harg9 hc0 hc1 x0 x1 x2).2.1)

/-- Case A's stores into output window 5 cover its block. -/
theorem cover0_A_5 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S1024x1024 .i32) (x1 : Vec F S1024x1 .f32) (x2 : Vec F S1x1024 .f32) (y : S8x1024.Idx) :
    ∃ pc ∈ (kernelRun0_A c i arg2 harg2 arg3 harg3 arg4 harg4 arg5 harg5 arg6 harg6 arg7 harg7 arg8 harg8 arg9 harg9 hc0 hc1 x0 x1 x2).2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.1 S8x1024.size (by sl_kernel_rfl) y

/-- What case A leaves in output window 5's staging buffer. -/
def out0_A_5 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S1024x1024 .i32) (x1 : Vec F S1024x1 .f32) (x2 : Vec F S1x1024 .f32) : Vec F S8x1024 .f32 :=
  VO0_5.read (Elt F) (VO0_5.writes (Elt F) VO0_5.junk (kernelRun0_A c i arg2 harg2 arg3 harg3 arg4 harg4 arg5 harg5 arg6 harg6 arg7 harg7 arg8 harg8 arg9 harg9 hc0 hc1 x0 x1 x2).2.2.1)

/-- Case A's stores into scratch 0 cover it. -/
theorem scover0_A_0 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S1024x1024 .i32) (x1 : Vec F S1024x1 .f32) (x2 : Vec F S1x1024 .f32) (y : S1x1024.Idx) :
    ∃ pc ∈ (kernelRun0_A c i arg2 harg2 arg3 harg3 arg4 harg4 arg5 harg5 arg6 harg6 arg7 harg7 arg8 harg8 arg9 harg9 hc0 hc1 x0 x1 x2).2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.2.1 S1x1024.size (by sl_kernel_rfl) y

/-- What case A leaves in scratch 0. -/
def sout0_A_0 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S1024x1024 .i32) (x1 : Vec F S1024x1 .f32) (x2 : Vec F S1x1024 .f32) : Vec F S1x1024 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2).2.2.2.1)

/-- Case A's stores into scratch 1 cover it. -/
theorem scover0_A_1 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S1024x1024 .i32) (x1 : Vec F S1024x1 .f32) (x2 : Vec F S1x1024 .f32) (y : S1x1024.Idx) :
    ∃ pc ∈ (kernelRun0_A c i arg2 harg2 arg3 harg3 arg4 harg4 arg5 harg5 arg6 harg6 arg7 harg7 arg8 harg8 arg9 harg9 hc0 hc1 x0 x1 x2).2.2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.2.2.1 S1x1024.size (by sl_kernel_rfl) y

/-- What case A leaves in scratch 1. -/
def sout0_A_1 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S1024x1024 .i32) (x1 : Vec F S1024x1 .f32) (x2 : Vec F S1x1024 .f32) : Vec F S1x1024 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2).2.2.2.2.1)

/-- What case B leaves in output window 3's staging buffer (nothing: a placeholder nothing consults). -/
def out0_B_3 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S1024x1024 .i32) (x1 : Vec F S1024x1 .f32) (x2 : Vec F S1x1024 .f32) (xs0 : Vec F S1x1024 .f32) (xs1 : Vec F S1x1024 .f32) : Vec F S1x1024 .f32 :=
  VO0_3.read (Elt F) (VO0_3.writes (Elt F) VO0_3.junk (kernelRun0_B c i arg2 harg2 arg3 harg3 arg4 harg4 arg5 harg5 arg6 harg6 arg7 harg7 arg8 harg8 arg9 harg9 hc0 hc1 x0 x1 x2 xs0 xs1).1)

/-- Case B's stores into output window 4 cover its block. -/
theorem cover0_B_4 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S1024x1024 .i32) (x1 : Vec F S1024x1 .f32) (x2 : Vec F S1x1024 .f32) (xs0 : Vec F S1x1024 .f32) (xs1 : Vec F S1x1024 .f32) (y : S1024x1024.Idx) :
    ∃ pc ∈ (kernelRun0_B c i arg2 harg2 arg3 harg3 arg4 harg4 arg5 harg5 arg6 harg6 arg7 harg7 arg8 harg8 arg9 harg9 hc0 hc1 x0 x1 x2 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).2.1 S1024x1024.size (by sl_kernel_rfl) y

/-- What case B leaves in output window 4's staging buffer. -/
def out0_B_4 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S1024x1024 .i32) (x1 : Vec F S1024x1 .f32) (x2 : Vec F S1x1024 .f32) (xs0 : Vec F S1x1024 .f32) (xs1 : Vec F S1x1024 .f32) : Vec F S1024x1024 .bf16 :=
  VO0_4.read (Elt F) (VO0_4.writes (Elt F) VO0_4.junk (kernelRun0_B c i arg2 harg2 arg3 harg3 arg4 harg4 arg5 harg5 arg6 harg6 arg7 harg7 arg8 harg8 arg9 harg9 hc0 hc1 x0 x1 x2 xs0 xs1).2.1)

/-- Case B's stores into output window 5 cover its block. -/
theorem cover0_B_5 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S1024x1024 .i32) (x1 : Vec F S1024x1 .f32) (x2 : Vec F S1x1024 .f32) (xs0 : Vec F S1x1024 .f32) (xs1 : Vec F S1x1024 .f32) (y : S8x1024.Idx) :
    ∃ pc ∈ (kernelRun0_B c i arg2 harg2 arg3 harg3 arg4 harg4 arg5 harg5 arg6 harg6 arg7 harg7 arg8 harg8 arg9 harg9 hc0 hc1 x0 x1 x2 xs0 xs1).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).2.2.1 S8x1024.size (by sl_kernel_rfl) y

/-- What case B leaves in output window 5's staging buffer. -/
def out0_B_5 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S1024x1024 .i32) (x1 : Vec F S1024x1 .f32) (x2 : Vec F S1x1024 .f32) (xs0 : Vec F S1x1024 .f32) (xs1 : Vec F S1x1024 .f32) : Vec F S8x1024 .f32 :=
  VO0_5.read (Elt F) (VO0_5.writes (Elt F) VO0_5.junk (kernelRun0_B c i arg2 harg2 arg3 harg3 arg4 harg4 arg5 harg5 arg6 harg6 arg7 harg7 arg8 harg8 arg9 harg9 hc0 hc1 x0 x1 x2 xs0 xs1).2.2.1)

/-- Case B's stores into scratch 0 cover it. -/
theorem scover0_B_0 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S1024x1024 .i32) (x1 : Vec F S1024x1 .f32) (x2 : Vec F S1x1024 .f32) (xs0 : Vec F S1x1024 .f32) (xs1 : Vec F S1x1024 .f32) (y : S1x1024.Idx) :
    ∃ pc ∈ (kernelRun0_B c i arg2 harg2 arg3 harg3 arg4 harg4 arg5 harg5 arg6 harg6 arg7 harg7 arg8 harg8 arg9 harg9 hc0 hc1 x0 x1 x2 xs0 xs1).2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).2.2.2.1 S1x1024.size (by sl_kernel_rfl) y

/-- What case B leaves in scratch 0. -/
def sout0_B_0 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S1024x1024 .i32) (x1 : Vec F S1024x1 .f32) (x2 : Vec F S1x1024 .f32) (xs0 : Vec F S1x1024 .f32) (xs1 : Vec F S1x1024 .f32) : Vec F S1x1024 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 xs0 xs1).2.2.2.1)

/-- Case B's stores into scratch 1 cover it. -/
theorem scover0_B_1 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S1024x1024 .i32) (x1 : Vec F S1024x1 .f32) (x2 : Vec F S1x1024 .f32) (xs0 : Vec F S1x1024 .f32) (xs1 : Vec F S1x1024 .f32) (y : S1x1024.Idx) :
    ∃ pc ∈ (kernelRun0_B c i arg2 harg2 arg3 harg3 arg4 harg4 arg5 harg5 arg6 harg6 arg7 harg7 arg8 harg8 arg9 harg9 hc0 hc1 x0 x1 x2 xs0 xs1).2.2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).2.2.2.2.1 S1x1024.size (by sl_kernel_rfl) y

/-- What case B leaves in scratch 1. -/
def sout0_B_1 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S1024x1024 .i32) (x1 : Vec F S1024x1 .f32) (x2 : Vec F S1x1024 .f32) (xs0 : Vec F S1x1024 .f32) (xs1 : Vec F S1x1024 .f32) : Vec F S1x1024 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 xs0 xs1).2.2.2.2.1)

/-- Case C's stores into output window 3 cover its block. -/
theorem cover0_C_3 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S1024x1024 .i32) (x1 : Vec F S1024x1 .f32) (x2 : Vec F S1x1024 .f32) (xs0 : Vec F S1x1024 .f32) (xs1 : Vec F S1x1024 .f32) (y : S1x1024.Idx) :
    ∃ pc ∈ (kernelRun0_C c i arg2 harg2 arg3 harg3 arg4 harg4 arg5 harg5 arg6 harg6 arg7 harg7 arg8 harg8 arg9 harg9 hc0 hc1 x0 x1 x2 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).1 S1x1024.size (by sl_kernel_rfl) y

/-- What case C leaves in output window 3's staging buffer. -/
def out0_C_3 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S1024x1024 .i32) (x1 : Vec F S1024x1 .f32) (x2 : Vec F S1x1024 .f32) (xs0 : Vec F S1x1024 .f32) (xs1 : Vec F S1x1024 .f32) : Vec F S1x1024 .f32 :=
  VO0_3.read (Elt F) (VO0_3.writes (Elt F) VO0_3.junk (kernelRun0_C c i arg2 harg2 arg3 harg3 arg4 harg4 arg5 harg5 arg6 harg6 arg7 harg7 arg8 harg8 arg9 harg9 hc0 hc1 x0 x1 x2 xs0 xs1).1)

/-- Case C's stores into output window 4 cover its block. -/
theorem cover0_C_4 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S1024x1024 .i32) (x1 : Vec F S1024x1 .f32) (x2 : Vec F S1x1024 .f32) (xs0 : Vec F S1x1024 .f32) (xs1 : Vec F S1x1024 .f32) (y : S1024x1024.Idx) :
    ∃ pc ∈ (kernelRun0_C c i arg2 harg2 arg3 harg3 arg4 harg4 arg5 harg5 arg6 harg6 arg7 harg7 arg8 harg8 arg9 harg9 hc0 hc1 x0 x1 x2 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).2.1 S1024x1024.size (by sl_kernel_rfl) y

/-- What case C leaves in output window 4's staging buffer. -/
def out0_C_4 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S1024x1024 .i32) (x1 : Vec F S1024x1 .f32) (x2 : Vec F S1x1024 .f32) (xs0 : Vec F S1x1024 .f32) (xs1 : Vec F S1x1024 .f32) : Vec F S1024x1024 .bf16 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 xs0 xs1).2.1)

/-- Case C's stores into output window 5 cover its block. -/
theorem cover0_C_5 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S1024x1024 .i32) (x1 : Vec F S1024x1 .f32) (x2 : Vec F S1x1024 .f32) (xs0 : Vec F S1x1024 .f32) (xs1 : Vec F S1x1024 .f32) (y : S8x1024.Idx) :
    ∃ pc ∈ (kernelRun0_C c i arg2 harg2 arg3 harg3 arg4 harg4 arg5 harg5 arg6 harg6 arg7 harg7 arg8 harg8 arg9 harg9 hc0 hc1 x0 x1 x2 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).2.2.1 S8x1024.size (by sl_kernel_rfl) y

/-- What case C leaves in output window 5's staging buffer. -/
def out0_C_5 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S1024x1024 .i32) (x1 : Vec F S1024x1 .f32) (x2 : Vec F S1x1024 .f32) (xs0 : Vec F S1x1024 .f32) (xs1 : Vec F S1x1024 .f32) : Vec F S8x1024 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 xs0 xs1).2.2.1)

/-- Case C's stores into scratch 0 cover it. -/
theorem scover0_C_0 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S1024x1024 .i32) (x1 : Vec F S1024x1 .f32) (x2 : Vec F S1x1024 .f32) (xs0 : Vec F S1x1024 .f32) (xs1 : Vec F S1x1024 .f32) (y : S1x1024.Idx) :
    ∃ pc ∈ (kernelRun0_C c i arg2 harg2 arg3 harg3 arg4 harg4 arg5 harg5 arg6 harg6 arg7 harg7 arg8 harg8 arg9 harg9 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).2.2.2.1 S1x1024.size (by sl_kernel_rfl) y

/-- What case C leaves in scratch 0. -/
def sout0_C_0 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S1024x1024 .i32) (x1 : Vec F S1024x1 .f32) (x2 : Vec F S1x1024 .f32) (xs0 : Vec F S1x1024 .f32) (xs1 : Vec F S1x1024 .f32) : Vec F S1x1024 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 xs0 xs1).2.2.2.1)

/-- Case C's stores into scratch 1 cover it. -/
theorem scover0_C_1 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S1024x1024 .i32) (x1 : Vec F S1024x1 .f32) (x2 : Vec F S1x1024 .f32) (xs0 : Vec F S1x1024 .f32) (xs1 : Vec F S1x1024 .f32) (y : S1x1024.Idx) :
    ∃ pc ∈ (kernelRun0_C c i arg2 harg2 arg3 harg3 arg4 harg4 arg5 harg5 arg6 harg6 arg7 harg7 arg8 harg8 arg9 harg9 hc0 hc1 x0 x1 x2 xs0 xs1).2.2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).2.2.2.2.1 S1x1024.size (by sl_kernel_rfl) y

/-- What case C leaves in scratch 1. -/
def sout0_C_1 (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S1024x1024 .i32) (x1 : Vec F S1024x1 .f32) (x2 : Vec F S1x1024 .f32) (xs0 : Vec F S1x1024 .f32) (xs1 : Vec F S1x1024 .f32) : Vec F S1x1024 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 xs0 xs1).2.2.2.2.1)

section
variable (V : (c : Dev nD) → (b : Ref sig .tc) → Buf (Elt F) ((c : Thread nD τ).loc b))

/-- What the three output windows' buffers and the two scratch rows hold after the body at position `n`. -/
def outsAt0 (c : Dev nD) : (n : ℕ) → n < cfg0.N → Vec F S1x1024 .f32 × Vec F S1024x1024 .bf16 × Vec F S8x1024 .f32 × Vec F S1x1024 .f32 × Vec F S1x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
          out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
          out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
          sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
          sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
          out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
          out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
          sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
          out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
          out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
          sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
          out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
          out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
          sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val % 8 = 0) (h1 : ¬t.val % 8 = 7) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t),
          out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t),
          out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t),
          sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t),
          sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
          out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
          out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
          sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
          sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
          out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
          out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
          sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
          sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's own (every scoped buffer at anything);
    afterwards the two scratch rows at what the point before left in them, the other scoped buffers at anything. -/
def PhiS0 (c : Dev nD) : (n : ℕ) → n ≤ cfg0.N → sProp 𝕄
  | 0, _ => Pipeline.ΦA spec0 c
  | n + 1, hn => iprop((owns (c : Thread nD τ) scM0_0 fullShare ((outsAt0 V c n hn).2.2.2.1) ∗ owns (c : Thread nD τ) scM0_1 fullShare ((outsAt0 V c n hn).2.2.2.2) ∗ oth0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0_0 fullShare ((outsAt0 V c n hn).2.2.2.1) ∗ owns (c : Thread nD τ) scM0_1 fullShare ((outsAt0 V c n hn).2.2.2.2) ∗ oth0 c) ∗ (∃ r, prngReg c r)) := rfl

theorem PhiS0_pos (c : Dev nD) (n : ℕ) (h : n ≤ cfg0.N) (hz : n ≠ 0) :
    PhiS0 V c n h = iprop((owns (c : Thread nD τ) scM0_0 fullShare ((outsAt0 V c (n - 1) (by omega)).2.2.2.1) ∗ owns (c : Thread nD τ) scM0_1 fullShare ((outsAt0 V c (n - 1) (by omega)).2.2.2.2) ∗ oth0 c) ∗ (∃ r, prngReg c r)) := by
  cases n with
  | zero => exact absurd rfl hz
  | succ n => rfl

/-- The region's proof data on core `c`: the arrays as the region finds them; after the body at point `t` each input's
    buffer at its block and each output's at its component of `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' memrefs hold their blocks; the point's position in its column of eight says which
    case it is in; the invariant hands the body the two scratch rows at what the point before left and takes them back at
    this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [outsAt0_A V c t h0 h1]
      unfold out0_A_4 out0_A_5 sout0_A_0 sout0_A_1; (try dsimp only)
      by_cases hz : t.val = 0
      · rw [PhiS0_castSucc V c t, PhiS0_zero V c _ _ hz, PhiA0_eq]
        iintro ⟨⟨⟨HS0, HS1, HRest⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t)).2.2.2.2.2 _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, H3, ⟨%e4, H4⟩, ⟨%e5, H5⟩, ⟨%es0, HS0⟩, ⟨%es1, HS1⟩⟩
        isplitl [HS0 HS1 HRest Hg]
        · isplitl [HS0 HS1 HRest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _)
            iexact HRest
          iexact Hg
        isplitl [Ho]; · iexact Ho
        isplitl [H0]; · iexact H0
        isplitl [H1]; · iexact H1
        isplitl [H2]; · iexact H2
        isplitl [H3]; · iexists _; iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _ _)
        unfold owns; iexists _; isplitr
        swap; · iexact H5
        ipureintro; exact View.read_writes_of_cover _ _ _ _ _ (cover0_A_5 c _ _ _ _ _ _ _ _ _ _ _ _ _ _ _ _ _ _ _ _ _ _)
      · rw [PhiS0_castSucc V c t, PhiS0_pos V c _ _ hz]
        iintro ⟨⟨⟨HS0, HS1, HRest⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t)).2.2.2.2.2 _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexists _; iexact HS0
        isplitl [HS1]; · iexists _; iexact HS1
        iintro ⟨H0, H1, H2, H3, ⟨%e4, H4⟩, ⟨%e5, H5⟩, ⟨%es0, HS0⟩, ⟨%es1, HS1⟩⟩
        isplitl [HS0 HS1 HRest Hg]
        · isplitl [HS0 HS1 HRest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _)
            iexact HRest
          iexact Hg
        isplitl [Ho]; · iexact Ho
        isplitl [H0]; · iexact H0
        isplitl [H1]; · iexact H1
        isplitl [H2]; · iexact H2
        isplitl [H3]; · iexists _; iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _ _)
        unfold owns; iexists _; isplitr
        swap; · iexact H5
        ipureintro; exact View.read_writes_of_cover _ _ _ _ _ (cover0_A_5 c _ _ _ _ _ _ _ _ _ _ _ _ _ _ _ _ _ _ _ _ _ _)
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [outsAt0_C V c t h0 h1]
      unfold out0_C_3 out0_C_4 out0_C_5 sout0_C_0 sout0_C_1; (try dsimp only)
      by_cases hz : t.val = 0
      · exfalso; omega
      · rw [PhiS0_castSucc V c t, PhiS0_pos V c _ _ hz]
        iintro ⟨⟨⟨HS0, HS1, HRest⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) _ _).2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        isplitl [HS1]; · iexact HS1
        iintro ⟨H0, H1, H2, ⟨%e3, H3⟩, ⟨%e4, H4⟩, ⟨%e5, H5⟩, ⟨%es0, HS0⟩, ⟨%es1, HS1⟩⟩
        isplitl [HS0 HS1 HRest Hg]
        · isplitl [HS0 HS1 HRest]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _)
            iexact HRest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _)
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [outsAt0_B V c t h0 h1]
      unfold out0_B_4 out0_B_5 sout0_B_0 sout0_B_1; (try dsimp only)
      by_cases hz : t.val = 0
      · exfalso; omega
      · rw [PhiS0_castSucc V c t, PhiS0_pos V c _ _ hz]
        iintro ⟨⟨⟨HS0, HS1, HRest⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) _ _).2.2.2.2.2 _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, H3, ⟨%e4, H4⟩, ⟨%e5, H5⟩, ⟨%es0, HS0⟩, ⟨%es1, HS1⟩⟩
        isplitl [HS0 HS1 HRest Hg]
        · isplitl [HS0 HS1 HRest]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _)
            iexact HRest
          iexact Hg
        isplitl [Ho]; · iexact Ho
        isplitl [H0]; · iexact H0
        isplitl [H1]; · iexact H1
        isplitl [H2]; · iexact H2
        isplitl [H3]; · iexists _; iexact H3
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _ _)
        unfold owns; iexists _; isplitr
        swap; · iexact H5
        ipureintro; exact View.read_writes_of_cover _ _ _ _ _ (cover0_B_5 c _ _ _ _ _ _ _ _ _ _ _ _ _ _ _ _ _ _ _ _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: what the scratch rows hold is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HRest⟩, Hg⟩
  isplitl [HS0 HS1 HRest]
  · isplitl [HS0]; · iexists _; iexact HS0
    isplitl [HS1]; · iexists _; iexact HS1
    iexact HRest
  iexact Hg

theorem hout0 (c : Dev nD) : (dat0 V c).Φ (Fin.last cfg0.N) ⊢ Pipeline.ΦA spec0 c :=
  Phi_out0 V c _ (by rw [Fin.val_last]; have : cfg0.N = 64 := N_0; omega)

end

end Cert.KernelIdeal.Reg

end
-- ==== Proof.KI.R1Base.lean ====
import proofs.«178722_j75866302316653_2_alg».proof.Proof.Gen.KernelIdeal.Launch
import proofs.«178722_j75866302316653_2_alg».proof.Proof.Gen.KernelIdeal.Skeleton
import proofs.«178722_j75866302316653_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second pass (the weighted sum), at the contents `V` its region is entered with

What the three control cases of its body share: the blocks its windows read, where in the grid each case holds,
where the output window is idle, and the scoped buffers the body does not touch. The grid is `8 × 8`, the
point `t = 8·it + jt`; the accumulator is cleared where `jt = 0` and the output written where `jt = 7`. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## Where each case holds -/

/-- The accumulator is cleared: the inner coordinate is `0`. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The output is written: the inner coordinate is `7`. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated. -/
abbrev VO1_4 : View sig .tc .vmem S1024x64 .f32 := (Memref.whole cc1_stg4_0 : Memref sig .tc .vmem S1024x64 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x64 .f32 := win1_4.stage (cfg1.slots t 4)
abbrev hs1_4 (t : Fin cfg1.N) : (ms1_4 t).IsWhole := hstage1_4 ((cfg1.slots t 4).cast nbuf1_4)
/-- The accumulator: a whole scoped buffer of the kernel's own, carried from point to point. -/
abbrev scM1_0 : Memref sig .tc .vmem S1024x64 .f32 := Memref.whole cc1_scratch0
abbrev VS1_0 : View sig .tc .vmem S1024x64 .f32 := scM1_0.view

/-! ## The scoped buffers the body does not touch -/

/-- The core's scoped buffers that are no staging buffer of this region, the accumulator last and held as `X`. -/
def rest1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ X)

theorem rest1_out (c : Dev nD) (X : sProp 𝕄) : rest1 c X ⊢ iprop(X ∗ rest1 c iprop(emp)) := by
  unfold rest1
  iintro ⟨H0, H1, H2, H3, H4, H5, H6, H7, H8, H9, H10, H11, H12, H13, HX⟩
  isplitl [HX]; · iexact HX
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iempintro

theorem rest1_in (c : Dev nD) (X : sProp 𝕄) : iprop(X ∗ rest1 c iprop(emp)) ⊢ rest1 c X := by
  unfold rest1
  iintro ⟨HX, H0, H1, H2, H3, H4, H5, H6, H7, H8, H9, H10, H11, H12, H13, -⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact HX

/-- The region's class invariant with the accumulator as a memref owned at some contents. -/
theorem PhiA1_eq (c : Dev nD) :
    (Pipeline.ΦA spec1 c : sProp 𝕄)
      = iprop(rest1 c iprop(∃ d, owns (c : Thread nD τ) scM1_0 fullShare d) ∗ (∃ r, prngReg c r)) := by
  unfold Pipeline.ΦA rest1; rw [scopedRest1_eq]; simp only [scM1_0, owns_whole]; rfl

end Cert.KernelIdeal.Reg

end
-- ==== Proof.KI.R1RunA.lean ====
import proofs.«178722_j75866302316653_2_alg».proof.Proof.KI.R1Base

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second pass's body, run whole, in case A of its two conditions -/

set_option maxHeartbeats 4000000 in
/-- The body in case A: on whole memrefs — the inputs' at their contents, an output the case leaves alone at contents
    handed back untouched, an output it stores at anything, a carried scratch at what the point before left or (when the case
    stores it whole first) at anything — the body runs, and leaves in each buffer it stored the pieces the run finds. -/
noncomputable def kernelRun1_A (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : cond1_0 i) (hc1 : ¬cond1_1 i)
    (x0 : Vec F S1024x1024 .bf16) (x1 : Vec F S8x1024 .f32) (x2 : Vec F S1x1024 .f32) (x3 : Vec F S1024x64 .f32)  :
    Σ' (L4 : List (View.Piece (Elt F) S1024x64 .f32)), { LS0 : List (View.Piece (Elt F) S1024x64 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__weighted_kernel i arg2 harg2 arg3 harg3 arg4 harg4 arg5 harg5 arg6 harg6 arg7 harg7) K } := by
  refine ⟨[], ?_, fun xi4 E K => ?run⟩
  case run =>
    simp only [cc1__weighted_kernel_eq_skeleton]; unfold cc1__weighted_kernel_skel
    unfold owns
    iintro ⟨⟨%f0, %hf0, H0⟩, ⟨%f1, %hf1, H1⟩, ⟨%f2, %hf2, H2⟩, ⟨%f3, %hf3, H3⟩, ⟨%fo4, %hfo4, HO4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hfo4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO4]
    · iexists _; isplitr; · ipureintro; exact harg6.read_unread _
      iexact HO4
    iexists _; iexact HS0

end Cert.KernelIdeal.Reg

end
-- ==== Proof.KI.R1RunB.lean ====
import proofs.«178722_j75866302316653_2_alg».proof.Proof.KI.R1Base

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second pass's body, run whole, in case B of its two conditions -/

set_option maxHeartbeats 4000000 in
/-- The body in case B: on whole memrefs — the inputs' at their contents, an output the case leaves alone at contents
    handed back untouched, an output it stores at anything, a carried scratch at what the point before left or (when the case
    stores it whole first) at anything — the body runs, and leaves in each buffer it stored the pieces the run finds. -/
noncomputable def kernelRun1_B (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : ¬cond1_1 i)
    (x0 : Vec F S1024x1024 .bf16) (x1 : Vec F S8x1024 .f32) (x2 : Vec F S1x1024 .f32) (x3 : Vec F S1024x64 .f32) (xs0 : Vec F S1024x64 .f32) :
    Σ' (L4 : List (View.Piece (Elt F) S1024x64 .f32)), { LS0 : List (View.Piece (Elt F) S1024x64 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__weighted_kernel i arg2 harg2 arg3 harg3 arg4 harg4 arg5 harg5 arg6 harg6 arg7 harg7) K } := by
  refine ⟨[], ?_, fun xi4 E K => ?run⟩
  case run =>
    simp only [cc1__weighted_kernel_eq_skeleton]; unfold cc1__weighted_kernel_skel
    unfold owns
    iintro ⟨⟨%f0, %hf0, H0⟩, ⟨%f1, %hf1, H1⟩, ⟨%f2, %hf2, H2⟩, ⟨%f3, %hf3, H3⟩, ⟨%fo4, %hfo4, HO4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfo4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO4]
    · iexists _; isplitr; · ipureintro; exact harg6.read_unread _
      iexact HO4
    iexists _; iexact HS0

end Cert.KernelIdeal.Reg

end
-- ==== Proof.KI.R1RunC.lean ====
import proofs.«178722_j75866302316653_2_alg».proof.Proof.KI.R1Base

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second pass's body, run whole, in case C of its two conditions -/

set_option maxHeartbeats 4000000 in
/-- The body in case C: on whole memrefs — the inputs' at their contents, an output the case leaves alone at contents
    handed back untouched, an output it stores at anything, a carried scratch at what the point before left or (when the case
    stores it whole first) at anything — the body runs, and leaves in each buffer it stored the pieces the run finds. -/
noncomputable def kernelRun1_C (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1024x1024 .bf16) (x1 : Vec F S8x1024 .f32) (x2 : Vec F S1x1024 .f32) (x3 : Vec F S1024x64 .f32) (xs0 : Vec F S1024x64 .f32) :
    Σ' (L4 : List (View.Piece (Elt F) S1024x64 .f32)), { LS0 : List (View.Piece (Elt F) S1024x64 .f32) //
      ∀  (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__weighted_kernel i arg2 harg2 arg3 harg3 arg4 harg4 arg5 harg5 arg6 harg6 arg7 harg7) K } := by
  refine ⟨?_, ?_, fun  E K => ?run⟩
  case run =>
    simp only [cc1__weighted_kernel_eq_skeleton]; unfold cc1__weighted_kernel_skel
    unfold owns
    iintro ⟨⟨%f0, %hf0, H0⟩, ⟨%f1, %hf1, H1⟩, ⟨%f2, %hf2, H2⟩, ⟨%f3, %hf3, H3⟩, ⟨%do4, %fo4, -, HO4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO4]; · iexists _; iexact HO4
    iexists _; iexact HS0

end Cert.KernelIdeal.Reg

end
-- ==== Proof.KI.R1Frame.lean ====
import proofs.«178722_j75866302316653_2_alg».proof.Proof.KI.R1RunA
import proofs.«178722_j75866302316653_2_alg».proof.Proof.KI.R1RunB
import proofs.«178722_j75866302316653_2_alg».proof.Proof.KI.R1RunC

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second pass as a region: what its accumulator and its output hold point by point, and the body obligation

At every grid point the body adds one block product to the accumulator; where the inner coordinate is `0` it clears the
accumulator first, where it is `7` it also writes the output block. What the accumulator holds after point `n` is a
recursion on `n` through the three cases; the region's invariant carries it from one point to the next. -/

/-- Case A stores nothing into the output window (idle there, and not written back): a placeholder nothing consults. -/
def out1_A_4 (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : cond1_0 i) (hc1 : ¬cond1_1 i)
    (x0 : Vec F S1024x1024 .bf16) (x1 : Vec F S8x1024 .f32) (x2 : Vec F S1x1024 .f32) (x3 : Vec F S1024x64 .f32) : Vec F S1024x64 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- Case A's stores into the accumulator cover it. -/
theorem scover1_A_0 (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : cond1_0 i) (hc1 : ¬cond1_1 i)
    (x0 : Vec F S1024x1024 .bf16) (x1 : Vec F S8x1024 .f32) (x2 : Vec F S1x1024 .f32) (x3 : Vec F S1024x64 .f32) (y : S1024x64.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S1024x64.size (by sl_kernel_rfl) y

/-- What case A leaves in the accumulator. -/
def sout1_A_0 (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : cond1_0 i) (hc1 : ¬cond1_1 i)
    (x0 : Vec F S1024x1024 .bf16) (x1 : Vec F S8x1024 .f32) (x2 : Vec F S1x1024 .f32) (x3 : Vec F S1024x64 .f32) : Vec F S1024x64 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- Case B stores nothing into the output window (idle there, and not written back): a placeholder nothing consults. -/
def out1_B_4 (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : ¬cond1_1 i)
    (x0 : Vec F S1024x1024 .bf16) (x1 : Vec F S8x1024 .f32) (x2 : Vec F S1x1024 .f32) (x3 : Vec F S1024x64 .f32) (xs0 : Vec F S1024x64 .f32) : Vec F S1024x64 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- Case B's stores into the accumulator cover it. -/
theorem scover1_B_0 (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : ¬cond1_1 i)
    (x0 : Vec F S1024x1024 .bf16) (x1 : Vec F S8x1024 .f32) (x2 : Vec F S1x1024 .f32) (x3 : Vec F S1024x64 .f32) (xs0 : Vec F S1024x64 .f32) (y : S1024x64.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S1024x64.size (by sl_kernel_rfl) y

/-- What case B leaves in the accumulator. -/
def sout1_B_0 (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : ¬cond1_1 i)
    (x0 : Vec F S1024x1024 .bf16) (x1 : Vec F S8x1024 .f32) (x2 : Vec F S1x1024 .f32) (x3 : Vec F S1024x64 .f32) (xs0 : Vec F S1024x64 .f32) : Vec F S1024x64 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-- Case C's one store covers the output block. -/
theorem cover1_C_4 (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1024x1024 .bf16) (x1 : Vec F S8x1024 .f32) (x2 : Vec F S1x1024 .f32) (x3 : Vec F S1024x64 .f32) (xs0 : Vec F S1024x64 .f32) (y : S1024x64.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1024x64.size (by sl_kernel_rfl) y

/-- What case C leaves in the output window's staging buffer. -/
def out1_C_4 (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1024x1024 .bf16) (x1 : Vec F S8x1024 .f32) (x2 : Vec F S1x1024 .f32) (x3 : Vec F S1024x64 .f32) (xs0 : Vec F S1024x64 .f32) : Vec F S1024x64 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-- Case C's stores into the accumulator cover it. -/
theorem scover1_C_0 (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1024x1024 .bf16) (x1 : Vec F S8x1024 .f32) (x2 : Vec F S1x1024 .f32) (x3 : Vec F S1024x64 .f32) (xs0 : Vec F S1024x64 .f32) (y : S1024x64.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1024x64.size (by sl_kernel_rfl) y

/-- What case C leaves in the accumulator. -/
def sout1_C_0 (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1024x1024 .bf16) (x1 : Vec F S8x1024 .f32) (x2 : Vec F S1x1024 .f32) (x3 : Vec F S1024x64 .f32) (xs0 : Vec F S1024x64 .f32) : Vec F S1024x64 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

section
variable (V : (c : Dev nD) → (b : Ref sig .tc) → Buf (Elt F) ((c : Thread nD τ).loc b))

/-- What the output window's buffer and the accumulator hold after the body at position `n`. -/
def outsAt1 (c : Dev nD) : (n : ℕ) → n < cfg1.N → Vec F S1024x64 .f32 × Vec F S1024x64 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's own (every scoped buffer at anything);
    afterwards the accumulator at what the point before left in it, the other scoped buffers at anything. -/
def PhiS1 (c : Dev nD) : (n : ℕ) → n ≤ cfg1.N → sProp 𝕄
  | 0, _ => Pipeline.ΦA spec1 c
  | n + 1, hn => iprop(rest1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(rest1 c (owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(rest1 c (owns (c : Thread nD τ) scM1_0 fullShare ((outsAt1 V c (n - 1) (by omega)).2)) ∗ (∃ r, prngReg c r)) := by
  cases n with
  | zero => exact absurd rfl hz
  | succ n => rfl

/-- The region's proof data on core `c`: the arrays as the region finds them; after the body at point `t` each input's
    buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the point's position in its row of eight says which case
    it is in; the invariant hands the body the accumulator at what the point before left and takes it back at this
    point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨HR, Hg⟩, Ho, ⟨%d0, H0⟩, ⟨%d1, H1⟩, ⟨%d2, H2⟩, ⟨%d3, H3⟩, ⟨%d4, H4⟩⟩
        ihave HR' := rest1_out c _ $$ HR
        icases HR' with ⟨HS0, HRest⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HRest Hg]
        · isplitl [HS0 HRest]
          · iapply rest1_in; isplitl [HS0]
            · unfold owns; iexists _; isplitr
              swap; · iexact HS0
              ipureintro; exact View.read_writes_of_cover _ _ _ _ _ (scover1_A_0 c _ _ _ _ _ _ _ _ _ _ _ _ _ _ _ _ _ _ _)
            iexact HRest
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨HR, Hg⟩, Ho, ⟨%d0, H0⟩, ⟨%d1, H1⟩, ⟨%d2, H2⟩, ⟨%d3, H3⟩, ⟨%d4, H4⟩⟩
        ihave HR' := rest1_out c _ $$ HR
        icases HR' with ⟨HS0, HRest⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HRest Hg]
        · isplitl [HS0 HRest]
          · iapply rest1_in; isplitl [HS0]
            · unfold owns; iexists _; isplitr
              swap; · iexact HS0
              ipureintro; exact View.read_writes_of_cover _ _ _ _ _ (scover1_A_0 c _ _ _ _ _ _ _ _ _ _ _ _ _ _ _ _ _ _ _)
            iexact HRest
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      by_cases hz : t.val = 0
      · exfalso; omega
      · rw [PhiS1_castSucc V c t, PhiS1_pos V c _ _ hz]
        iintro ⟨⟨HR, Hg⟩, Ho, ⟨%d0, H0⟩, ⟨%d1, H1⟩, ⟨%d2, H2⟩, ⟨%d3, H3⟩, ⟨%d4, H4⟩⟩
        ihave HR' := rest1_out c _ $$ HR
        icases HR' with ⟨HS0, HRest⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HRest Hg]
        · isplitl [HS0 HRest]
          · iapply rest1_in; isplitl [HS0]
            · unfold owns; iexists _; isplitr
              swap; · iexact HS0
              ipureintro; exact View.read_writes_of_cover _ _ _ _ _ (scover1_C_0 c _ _ _ _ _ _ _ _ _ _ _ _ _ _ _ _ _ _ _ _)
            iexact HRest
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨HR, Hg⟩, Ho, ⟨%d0, H0⟩, ⟨%d1, H1⟩, ⟨%d2, H2⟩, ⟨%d3, H3⟩, ⟨%d4, H4⟩⟩
        ihave HR' := rest1_out c _ $$ HR
        icases HR' with ⟨HS0, HRest⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HRest Hg]
        · isplitl [HS0 HRest]
          · iapply rest1_in; isplitl [HS0]
            · unfold owns; iexists _; isplitr
              swap; · iexact HS0
              ipureintro; exact View.read_writes_of_cover _ _ _ _ _ (scover1_B_0 c _ _ _ _ _ _ _ _ _ _ _ _ _ _ _ _ _ _ _ _)
            iexact HRest
          iexact Hg
        isplitl [Ho]; · iexact Ho
        isplitl [H0]; · iexact H0
        isplitl [H1]; · iexact H1
        isplitl [H2]; · iexact H2
        isplitl [H3]; · iexact H3
        iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HR, Hg⟩
  isplitl [HR]
  · ihave HR' := rest1_out c _ $$ HR
    icases HR' with ⟨HS0, HRest⟩
    iapply rest1_in; isplitl [HS0]
    · iexists _; iexact HS0
    iexact HRest
  iexact Hg

theorem hout1 (c : Dev nD) : (dat1 V c).Φ (Fin.last cfg1.N) ⊢ Pipeline.ΦA spec1 c :=
  Phi_out1 V c _ (by rw [Fin.val_last]; have : cfg1.N = 64 := N_1; omega)

end

end Cert.KernelIdeal.Reg

end
-- ==== Proof.KI.Run.lean ====
import proofs.«178722_j75866302316653_2_alg».proof.Proof.KI.R0Frame
import proofs.«178722_j75866302316653_2_alg».proof.Proof.KI.R1Frame
import proofs.«178722_j75866302316653_2_alg».proof.Proof.Gen.KernelIdeal.Regions

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The whole program run: the host prefix, the first pass, the second pass

The contents of every unscoped buffer at each boundary are a fold from the launch memory: the host prefix computes
`Wh`, the slice of `a`, the score column and its row reshape; the first pass leaves its three outputs (every other buffer
as entered); the second pass leaves the result (every other buffer as entered). The run ends with the result buffer at
what the second pass's write-backs leave and with the four argument arrays as launched. -/

variable (m : (ℓ : Loc nD τ sig) → Buf (Elt F) ℓ) (ρ : Dev nD → PrngReg)

/-- Core `c`'s buffers at launch, -/
abbrev W0 : Dev nD → Valuation τ sig (Elt F) := fun c => Gen.V0 m c
/-- after the host prefix (the first pass's entry), -/
abbrev W1 : Dev nD → Valuation τ sig (Elt F) := fun c => Gen.V1 m c
abbrev V1 : (c : Dev nD) → (b : Ref sig .tc) → Buf (Elt F) ((c : Thread nD τ).loc b) := fun c b => W1 m c b
/-- at the first pass's exit: its arrays at what the pipeline leaves, every other buffer as entered, -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- and at the second pass's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### The arguments end as launched: the host prefix writes none, the first pass reads the adjacency through an input
    window and bypasses the others, the second pass bypasses all four -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = m ((c : Thread nD τ).loc main_arg0) := Gen.V1_of m c main_arg0 (by decide)

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 0).trans (((dat0 (V1 m) c).arrAt_in 0 rfl _).trans (A_eq0 (V1 m) c 0))
    _ = m ((c : Thread nD τ).loc main_arg1) := Gen.V1_of m c main_arg1 (by decide)

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := Gen.V1_of m c main_arg2 (by decide)

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := Gen.V1_of m c main_arg3 (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at the contents before it, left at the contents
    after it. Its arrays are split out of the unscoped buffers and put back at their exit contents; the generator register
    and the scoped buffers go into the region's invariant and come back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hΦ := hin0 (V1 m) c
    unfold Pipeline.ΦA at hΦ
    rw [show (pdats m 0 c).Φ 0 = (dat0 (V1 m) c).Φ 0 from rfl]
    iintro ⟨Hp, -, Hr⟩
    iapply hΦ
    isplitl [Hr]; · iexact Hr
    iexact Hp
  hout c := by
    have hΦ := hout0 (V1 m) c
    unfold Pipeline.ΦA at hΦ
    rw [Pipeline.ownSems0_none, show (pdats m 0 c).Φ (Fin.last _) = (dat0 (V1 m) c).Φ (Fin.last cfg0.N) from rfl]
    iintro H
    ihave H' := hΦ $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at their exit contents; the generator register
    and the scoped buffers go into the region's invariant and come back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hΦ := hin1 (V2 m) c
    unfold Pipeline.ΦA at hΦ
    rw [show (pdats m 1 c).Φ 0 = (dat1 (V2 m) c).Φ 0 from rfl]
    iintro ⟨Hp, -, Hr⟩
    iapply hΦ
    isplitl [Hr]; · iexact Hr
    iexact Hp
  hout c := by
    have hΦ := hout1 (V2 m) c
    unfold Pipeline.ΦA at hΦ
    rw [Pipeline.ownSems0_none, show (pdats m 1 c).Φ (Fin.last _) = (dat1 (V2 m) c).Φ (Fin.last cfg1.N) from rfl]
    iintro H
    ihave H' := hΦ $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN, at any `F`: from any memory with zero counters every weakly fair execution of the program terminates, nothing
    faulting, and every final state has the result buffer at what the second pass's write-backs leave (the pipeline's fold
    over its proof data) and the four argument arrays as launched. -/
theorem run_main : θ_run defs (onTc (τ := τ) (main (F := F))) ⟨m, fun _ => 0, ρ⟩ (fun r => ∀ c : Dev nD,
      r.2.mem ((c.tc : Thread nD τ).loc main_v5) = (dat1 (V2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v5 (by decide))).trans (W3_arr m c 4),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c)⟩)

end Cert.KernelIdeal.Reg

end
-- ==== Proof.KI.R1Pay.lean ====
import proofs.«178722_j75866302316653_2_alg».proof.Proof.KI.R1Frame
import Idealize.ShloMosaic.Lib.Pipeline.Value

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second pass: what each case's stores are, as the body's arithmetic

The pieces the runs found, read back: in every case the accumulator ends at one step of the accumulation — the old
accumulator (the zero block where the case clears it first) plus the block product of the corrected terms with `Wh`'s
block, the correction read off the FIRST of the block's eight table rows — and in the last case the output block is the
exponential linear unit of that. -/

theorem hzero2 : (![0, 0] : Fin 2 → Nat) = fun _ => 0 := funext fun a => by fin_cases a <;> rfl

/-- The first of a table block's eight rows. -/
abbrev topRow : Rect S8x1024 := Rect.unit (s := S8x1024) ![0, 0] S1x1024.size inb_S8x1024_S1x1024_0_0

/-- One step of the accumulation, on blocks: the payload of the accumulator's store. -/
abbrev step1 (x0 : Vec F S1024x1024 .bf16) (x1 : Vec F S8x1024 .f32) (x2 : Vec F S1x1024 .f32) (x3 : Vec F S1024x64 .f32)
    (a : Vec F S1024x64 .f32) : Vec F S1024x64 .f32 :=
  k1_pay2 (View.ld x1 topRow) x2 x0 a x3

theorem sout1_A_0_eq (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : cond1_0 i) (hc1 : ¬cond1_1 i)
    (x0 : Vec F S1024x1024 .bf16) (x1 : Vec F S8x1024 .f32) (x2 : Vec F S1x1024 .f32) (x3 : Vec F S1024x64 .f32) :
    sout1_A_0 c i arg2 harg2 arg3 harg3 arg4 harg4 arg5 harg5 arg6 harg6 arg7 harg7 hc0 hc1 x0 x1 x2 x3 = step1 x0 x1 x2 x3 k1_pay1 := by
  unfold sout1_A_0
  rw [View.read_writes_eq_canon _ _ _ (scover1_A_0 c i arg2 harg2 arg3 harg3 arg4 harg4 arg5 harg5 arg6 harg6 arg7 harg7 hc0 hc1 x0 x1 x2 x3)]
  unfold kernelRun1_A
  dsimp only
  sl_unfold_words
  rw [View.canon_cons_unit_zero (S := S1024x64) hzero2, View.readCov_unit_zero (S := S1024x64) _ hzero2]
  simp only [View.readAt_eq_ld, harg2.read_unread, harg3.read_unread, harg4.read_unread, harg5.read_unread,
    View.ld_unit_zero (S := S1024x64) hzero2, View.ld_unit_zero (S := S1024x1024) hzero2, View.ld_unit_zero (S := S1x1024) hzero2]

theorem sout1_B_0_eq (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : ¬cond1_1 i)
    (x0 : Vec F S1024x1024 .bf16) (x1 : Vec F S8x1024 .f32) (x2 : Vec F S1x1024 .f32) (x3 : Vec F S1024x64 .f32) (xs0 : Vec F S1024x64 .f32) :
    sout1_B_0 c i arg2 harg2 arg3 harg3 arg4 harg4 arg5 harg5 arg6 harg6 arg7 harg7 hc0 hc1 x0 x1 x2 x3 xs0 = step1 x0 x1 x2 x3 xs0 := by
  unfold sout1_B_0
  rw [View.read_writes_eq_canon _ _ _ (scover1_B_0 c i arg2 harg2 arg3 harg3 arg4 harg4 arg5 harg5 arg6 harg6 arg7 harg7 hc0 hc1 x0 x1 x2 x3 xs0)]
  unfold kernelRun1_B
  dsimp only
  rw [View.canon_unit_zero hzero2]
  simp only [View.readAt_eq_ld, harg2.read_unread, harg3.read_unread, harg4.read_unread, harg5.read_unread, harg7.read_unread,
    View.ld_unit_zero (S := S1024x64) hzero2, View.ld_unit_zero (S := S1024x1024) hzero2, View.ld_unit_zero (S := S1x1024) hzero2]

theorem sout1_C_0_eq (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1024x1024 .bf16) (x1 : Vec F S8x1024 .f32) (x2 : Vec F S1x1024 .f32) (x3 : Vec F S1024x64 .f32) (xs0 : Vec F S1024x64 .f32) :
    sout1_C_0 c i arg2 harg2 arg3 harg3 arg4 harg4 arg5 harg5 arg6 harg6 arg7 harg7 hc0 hc1 x0 x1 x2 x3 xs0 = step1 x0 x1 x2 x3 xs0 := by
  unfold sout1_C_0
  rw [View.read_writes_eq_canon _ _ _ (scover1_C_0 c i arg2 harg2 arg3 harg3 arg4 harg4 arg5 harg5 arg6 harg6 arg7 harg7 hc0 hc1 x0 x1 x2 x3 xs0)]
  unfold kernelRun1_C
  dsimp only
  sl_unfold_words
  rw [View.canon_unit_zero hzero2]
  simp only [View.readAt_eq_ld, harg2.read_unread, harg3.read_unread, harg4.read_unread, harg5.read_unread, harg7.read_unread,
    View.ld_unit_zero (S := S1024x64) hzero2, View.ld_unit_zero (S := S1024x1024) hzero2, View.ld_unit_zero (S := S1x1024) hzero2]

theorem out1_C_4_eq (c : Dev nD) (i : grid1.Coords) (arg2 : Memref sig .tc .vmem S1024x1024 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1024x1024 .bf16) (x1 : Vec F S8x1024 .f32) (x2 : Vec F S1x1024 .f32) (x3 : Vec F S1024x64 .f32) (xs0 : Vec F S1024x64 .f32) :
    out1_C_4 c i arg2 harg2 arg3 harg3 arg4 harg4 arg5 harg5 arg6 harg6 arg7 harg7 hc0 hc1 x0 x1 x2 x3 xs0 = k1_pay3 (step1 x0 x1 x2 x3 xs0) := by
  unfold out1_C_4
  rw [View.read_writes_eq_canon _ _ _ (cover1_C_4 c i arg2 harg2 arg3 harg3 arg4 harg4 arg5 harg5 arg6 harg6 arg7 harg7 hc0 hc1 x0 x1 x2 x3 xs0)]
  unfold kernelRun1_C
  dsimp only
  sl_unfold_words
  rw [View.canon_unit_zero hzero2, View.readCov_unit_zero (S := S1024x64) _ hzero2]
  simp only [View.readAt_eq_ld, harg2.read_unread, harg3.read_unread, harg4.read_unread, harg5.read_unread, harg7.read_unread,
    View.ld_unit_zero (S := S1024x64) hzero2, View.ld_unit_zero (S := S1024x1024) hzero2, View.ld_unit_zero (S := S1x1024) hzero2]

end Cert.KernelIdeal.Reg

end
-- ==== Proof.KSpec.lean ====
/-
  The two passes of the kernel as plain mathematics over the extended reals: what each pass leaves in its output
  arrays, as functions of the arrays it reads, index by index. No program is mentioned here.

  FIRST PASS.  `adj` is the adjacency, `sc i` the score of row `i` (read down the column operand), `sr j` the score of
  column `j` (read along the row operand).  The masked score is `val i j`.  A column `j` is read in eight blocks of
  1024 rows; after block `I` the running maximum is `mrun j I` and the running rescaled sum `lrun j I`, each by the
  recurrence the body computes (from the reset values `-∞` and `0`).  The pass leaves, at `(i, j)`, the exponential of
  the score shifted by the running maximum of `i`'s block (`pOut`); in the eight table rows of block `I` that running
  maximum (`mtOut`); and per column the last running maximum plus the logarithm of the last running sum (`lseOut`).

  SECOND PASS.  From arrays `pA`, `mt`, `ls` of those three kinds and the matrix `wh`: row `i` of the result is the sum
  over the eight column blocks, accumulated in order from zero, of the products of the corrected terms with `wh`
  (`acc`), passed through the exponential linear unit (`eluOut`).
-/
import Idealize.ShloMosaic.PureOps.Ideal

noncomputable section

namespace Cert.KSpec

open Idealize.ShloMosaic

/-- The leaky slope, the mask fill, the reset value of the running maximum, zero and one, as the words the programs carry. -/
def slope : EReal := Ideal.ofBits .f32 0x3DCCCCCD#32
def fill : EReal := Ideal.ofBits .f32 0xD9FFCB9E#32
def negInf : EReal := Ideal.ofBits .f32 0xFF800000#32
def zero : EReal := Ideal.ofBits .f32 0x00000000#32
def one : EReal := Ideal.ofBits .f32 0x3F800000#32

/-- Row `r` of row block `I`, and column `q` of column block `J`. -/
def rowOf (I : Fin 8) (r : Fin 1024) : Fin 8192 := ⟨1024 * I.val + r.val, by omega⟩

/-- The block a row or column lies in. -/
def blockOf (i : Fin 8192) : Fin 8 := ⟨i.val / 1024, by omega⟩

/-- The first of the eight table rows of row block `I`. -/
def tableRow (I : Fin 8) : Fin 64 := ⟨8 * I.val, by omega⟩

theorem blockOf_rowOf (I : Fin 8) (r : Fin 1024) : blockOf (rowOf I r) = I :=
  Fin.ext (by show (1024 * I.val + r.val) / 1024 = I.val; omega)

section FirstPass

variable (adj : Fin 8192 → Fin 8192 → BitVec 32) (sc sr : Fin 8192 → EReal)

/-- The masked score: the leaky score where the adjacency is positive, the fill elsewhere. -/
def val (i j : Fin 8192) : EReal :=
  Scalar.select (IntOp.cmpi .sgt (adj i j) 0#32) (max (sc i + sr j) (slope * (sc i + sr j))) fill

/-- The maximum of column `j` over the rows of block `I`, folded from `-∞`. -/
def bmax (I : Fin 8) (j : Fin 8192) : EReal :=
  (Finset.univ : Finset (Fin 1024)).fold max negInf (fun r => val adj sc sr (rowOf I r) j)

/-- The sum over the rows of block `I` of the exponentials of column `j`'s scores shifted by `a`. -/
def bsum (I : Fin 8) (j : Fin 8192) (a : EReal) : EReal :=
  ∑ r : Fin 1024, Ideal.exp (val adj sc sr (rowOf I r) j - a)

/-- The running maximum of column `j` after block `I`. -/
def mrun (j : Fin 8192) : (I : ℕ) → I < 8 → EReal
  | 0, h => max negInf (bmax adj sc sr ⟨0, h⟩ j)
  | I + 1, h => max (mrun j I (by omega)) (bmax adj sc sr ⟨I + 1, h⟩ j)

/-- The running rescaled sum of column `j` after block `I`. -/
def lrun (j : Fin 8192) : (I : ℕ) → I < 8 → EReal
  | 0, h => Ideal.exp (negInf - mrun adj sc sr j 0 h) * zero + bsum adj sc sr ⟨0, h⟩ j (mrun adj sc sr j 0 h)
  | I + 1, h => Ideal.exp (mrun adj sc sr j I (by omega) - mrun adj sc sr j (I + 1) h) * lrun j I (by omega)
      + bsum adj sc sr ⟨I + 1, h⟩ j (mrun adj sc sr j (I + 1) h)

/-- What the first pass leaves at `(i, j)` of its matrix output, -/
def pOut (i j : Fin 8192) : EReal :=
  Ideal.exp (val adj sc sr i j - mrun adj sc sr j (blockOf i).val (blockOf i).isLt)

/-- in table row `q` (eight per row block) at column `j`, -/
def mtOut (q : Fin 64) (j : Fin 8192) : EReal :=
  mrun adj sc sr j (q.val / 8) (by omega)

/-- and per column. -/
def lseOut (j : Fin 8192) : EReal :=
  mrun adj sc sr j 7 (by omega) + Ideal.log (lrun adj sc sr j 7 (by omega))

end FirstPass

section SecondPass

variable (pA : Fin 8192 → Fin 8192 → EReal) (mt : Fin 64 → Fin 8192 → EReal) (ls : Fin 8192 → EReal)
  (wh : Fin 8192 → Fin 64 → EReal)

/-- One corrected term times one entry of `wh`: row `i`, column `q` of column block `J`, output feature `k`. -/
def term (i : Fin 8192) (J : Fin 8) (q : Fin 1024) (k : Fin 64) : EReal :=
  (pA i (rowOf J q) * Ideal.exp (mt (tableRow (blockOf i)) (rowOf J q) - ls (rowOf J q)))
    * wh (rowOf J q) k

/-- The accumulator after column block `J`: from zero, one block's sum added per step. -/
def acc (i : Fin 8192) (k : Fin 64) : (J : ℕ) → J < 8 → EReal
  | 0, h => zero + ∑ q : Fin 1024, term pA mt ls wh i ⟨0, h⟩ q k
  | J + 1, h => acc i k J (by omega) + ∑ q : Fin 1024, term pA mt ls wh i ⟨J + 1, h⟩ q k

/-- The exponential linear unit as the body computes it. -/
def elu (x : EReal) : EReal :=
  Scalar.select (FloatOps.cmpf (F := Ideal) (φ := .f32) .ogt x zero) x (Ideal.exp x - one)

/-- What the second pass leaves at `(i, k)`. -/
def eluOut (i : Fin 8192) (k : Fin 64) : EReal :=
  elu (acc pA mt ls wh i k 7 (by omega))

end SecondPass

end Cert.KSpec

end
-- ==== Proof.LibPlainDot.lean ====
/-
  The plain matrix product [M, K] × [K, N] → [M, N] (contract the left operand's second axis with the
  right operand's first) read at an entry, over the extended reals: entry (r, n) of the product is
  ∑ k, l (r, k) · r (k, n). Two operations compute it: a vector matrix product into an accumulator that
  is zero everywhere, and the host's dot_general. Both are that one finite sum, hence equal to each
  other; no order of summation and no rounding is left in either, and nothing here needs an entry
  to be finite.
-/
import Idealize.ShloMosaic.PureOps.Ideal.Laws
import Idealize.ShloMosaic.Lib.ValueIdx

noncomputable section

namespace PlainDot

open Idealize.ShloMosaic Idealize.ShloMosaic.ValueIdx

variable {M K N : Nat}

/-- The contraction runs over one axis, of extent `K`. -/
theorem contr_rank : (DotDims.plain M K N).contr.rank = 1 := rfl
theorem contr_size : (DotDims.plain M K N).contr.size ⟨0, by rw [contr_rank]; exact Nat.one_pos⟩ = K := rfl

/-- The left operand is read in the result's row … -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
/-- … at the contraction position; -/
theorem lhs_col (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single rfl j q
/-- the right operand at the contraction position … -/
theorem rhs_row (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single rfl j q
/-- … in the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction index, re-indexed by the one coordinate `k : Fin K`: the left operand at
    (row of `j`, `k`) times the right operand at (`k`, column of `j`). -/
theorem sum_contr (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K contr_rank contr_size).symm]
  refine Finset.sum_congr rfl fun k _ => ?_
  have hk := contrEquiv1_symm_val (DotDims.plain M K N) K contr_rank contr_size k
  have el : (DotDims.plain M K N).lhsIdx j ((contrEquiv1 (DotDims.plain M K N) K contr_rank contr_size).symm k) = ix2 (j 0) k :=
    funext fun a => Fin.ext (by
      match a with
      | ⟨0, _⟩ => exact lhs_row _ _
      | ⟨1, _⟩ => exact (lhs_col _ _).trans hk)
  have er : (DotDims.plain M K N).rhsIdx j ((contrEquiv1 (DotDims.plain M K N) K contr_rank contr_size).symm k) = ix2 k (j 1) :=
    funext fun a => Fin.ext (by
      match a with
      | ⟨0, _⟩ => exact (rhs_row _ _).trans hk
      | ⟨1, _⟩ => exact rhs_col _ _)
  exact congrArg₂ (· * ·) (congrArg l el) (congrArg r er)

/-- A vector matrix product into the accumulator that is zero everywhere, at an entry. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr l r j)

/-- The host's dot_general, at an entry. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr l r j)

end PlainDot

end
-- ==== Proof.KI.R1Val.lean ====
import proofs.«178722_j75866302316653_2_alg».proof.Proof.KI.R1Pay
import proofs.«178722_j75866302316653_2_alg».proof.Proof.KSpec
import proofs.«178722_j75866302316653_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! # The second pass's arithmetic read at an entry, and its accumulator and output point by point, over the extended reals

One step of the accumulation at entry `(r, k)` of a block: the old accumulator's entry plus the sum over the block's
1024 columns `q` of (stored term at `(r, q)`) · exp (table's first row at `q` − log-sum-exp at `q`) · (`Wh` block at
`(q, k)`); the exponential linear unit pointwise. Then, by induction along a row of eight grid points, the accumulator
after point `8·I + J` is the specification's `acc` of row block `I` after column block `J`, and the block written at
`J = 7` is its `eluOut`; the result array is `eluOut` everywhere. -/

theorem ld_topRow (x1 : Vec Ideal S8x1024 .f32) (q : Fin 1024) :
    View.ld x1 topRow (ix2 (0 : Fin 1) q) = x1 (ix2 (0 : Fin 8) q) := by
  show x1 (topRow.emb (ix2 (0 : Fin 1) q)) = _
  refine congrArg x1 (funext fun a => Fin.ext ?_)
  match a with
  | ⟨0, _⟩ => rfl
  | ⟨1, _⟩ => show 0 + 1 * q.val = q.val; omega

theorem step1_apply (x0 : Vec Ideal S1024x1024 .bf16) (x1 : Vec Ideal S8x1024 .f32) (x2 : Vec Ideal S1x1024 .f32)
    (x3 : Vec Ideal S1024x64 .f32) (a : Vec Ideal S1024x64 .f32) (r : Fin 1024) (k : Fin 64) :
    (step1 (F := Ideal) x0 x1 x2 x3 a (ix2 r k) : EReal)
      = (a (ix2 r k) : EReal) + ∑ q : Fin 1024, ((x0 (ix2 r q) : EReal) * Ideal.exp ((x1 (ix2 (0 : Fin 8) q) : EReal) - (x2 (ix2 (0 : Fin 1) q) : EReal))) * (x3 (ix2 q k) : EReal) := by
  unfold step1 k1_pay2
  simp only [shapeCast_self]
  refine congrArg ((a (ix2 r k) : EReal) + ·) ?_
  refine (PlainDot.matmul_zero_apply (M := 1024) (K := 1024) (N := 64) none _ _ (ix2 r k)).trans ?_
  refine Finset.sum_congr rfl fun q _ => ?_
  refine congrArg₂ (· * ·) (congrArg ((x0 (ix2 r q) : EReal) * ·) ?_) rfl
  refine (broadcastTo_1b_ab_apply _ _ _ q).trans ?_
  show Ideal.exp (View.ld x1 topRow (ix2 (0 : Fin 1) q) - x2 (ix2 (0 : Fin 1) q)) = _
  rw [ld_topRow]

/-- The zero block the clearing case stores. -/
theorem k1pay1_apply (j : S1024x64.Idx) : (k1_pay1 (F := Ideal) j : EReal) = Cert.KSpec.zero := rfl

/-- The exponential linear unit, entry by entry. -/
theorem k1pay3_apply (v : Vec Ideal S1024x64 .f32) (j : S1024x64.Idx) :
    (k1_pay3 (F := Ideal) v j : EReal) = Cert.KSpec.elu (v j) := rfl

section
variable (V : (c : Dev nD) → (b : Ref sig .tc) → Buf (Elt Ideal) ((c : Thread nD τ).loc b))

/-- The arrays the second pass reads, by coordinates: the stored terms, the table of running maxima, the column
    log-sum-exps, and `Wh`. -/
def pOf (c : Dev nD) : Fin 8192 → Fin 8192 → EReal := fun i j => V c main_v4_1 (ix2 i j)
def mtOf (c : Dev nD) : Fin 64 → Fin 8192 → EReal := fun q j => V c main_v4_2 (ix2 q j)
def lsOf (c : Dev nD) : Fin 8192 → EReal := fun j => V c main_v4_0 (ix2 (0 : Fin 1) j)
def whOf (c : Dev nD) : Fin 8192 → Fin 64 → EReal := fun j k => V c main_v0 (ix2 j k)

/-- The index maps, decided over the grid: at point `t = 8·it + jt` the stored terms' and the table's blocks are
    `(it, jt)`, the log-sum-exp's `(0, jt)`, `Wh`'s `(jt, 0)`, the result's `(it, 0)`. -/
theorem idx1 : ∀ t : Fin cfg1.N,
    win1_0.index t (0 : Fin 2) = t.val / 8 ∧ win1_0.index t (1 : Fin 2) = t.val % 8
    ∧ win1_1.index t (0 : Fin 2) = t.val / 8 ∧ win1_1.index t (1 : Fin 2) = t.val % 8
    ∧ win1_2.index t (0 : Fin 2) = 0 ∧ win1_2.index t (1 : Fin 2) = t.val % 8
    ∧ win1_3.index t (0 : Fin 2) = t.val % 8 ∧ win1_3.index t (1 : Fin 2) = 0
    ∧ win1_4.index t (0 : Fin 2) = t.val / 8 ∧ win1_4.index t (1 : Fin 2) = 0 :=
  (by decide +kernel : ∀ t : Fin grid1.N, _)

theorem iblk1_0_apply (c : Dev nD) (t : Fin cfg1.N) (I J : Fin 8) (ht : t.val = 8 * I.val + J.val) (r q : Fin 1024) :
    (iblk1 V c 0 t (ix2 r q) : EReal) = pOf V c (Cert.KSpec.rowOf I r) (Cert.KSpec.rowOf J q) := by
  have hI := I.isLt; have hJ := J.isLt
  obtain ⟨f00, f01, f10, f11, f20, f21, f30, f31, f40, f41⟩ := idx1 t
  show V c main_v4_1 (((cfg1.win 0).blk t).view.emb (ix2 r q)) = V c main_v4_1 (ix2 _ _)
  refine congrArg (V c main_v4_1) (funext fun a => Fin.ext ?_)
  match a with
  | ⟨0, _⟩ => show win1_0.index t (0 : Fin 2) * 1024 + 1 * r.val = 1024 * I.val + r.val; rw [f00]; omega
  | ⟨1, _⟩ => show win1_0.index t (1 : Fin 2) * 1024 + 1 * q.val = 1024 * J.val + q.val; rw [f01]; omega

theorem iblk1_1_apply (c : Dev nD) (t : Fin cfg1.N) (I J : Fin 8) (ht : t.val = 8 * I.val + J.val) (q : Fin 1024) :
    (iblk1 V c 1 t (ix2 (0 : Fin 8) q) : EReal) = mtOf V c (Cert.KSpec.tableRow I) (Cert.KSpec.rowOf J q) := by
  have hI := I.isLt; have hJ := J.isLt
  obtain ⟨f00, f01, f10, f11, f20, f21, f30, f31, f40, f41⟩ := idx1 t
  show V c main_v4_2 (((cfg1.win 1).blk t).view.emb (ix2 (0 : Fin 8) q)) = V c main_v4_2 (ix2 _ _)
  refine congrArg (V c main_v4_2) (funext fun a => Fin.ext ?_)
  match a with
  | ⟨0, _⟩ => show win1_1.index t (0 : Fin 2) * 8 + 1 * 0 = 8 * I.val; rw [f10]; omega
  | ⟨1, _⟩ => show win1_1.index t (1 : Fin 2) * 1024 + 1 * q.val = 1024 * J.val + q.val; rw [f11]; omega

theorem iblk1_2_apply (c : Dev nD) (t : Fin cfg1.N) (I J : Fin 8) (ht : t.val = 8 * I.val + J.val) (q : Fin 1024) :
    (iblk1 V c 2 t (ix2 (0 : Fin 1) q) : EReal) = lsOf V c (Cert.KSpec.rowOf J q) := by
  have hI := I.isLt; have hJ := J.isLt
  obtain ⟨f00, f01, f10, f11, f20, f21, f30, f31, f40, f41⟩ := idx1 t
  show V c main_v4_0 (((cfg1.win 2).blk t).view.emb (ix2 (0 : Fin 1) q)) = V c main_v4_0 (ix2 _ _)
  refine congrArg (V c main_v4_0) (funext fun a => Fin.ext ?_)
  match a with
  | ⟨0, _⟩ => show win1_2.index t (0 : Fin 2) * 1 + 1 * 0 = 0; rw [f20]
  | ⟨1, _⟩ => show win1_2.index t (1 : Fin 2) * 1024 + 1 * q.val = 1024 * J.val + q.val; rw [f21]; omega

theorem iblk1_3_apply (c : Dev nD) (t : Fin cfg1.N) (I J : Fin 8) (ht : t.val = 8 * I.val + J.val) (q : Fin 1024) (k : Fin 64) :
    (iblk1 V c 3 t (ix2 q k) : EReal) = whOf V c (Cert.KSpec.rowOf J q) k := by
  have hI := I.isLt; have hJ := J.isLt
  obtain ⟨f00, f01, f10, f11, f20, f21, f30, f31, f40, f41⟩ := idx1 t
  show V c main_v0 (((cfg1.win 3).blk t).view.emb (ix2 q k)) = V c main_v0 (ix2 _ _)
  refine congrArg (V c main_v0) (funext fun a => Fin.ext ?_)
  match a with
  | ⟨0, _⟩ => show win1_3.index t (0 : Fin 2) * 1024 + 1 * q.val = 1024 * J.val + q.val; rw [f30]; omega
  | ⟨1, _⟩ => show win1_3.index t (1 : Fin 2) * 64 + 1 * k.val = k.val; rw [f31]; omega

end

end Cert.KernelIdeal.Reg

end
-- ==== Proof.KI.R1Acc.lean ====
import proofs.«178722_j75866302316653_2_alg».proof.Proof.KI.R1Val

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! # The second pass: the accumulator along a row of grid points, the block written at its end, the result array -/

section
variable (V : (c : Dev nD) → (b : Ref sig .tc) → Buf (Elt Ideal) ((c : Thread nD τ).loc b))

open Cert.KSpec in
/-- One block's contribution at entry `(r, k)`: blocks whose entries are the arrays' entries of row block `I` and column
    block `J` give the specification's sum of terms. -/
theorem blockSum_eq (x0 : Vec Ideal S1024x1024 .bf16) (x1 : Vec Ideal S8x1024 .f32) (x2 : Vec Ideal S1x1024 .f32) (x3 : Vec Ideal S1024x64 .f32)
    (pA : Fin 8192 → Fin 8192 → EReal) (mt : Fin 64 → Fin 8192 → EReal) (ls : Fin 8192 → EReal) (wh : Fin 8192 → Fin 64 → EReal)
    (I J : Fin 8)
    (h0 : ∀ r q, (x0 (ix2 r q) : EReal) = pA (rowOf I r) (rowOf J q))
    (h1 : ∀ q, (x1 (ix2 (0 : Fin 8) q) : EReal) = mt (tableRow I) (rowOf J q))
    (h2 : ∀ q, (x2 (ix2 (0 : Fin 1) q) : EReal) = ls (rowOf J q))
    (h3 : ∀ q k, (x3 (ix2 q k) : EReal) = wh (rowOf J q) k) (r : Fin 1024) (k : Fin 64) :
    (∑ q : Fin 1024, ((x0 (ix2 r q) : EReal) * Ideal.exp ((x1 (ix2 (0 : Fin 8) q) : EReal) - (x2 (ix2 (0 : Fin 1) q) : EReal))) * (x3 (ix2 q k) : EReal))
      = ∑ q : Fin 1024, term pA mt ls wh (rowOf I r) J q k := by
  refine Finset.sum_congr rfl fun q _ => ?_
  rw [h0 r q, h1 q, h2 q, h3 q k]
  unfold term
  rw [blockOf_rowOf]

open Cert.KSpec in
/-- THE ACCUMULATOR after point `8·I + J` is the specification's: by induction on `J` along the row. -/
theorem acc_eq (c : Dev nD) (I : Fin 8) : ∀ (J : ℕ) (hJ : J < 8) (hn : 8 * I.val + J < cfg1.N) (r : Fin 1024) (k : Fin 64),
    ((outsAt1 V c (8 * I.val + J) hn).2 (ix2 r k) : EReal) = acc (pOf V c) (mtOf V c) (lsOf V c) (whOf V c) (rowOf I r) k J hJ
  | 0, hJ, hn, r, k => by
    have h0 : (⟨8 * I.val + 0, hn⟩ : Fin cfg1.N).val % 8 = 0 := by dsimp only; omega
    have h1 : ¬(⟨8 * I.val + 0, hn⟩ : Fin cfg1.N).val % 8 = 7 := by dsimp only; omega
    have e := outsAt1_A V c ⟨8 * I.val + 0, hn⟩ h0 h1
    dsimp only at e
    rw [e]
    dsimp only
    rw [sout1_A_0_eq]
    refine (step1_apply _ _ _ _ _ r k).trans ?_
    rw [k1pay1_apply]
    exact congrArg (zero + ·) (blockSum_eq (iblk1 V c 0 ⟨8 * I.val + 0, hn⟩) (iblk1 V c 1 ⟨8 * I.val + 0, hn⟩) (iblk1 V c 2 ⟨8 * I.val + 0, hn⟩) (iblk1 V c 3 ⟨8 * I.val + 0, hn⟩) (pOf V c) (mtOf V c) (lsOf V c) (whOf V c) I ⟨0, hJ⟩
      (fun r q => iblk1_0_apply V c ⟨8 * I.val + 0, hn⟩ I ⟨0, hJ⟩ rfl r q) (fun q => iblk1_1_apply V c ⟨8 * I.val + 0, hn⟩ I ⟨0, hJ⟩ rfl q) (fun q => iblk1_2_apply V c ⟨8 * I.val + 0, hn⟩ I ⟨0, hJ⟩ rfl q)
      (fun q k => iblk1_3_apply V c ⟨8 * I.val + 0, hn⟩ I ⟨0, hJ⟩ rfl q k) r k)
  | J + 1, hJ, hn, r, k => by
    have hI := I.isLt
    have hN : cfg1.N = 64 := N_1
    have h0 : ¬(⟨8 * I.val + (J + 1), hn⟩ : Fin cfg1.N).val % 8 = 0 := by dsimp only; omega
    have ih := acc_eq c I J (by omega) (by omega) r
    by_cases h1 : (⟨8 * I.val + (J + 1), hn⟩ : Fin cfg1.N).val % 8 = 7
    · have e := outsAt1_C V c ⟨8 * I.val + (J + 1), hn⟩ h0 h1
      dsimp only at e
      rw [e]
      dsimp only
      rw [sout1_C_0_eq]
      refine (step1_apply _ _ _ _ _ r k).trans ?_
      exact congrArg₂ (· + ·) (ih k) (blockSum_eq (iblk1 V c 0 ⟨8 * I.val + (J + 1), hn⟩) (iblk1 V c 1 ⟨8 * I.val + (J + 1), hn⟩) (iblk1 V c 2 ⟨8 * I.val + (J + 1), hn⟩) (iblk1 V c 3 ⟨8 * I.val + (J + 1), hn⟩) (pOf V c) (mtOf V c) (lsOf V c) (whOf V c) I ⟨J + 1, hJ⟩
      (fun r q => iblk1_0_apply V c ⟨8 * I.val + (J + 1), hn⟩ I ⟨J + 1, hJ⟩ rfl r q) (fun q => iblk1_1_apply V c ⟨8 * I.val + (J + 1), hn⟩ I ⟨J + 1, hJ⟩ rfl q) (fun q => iblk1_2_apply V c ⟨8 * I.val + (J + 1), hn⟩ I ⟨J + 1, hJ⟩ rfl q)
      (fun q k => iblk1_3_apply V c ⟨8 * I.val + (J + 1), hn⟩ I ⟨J + 1, hJ⟩ rfl q k) r k)
    · have e := outsAt1_B V c ⟨8 * I.val + (J + 1), hn⟩ h0 h1
      dsimp only at e
      rw [e]
      dsimp only
      rw [sout1_B_0_eq]
      refine (step1_apply _ _ _ _ _ r k).trans ?_
      exact congrArg₂ (· + ·) (ih k) (blockSum_eq (iblk1 V c 0 ⟨8 * I.val + (J + 1), hn⟩) (iblk1 V c 1 ⟨8 * I.val + (J + 1), hn⟩) (iblk1 V c 2 ⟨8 * I.val + (J + 1), hn⟩) (iblk1 V c 3 ⟨8 * I.val + (J + 1), hn⟩) (pOf V c) (mtOf V c) (lsOf V c) (whOf V c) I ⟨J + 1, hJ⟩
      (fun r q => iblk1_0_apply V c ⟨8 * I.val + (J + 1), hn⟩ I ⟨J + 1, hJ⟩ rfl r q) (fun q => iblk1_1_apply V c ⟨8 * I.val + (J + 1), hn⟩ I ⟨J + 1, hJ⟩ rfl q) (fun q => iblk1_2_apply V c ⟨8 * I.val + (J + 1), hn⟩ I ⟨J + 1, hJ⟩ rfl q)
      (fun q k => iblk1_3_apply V c ⟨8 * I.val + (J + 1), hn⟩ I ⟨J + 1, hJ⟩ rfl q k) r k)

end

end Cert.KernelIdeal.Reg

end
-- ==== Proof.KI.R1Final.lean ====
import proofs.«178722_j75866302316653_2_alg».proof.Proof.KI.R1Acc

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! # The second pass: the block written at the end of a row of grid points, and the result array -/

section
variable (V : (c : Dev nD) → (b : Ref sig .tc) → Buf (Elt Ideal) ((c : Thread nD τ).loc b))

open Cert.KSpec in
/-- The block written at point `8·I + 7` is the exponential linear unit of the finished accumulator. -/
theorem out_last (c : Dev nD) (I : Fin 8) (hn : 8 * I.val + 7 < cfg1.N) (r : Fin 1024) (k : Fin 64) :
    ((outsAt1 V c (8 * I.val + 7) hn).1 (ix2 r k) : EReal) = eluOut (pOf V c) (mtOf V c) (lsOf V c) (whOf V c) (rowOf I r) k := by
  have hI := I.isLt
  have h0 : ¬(⟨8 * I.val + 7, hn⟩ : Fin cfg1.N).val % 8 = 0 := by dsimp only; omega
  have h1 : (⟨8 * I.val + 7, hn⟩ : Fin cfg1.N).val % 8 = 7 := by dsimp only; omega
  have e := outsAt1_C V c ⟨8 * I.val + 7, hn⟩ h0 h1
  dsimp only at e
  rw [e]
  dsimp only
  rw [out1_C_4_eq, k1pay3_apply]
  unfold eluOut
  refine congrArg elu ?_
  refine (step1_apply _ _ _ _ _ r k).trans ?_
  show _ = acc _ _ _ _ _ _ (6 + 1) _
  exact congrArg₂ (· + ·) (acc_eq V c I 6 (by omega) (by omega) r k) (blockSum_eq (iblk1 V c 0 ⟨8 * I.val + 7, hn⟩) (iblk1 V c 1 ⟨8 * I.val + 7, hn⟩) (iblk1 V c 2 ⟨8 * I.val + 7, hn⟩) (iblk1 V c 3 ⟨8 * I.val + 7, hn⟩) (pOf V c) (mtOf V c) (lsOf V c) (whOf V c) I ⟨7, by omega⟩
      (fun r q => iblk1_0_apply V c ⟨8 * I.val + 7, hn⟩ I ⟨7, by omega⟩ rfl r q) (fun q => iblk1_1_apply V c ⟨8 * I.val + 7, hn⟩ I ⟨7, by omega⟩ rfl q) (fun q => iblk1_2_apply V c ⟨8 * I.val + 7, hn⟩ I ⟨7, by omega⟩ rfl q)
      (fun q k => iblk1_3_apply V c ⟨8 * I.val + 7, hn⟩ I ⟨7, by omega⟩ rfl q k) r k)

/-- The point's contents do not depend on how its position is spelt. -/
theorem outsAt1_congr (c : Dev nD) (n n' : ℕ) (hn : n < cfg1.N) (hn' : n' < cfg1.N) (e : n = n') :
    outsAt1 V c n hn = outsAt1 V c n' hn' := by subst e; rfl

/-- What the result array ends holding: the specification's `eluOut` of the arrays the pass reads, entry by entry. -/
def G1 (c : Dev nD) : (⟨2, ![8192, 64]⟩ : Shape).Idx → EReal := fun y =>
  Cert.KSpec.eluOut (pOf V c) (mtOf V c) (lsOf V c) (whOf V c) ⟨(y 0).val, idx2_lt0 y⟩ ⟨(y 1).val, idx2_lt1 y⟩

/-- What a writing point writes back is its block of `G1`. -/
theorem flushed1_4_eq (c : Dev nD) (t : Fin cfg1.N) (hf : (cfg1.win 4).flush t = true) :
    (dat1 V c).flushed 4 t = ((cfg1.win 4).blk t).view.read (Elt Ideal) (G1 V c) := by
  have hN : cfg1.N = 64 := N_1
  have htl := t.isLt
  have h7 : t.val % 8 = 7 := (flush1_4 t).mp hf
  obtain ⟨f00, f01, f10, f11, f20, f21, f30, f31, f40, f41⟩ := idx1 t
  show (cfg1.win 4).cut (grid1.coords t) ((dat1 V c).after 4 t) = _
  rw [after1_4]
  funext j
  have hI : t.val / 8 < 8 := by omega
  have e1 := out_last V c ⟨t.val / 8, hI⟩ (by dsimp only; omega) ⟨(j 0).val, (j 0).isLt⟩ ⟨(j 1).val, (j 1).isLt⟩
  rw [outsAt1_congr V c t.val (8 * (⟨t.val / 8, hI⟩ : Fin 8).val + 7) t.isLt (by dsimp only; omega) (by dsimp only; omega)]
  refine (show _ = _ from ?_ : (outsAt1 V c (8 * (⟨t.val / 8, hI⟩ : Fin 8).val + 7) _).1 j = _)
  have ej : j = ix2 (⟨(j 0).val, (j 0).isLt⟩ : Fin 1024) (⟨(j 1).val, (j 1).isLt⟩ : Fin 64) := by
    funext a; match a with | ⟨0, _⟩ => rfl | ⟨1, _⟩ => rfl
  rw [ej]
  refine e1.trans ?_
  show _ = G1 V c (((cfg1.win 4).blk t).view.emb _)
  unfold G1
  refine congrArg₂ (Cert.KSpec.eluOut (pOf V c) (mtOf V c) (lsOf V c) (whOf V c)) (Fin.ext ?_) (Fin.ext ?_)
  · show 1024 * (t.val / 8) + (j 0).val = win1_4.index t (0 : Fin 2) * 1024 + 1 * (j 0).val
    rw [f40]; omega
  · show (j 1).val = win1_4.index t (1 : Fin 2) * 64 + 1 * (j 1).val
    rw [f41]; omega

/-- An entry of the result array is in point `t`'s block iff each coordinate is in the block's range. -/
theorem mem_blk1_4 (t : Fin cfg1.N) (i : S8192x64.Idx) :
    i ∈ ((cfg1.win 4).blk t).view.set ↔ ∀ a : Fin 2, win1_4.index t a * S1024x64.size a ≤ (i a).val ∧ (i a).val < win1_4.index t a * S1024x64.size a + S1024x64.size a := by
  show i ∈ ((View.whole main_v5).slice (win1_4.rect t)).set ↔ _
  rw [View.set_slice_whole, Rect.mem_set_unit]
  exact Iff.rfl

/-- THE RESULT ARRAY after the second pass: `G1` everywhere — the writing point of row block `I` covers its 1024 rows. -/
theorem final1 (c : Dev nD) : (dat1 V c).arrAt 4 cfg1.N = G1 V c :=
  (dat1 V c).arrAt_eq_of_cover 4 (G1 V c) (flushed1_4_eq V c) fun i => by
    have hN : cfg1.N = 64 := N_1
    have hi0 : (i 0).val < 8192 := (i 0).isLt
    have hi1 : (i 1).val < 64 := (i 1).isLt
    have ht : 8 * ((i 0).val / 1024) + 7 < cfg1.N := by omega
    obtain ⟨f00, f01, f10, f11, f20, f21, f30, f31, f40, f41⟩ := idx1 ⟨8 * ((i 0).val / 1024) + 7, ht⟩
    refine ⟨⟨8 * ((i 0).val / 1024) + 7, ht⟩, (flush1_4 _).mpr (by dsimp only; omega), ?_⟩
    rw [mem_blk1_4]
    intro a
    match a with
    | ⟨0, _⟩ => show win1_4.index _ (0 : Fin 2) * 1024 ≤ (i 0).val ∧ (i 0).val < win1_4.index _ (0 : Fin 2) * 1024 + 1024
                rw [f40]; dsimp only; omega
    | ⟨1, _⟩ => show win1_4.index _ (1 : Fin 2) * 64 ≤ (i 1).val ∧ (i 1).val < win1_4.index _ (1 : Fin 2) * 64 + 64
                rw [f41]; omega

end

end Cert.KernelIdeal.Reg

end
-- ==== Proof.KI.R0Pay.lean ====
import proofs.«178722_j75866302316653_2_alg».proof.Proof.KI.R0Frame
import Idealize.ShloMosaic.Lib.Pipeline.Value

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! # The first pass's body: what each case leaves, as the payloads of the blocks it reads

In every case the body reads the three input blocks and the two running rows, and stores: the new running maximum
(the old row and the block's column maxima), the new running sum (the old sum rescaled, plus the block's column
sums of exponentials), the block of exponentials, and the running maximum repeated on eight rows. Where the running
rows are reset first (case A) the old rows are the reset values: the row of `-∞` and the row of zeros. Where the column
output is written (case C) it is the new running maximum plus the logarithm of the new running sum. -/

theorem hz2 : (![0, 0] : Fin 2 → Nat) = fun _ => 0 := funext fun a => by fin_cases a <;> rfl

/-- Case A: the matrix output's block is the exponentials of the scores shifted by the new running maximum. -/
theorem out0_A_4_eq (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S1024x1024 .i32) (x1 : Vec F S1024x1 .f32) (x2 : Vec F S1x1024 .f32) :
    out0_A_4 c i arg2 harg2 arg3 harg3 arg4 harg4 arg5 harg5 arg6 harg6 arg7 harg7 arg8 harg8 arg9 harg9 hc0 hc1 x0 x1 x2 = k0_pay2 (k0_pay9 x1 x2 x0 (k0_pay5 (F := F))) := by
  unfold out0_A_4
  rw [View.read_writes_eq_canon _ _ _ (cover0_A_4 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_unit_zero hz2]
  simp only [View.readAt_eq_ld, harg2.read_unread, harg3.read_unread, harg4.read_unread, harg8.read_unread, harg9.read_unread, View.readCov_unit_zero (S := S1x1024) _ hz2, View.ld_unit_zero (S := S1024x1024) hz2, View.ld_unit_zero (S := S1024x1) hz2, View.ld_unit_zero (S := S1x1024) hz2]

/-- Case A: the table output's block is the new running maximum, repeated on its eight rows. -/
theorem out0_A_5_eq (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S1024x1024 .i32) (x1 : Vec F S1024x1 .f32) (x2 : Vec F S1x1024 .f32) :
    out0_A_5 c i arg2 harg2 arg3 harg3 arg4 harg4 arg5 harg5 arg6 harg6 arg7 harg7 arg8 harg8 arg9 harg9 hc0 hc1 x0 x1 x2 = k0_pay3 (k0_pay8 x1 x2 x0 (k0_pay5 (F := F))) := by
  unfold out0_A_5
  rw [View.read_writes_eq_canon _ _ _ (cover0_A_5 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_unit_zero hz2]
  simp only [View.readAt_eq_ld, harg2.read_unread, harg3.read_unread, harg4.read_unread, harg8.read_unread, harg9.read_unread, View.readCov_unit_zero (S := S1x1024) _ hz2, View.ld_unit_zero (S := S1024x1024) hz2, View.ld_unit_zero (S := S1024x1) hz2, View.ld_unit_zero (S := S1x1024) hz2]

/-- Case A: the first running row ends at the new running maximum. -/
theorem sout0_A_0_eq (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S1024x1024 .i32) (x1 : Vec F S1024x1 .f32) (x2 : Vec F S1x1024 .f32) :
    sout0_A_0 c i arg2 harg2 arg3 harg3 arg4 harg4 arg5 harg5 arg6 harg6 arg7 harg7 arg8 harg8 arg9 harg9 hc0 hc1 x0 x1 x2 = k0_pay1 (k0_pay8 x1 x2 x0 (k0_pay5 (F := F))) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero hz2]
  simp only [View.readAt_eq_ld, harg2.read_unread, harg3.read_unread, harg4.read_unread, harg8.read_unread, harg9.read_unread, View.readCov_unit_zero (S := S1x1024) _ hz2, View.ld_unit_zero (S := S1024x1024) hz2, View.ld_unit_zero (S := S1024x1) hz2, View.ld_unit_zero (S := S1x1024) hz2]

/-- Case A: the second running row ends at the new running rescaled sum. -/
theorem sout0_A_1_eq (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S1024x1024 .i32) (x1 : Vec F S1024x1 .f32) (x2 : Vec F S1x1024 .f32) :
    sout0_A_1 c i arg2 harg2 arg3 harg3 arg4 harg4 arg5 harg5 arg6 harg6 arg7 harg7 arg8 harg8 arg9 harg9 hc0 hc1 x0 x1 x2 = k0_pay10 x1 x2 x0 (k0_pay5 (F := F)) (k0_pay5 (F := F)) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero hz2]
  simp only [View.readAt_eq_ld, harg2.read_unread, harg3.read_unread, harg4.read_unread, harg8.read_unread, harg9.read_unread, View.readCov_unit_zero (S := S1x1024) _ hz2, View.ld_unit_zero (S := S1024x1024) hz2, View.ld_unit_zero (S := S1024x1) hz2, View.ld_unit_zero (S := S1x1024) hz2]

/-- Case B: the matrix output's block is the exponentials of the scores shifted by the new running maximum. -/
theorem out0_B_4_eq (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S1024x1024 .i32) (x1 : Vec F S1024x1 .f32) (x2 : Vec F S1x1024 .f32) (xs0 : Vec F S1x1024 .f32) (xs1 : Vec F S1x1024 .f32) :
    out0_B_4 c i arg2 harg2 arg3 harg3 arg4 harg4 arg5 harg5 arg6 harg6 arg7 harg7 arg8 harg8 arg9 harg9 hc0 hc1 x0 x1 x2 xs0 xs1 = k0_pay2 (k0_pay9 x1 x2 x0 xs0) := by
  unfold out0_B_4
  rw [View.read_writes_eq_canon _ _ _ (cover0_B_4 c i arg2 harg2 arg3 harg3 arg4 harg4 arg5 harg5 arg6 harg6 arg7 harg7 arg8 harg8 arg9 harg9 hc0 hc1 x0 x1 x2 xs0 xs1)]
  unfold kernelRun0_B
  dsimp only
  sl_unfold_words
  rw [View.canon_unit_zero hz2]
  simp only [View.readAt_eq_ld, harg2.read_unread, harg3.read_unread, harg4.read_unread, harg8.read_unread, harg9.read_unread, View.readCov_unit_zero (S := S1x1024) _ hz2, View.ld_unit_zero (S := S1024x1024) hz2, View.ld_unit_zero (S := S1024x1) hz2, View.ld_unit_zero (S := S1x1024) hz2]

/-- Case B: the table output's block is the new running maximum, repeated on its eight rows. -/
theorem out0_B_5_eq (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S1024x1024 .i32) (x1 : Vec F S1024x1 .f32) (x2 : Vec F S1x1024 .f32) (xs0 : Vec F S1x1024 .f32) (xs1 : Vec F S1x1024 .f32) :
    out0_B_5 c i arg2 harg2 arg3 harg3 arg4 harg4 arg5 harg5 arg6 harg6 arg7 harg7 arg8 harg8 arg9 harg9 hc0 hc1 x0 x1 x2 xs0 xs1 = k0_pay3 (k0_pay8 x1 x2 x0 xs0) := by
  unfold out0_B_5
  rw [View.read_writes_eq_canon _ _ _ (cover0_B_5 c i arg2 harg2 arg3 harg3 arg4 harg4 arg5 harg5 arg6 harg6 arg7 harg7 arg8 harg8 arg9 harg9 hc0 hc1 x0 x1 x2 xs0 xs1)]
  unfold kernelRun0_B
  dsimp only
  sl_unfold_words
  rw [View.canon_unit_zero hz2]
  simp only [View.readAt_eq_ld, harg2.read_unread, harg3.read_unread, harg4.read_unread, harg8.read_unread, harg9.read_unread, View.readCov_unit_zero (S := S1x1024) _ hz2, View.ld_unit_zero (S := S1024x1024) hz2, View.ld_unit_zero (S := S1024x1) hz2, View.ld_unit_zero (S := S1x1024) hz2]

/-- Case B: the first running row ends at the new running maximum. -/
theorem sout0_B_0_eq (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S1024x1024 .i32) (x1 : Vec F S1024x1 .f32) (x2 : Vec F S1x1024 .f32) (xs0 : Vec F S1x1024 .f32) (xs1 : Vec F S1x1024 .f32) :
    sout0_B_0 c i arg2 harg2 arg3 harg3 arg4 harg4 arg5 harg5 arg6 harg6 arg7 harg7 arg8 harg8 arg9 harg9 hc0 hc1 x0 x1 x2 xs0 xs1 = k0_pay1 (k0_pay8 x1 x2 x0 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 xs0 xs1)]
  unfold kernelRun0_B
  dsimp only
  sl_unfold_words
  rw [View.canon_unit_zero hz2]
  simp only [View.readAt_eq_ld, harg2.read_unread, harg3.read_unread, harg4.read_unread, harg8.read_unread, harg9.read_unread, View.readCov_unit_zero (S := S1x1024) _ hz2, View.ld_unit_zero (S := S1024x1024) hz2, View.ld_unit_zero (S := S1024x1) hz2, View.ld_unit_zero (S := S1x1024) hz2]

/-- Case B: the second running row ends at the new running rescaled sum. -/
theorem sout0_B_1_eq (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S1024x1024 .i32) (x1 : Vec F S1024x1 .f32) (x2 : Vec F S1x1024 .f32) (xs0 : Vec F S1x1024 .f32) (xs1 : Vec F S1x1024 .f32) :
    sout0_B_1 c i arg2 harg2 arg3 harg3 arg4 harg4 arg5 harg5 arg6 harg6 arg7 harg7 arg8 harg8 arg9 harg9 hc0 hc1 x0 x1 x2 xs0 xs1 = k0_pay10 x1 x2 x0 xs0 xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 xs0 xs1)]
  unfold kernelRun0_B
  dsimp only
  sl_unfold_words
  rw [View.canon_unit_zero hz2]
  simp only [View.readAt_eq_ld, harg2.read_unread, harg3.read_unread, harg4.read_unread, harg8.read_unread, harg9.read_unread, View.readCov_unit_zero (S := S1x1024) _ hz2, View.ld_unit_zero (S := S1024x1024) hz2, View.ld_unit_zero (S := S1024x1) hz2, View.ld_unit_zero (S := S1x1024) hz2]

/-- Case C: the column output's block is the new running maximum plus the logarithm of the new running sum. -/
theorem out0_C_3_eq (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S1024x1024 .i32) (x1 : Vec F S1024x1 .f32) (x2 : Vec F S1x1024 .f32) (xs0 : Vec F S1x1024 .f32) (xs1 : Vec F S1x1024 .f32) :
    out0_C_3 c i arg2 harg2 arg3 harg3 arg4 harg4 arg5 harg5 arg6 harg6 arg7 harg7 arg8 harg8 arg9 harg9 hc0 hc1 x0 x1 x2 xs0 xs1 = k0_pay4 (k0_pay1 (k0_pay8 x1 x2 x0 xs0)) (k0_pay10 x1 x2 x0 xs0 xs0 xs1) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 x2 xs0 xs1)]
  unfold kernelRun0_C
  dsimp only
  sl_unfold_words
  rw [View.canon_unit_zero hz2]
  simp only [View.readAt_eq_ld, harg2.read_unread, harg3.read_unread, harg4.read_unread, harg8.read_unread, harg9.read_unread, View.readCov_unit_zero (S := S1x1024) _ hz2, View.ld_unit_zero (S := S1024x1024) hz2, View.ld_unit_zero (S := S1024x1) hz2, View.ld_unit_zero (S := S1x1024) hz2]

/-- Case C: the matrix output's block is the exponentials of the scores shifted by the new running maximum. -/
theorem out0_C_4_eq (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S1024x1024 .i32) (x1 : Vec F S1024x1 .f32) (x2 : Vec F S1x1024 .f32) (xs0 : Vec F S1x1024 .f32) (xs1 : Vec F S1x1024 .f32) :
    out0_C_4 c i arg2 harg2 arg3 harg3 arg4 harg4 arg5 harg5 arg6 harg6 arg7 harg7 arg8 harg8 arg9 harg9 hc0 hc1 x0 x1 x2 xs0 xs1 = k0_pay2 (k0_pay9 x1 x2 x0 xs0) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 xs0 xs1)]
  unfold kernelRun0_C
  dsimp only
  sl_unfold_words
  rw [View.canon_unit_zero hz2]
  simp only [View.readAt_eq_ld, harg2.read_unread, harg3.read_unread, harg4.read_unread, harg8.read_unread, harg9.read_unread, View.readCov_unit_zero (S := S1x1024) _ hz2, View.ld_unit_zero (S := S1024x1024) hz2, View.ld_unit_zero (S := S1024x1) hz2, View.ld_unit_zero (S := S1x1024) hz2]

/-- Case C: the table output's block is the new running maximum, repeated on its eight rows. -/
theorem out0_C_5_eq (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S1024x1024 .i32) (x1 : Vec F S1024x1 .f32) (x2 : Vec F S1x1024 .f32) (xs0 : Vec F S1x1024 .f32) (xs1 : Vec F S1x1024 .f32) :
    out0_C_5 c i arg2 harg2 arg3 harg3 arg4 harg4 arg5 harg5 arg6 harg6 arg7 harg7 arg8 harg8 arg9 harg9 hc0 hc1 x0 x1 x2 xs0 xs1 = k0_pay3 (k0_pay8 x1 x2 x0 xs0) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 xs0 xs1)]
  unfold kernelRun0_C
  dsimp only
  sl_unfold_words
  rw [View.canon_unit_zero hz2]
  simp only [View.readAt_eq_ld, harg2.read_unread, harg3.read_unread, harg4.read_unread, harg8.read_unread, harg9.read_unread, View.readCov_unit_zero (S := S1x1024) _ hz2, View.ld_unit_zero (S := S1024x1024) hz2, View.ld_unit_zero (S := S1024x1) hz2, View.ld_unit_zero (S := S1x1024) hz2]

/-- Case C: the first running row ends at the new running maximum. -/
theorem sout0_C_0_eq (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S1024x1024 .i32) (x1 : Vec F S1024x1 .f32) (x2 : Vec F S1x1024 .f32) (xs0 : Vec F S1x1024 .f32) (xs1 : Vec F S1x1024 .f32) :
    sout0_C_0 c i arg2 harg2 arg3 harg3 arg4 harg4 arg5 harg5 arg6 harg6 arg7 harg7 arg8 harg8 arg9 harg9 hc0 hc1 x0 x1 x2 xs0 xs1 = k0_pay1 (k0_pay8 x1 x2 x0 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 xs0 xs1)]
  unfold kernelRun0_C
  dsimp only
  sl_unfold_words
  rw [View.canon_unit_zero hz2]
  simp only [View.readAt_eq_ld, harg2.read_unread, harg3.read_unread, harg4.read_unread, harg8.read_unread, harg9.read_unread, View.readCov_unit_zero (S := S1x1024) _ hz2, View.ld_unit_zero (S := S1024x1024) hz2, View.ld_unit_zero (S := S1024x1) hz2, View.ld_unit_zero (S := S1x1024) hz2]

/-- Case C: the second running row ends at the new running rescaled sum. -/
theorem sout0_C_1_eq (c : Dev nD) (i : grid0.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S1024x1024 .i32) (x1 : Vec F S1024x1 .f32) (x2 : Vec F S1x1024 .f32) (xs0 : Vec F S1x1024 .f32) (xs1 : Vec F S1x1024 .f32) :
    sout0_C_1 c i arg2 harg2 arg3 harg3 arg4 harg4 arg5 harg5 arg6 harg6 arg7 harg7 arg8 harg8 arg9 harg9 hc0 hc1 x0 x1 x2 xs0 xs1 = k0_pay10 x1 x2 x0 xs0 xs0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 xs0 xs1)]
  unfold kernelRun0_C
  dsimp only
  sl_unfold_words
  rw [View.canon_unit_zero hz2]
  simp only [View.readAt_eq_ld, harg2.read_unread, harg3.read_unread, harg4.read_unread, harg8.read_unread, harg9.read_unread, View.readCov_unit_zero (S := S1x1024) _ hz2, View.ld_unit_zero (S := S1024x1024) hz2, View.ld_unit_zero (S := S1024x1) hz2, View.ld_unit_zero (S := S1x1024) hz2]

end Cert.KernelIdeal.Reg

end
-- ==== Proof.LibRank2.lean ====
/-
  Rank-2 arrays read at coordinates, over the extended reals, for any extents.

  * A sum or a maximum over one axis of an [a, b] array, read at the kept coordinate: summing (or folding max
    over) the last axis at row i ranges over the entries (i, k); over the first axis at column j, over (k, j).
  * The matrix product contracted over the SECOND axis of both operands, [M, K] × [N, K] → [M, N]
    (entry (r, n) = ∑ k, l (r, k) · r (n, k)), and over the FIRST axis of both, [K, M] × [K, N] → [M, N]
    (entry (r, n) = ∑ k, l (k, r) · r (k, n)), each into an accumulator that is zero everywhere.
  * Shape casts that only insert unit axes keep the one varying coordinate: [a] → [1, 1, a].
-/
import Idealize.ShloMosaic.PureOps.Ideal.Laws
import Idealize.ShloMosaic.Lib.ValueIdx
import Idealize.ShloMosaic.Lib.Pipeline.Value

noncomputable section

namespace Cert.LibRank2

open Idealize.ShloMosaic Idealize.ShloMosaic.ValueIdx

variable {a b : ℕ} {φ : FTy}

/-! ## One-axis reductions -/

/-- Putting coordinate `k` back on the last axis of row `i` gives the entry (i, k). -/
theorem lift_last (h : (⟨2, ![a, b]⟩ : Shape).Reduces [1] ⟨1, ![a]⟩) (i : Fin a) (k : Fin b) :
    h.lift (ix1 i) k = ix2 i k :=
  funext fun d => Fin.ext (by match d with | ⟨0, _⟩ => rfl | ⟨1, _⟩ => rfl)

/-- Putting coordinate `k` back on the first axis of column `j` gives the entry (k, j). -/
theorem lift_first (h : (⟨2, ![a, b]⟩ : Shape).Reduces [0] ⟨1, ![b]⟩) (j : Fin b) (k : Fin a) :
    h.lift (ix1 j) k = ix2 k j :=
  funext fun d => Fin.ext (by match d with | ⟨0, _⟩ => rfl | ⟨1, _⟩ => rfl)

/-- The sum over the last axis, at row `i`. -/
theorem sum_last (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last h i k))

/-- The sum over the first axis, at column `j`. -/
theorem sum_first (src : FVec Ideal ⟨2, ![a, b]⟩ φ) (acc : BitVec φ.bits) (h : (⟨2, ![a, b]⟩ : Shape).Reduces [0] ⟨1, ![b]⟩)
    (hφ : FKind.Formats φ) (hacc : acc = FKind.add.neutral φ hφ) (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (lift_first h j k))

/-- The maximum over the last axis, at row `i`: the fold of max from the accumulator's value. -/
theorem max_last (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) fun k => src (ix2 i k) :=
  (Ideal.multiReduction_maximumf_single src acc h hφ hacc (ix1 i)).trans
    (congrArg ((Finset.univ : Finset (Fin b)).fold max (Ideal.ofBits φ acc)) (funext fun k => congrArg src (lift_last h i k)))

/-- The maximum over the first axis, at column `j`. -/
theorem max_first (src : FVec Ideal ⟨2, ![a, b]⟩ φ) (acc : BitVec φ.bits) (h : (⟨2, ![a, b]⟩ : Shape).Reduces [0] ⟨1, ![b]⟩)
    (hφ : FKind.Formats φ) (hacc : acc = FKind.maximumf.neutral φ hφ) (j : Fin b) :
    multiReduction .maximumf [0] ⟨1, ![b]⟩ src acc h hφ hacc (ix1 j)
      = (Finset.univ : Finset (Fin a)).fold max (Ideal.ofBits φ acc) fun k => src (ix2 k j) :=
  (Ideal.multiReduction_maximumf_single src acc h hφ hacc (ix1 j)).trans
    (congrArg ((Finset.univ : Finset (Fin a)).fold max (Ideal.ofBits φ acc)) (funext fun k => congrArg src (lift_first h j k)))

/-! ## Two transposed matrix products -/

section dots
variable {M K N : ℕ}

theorem rhsT_rank : (DotDims.transposedRhs M K N).contr.rank = 1 := rfl
theorem rhsT_size : (DotDims.transposedRhs M K N).contr.size ⟨0, by rw [rhsT_rank]; exact Nat.one_pos⟩ = K := rfl

/-- The left operand is read in the result's row … -/
theorem rhsT_lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
/-- … and the right operand in the row numbered by the result's column. -/
theorem rhsT_rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- [M, K] × [N, K] → [M, N], contracted over the second axis of both: entry (r, n) is ∑ k, l (r, k) · r (n, k). -/
theorem matmul_rhsT_zero_apply {φ₁ φ₂ : FTy} (prec : Option ContractPrecision)
    (l : FVec Ideal ⟨2, ![M, K]⟩ φ₁) (r : FVec Ideal ⟨2, ![N, K]⟩ φ₂) (p : Fin M) (n : Fin N) :
    FloatOps.matmul (DotDims.transposedRhs M K N) prec l r (constant ⟨2, ![M, N]⟩ .f32 0x00000000#32) (ix2 p n)
      = ∑ k : Fin K, l (ix2 p k) * r (ix2 n k) := by
  refine (Ideal.matmul_constant_zero_apply (DotDims.transposedRhs M K N) prec l r (ix2 p n)).trans ?_
  rw [← Equiv.sum_comp (contrEquiv1 (DotDims.transposedRhs M K N) K rhsT_rank rhsT_size).symm]
  refine Finset.sum_congr rfl fun k _ => ?_
  have hk := contrEquiv1_symm_val (DotDims.transposedRhs M K N) K rhsT_rank rhsT_size k
  have el : (DotDims.transposedRhs M K N).lhsIdx (ix2 p n) ((contrEquiv1 (DotDims.transposedRhs M K N) K rhsT_rank rhsT_size).symm k) = ix2 p k :=
    funext fun d => Fin.ext (by
      match d with
      | ⟨0, _⟩ => exact rhsT_lhs_row _ _
      | ⟨1, _⟩ => exact ((DotDims.transposedRhs M K N).lhsIdx_val_of_single rfl (ix2 p n) _).trans hk)
  have er : (DotDims.transposedRhs M K N).rhsIdx (ix2 p n) ((contrEquiv1 (DotDims.transposedRhs M K N) K rhsT_rank rhsT_size).symm k) = ix2 n k :=
    funext fun d => Fin.ext (by
      match d with
      | ⟨0, _⟩ => exact rhsT_rhs_row _ _
      | ⟨1, _⟩ => exact ((DotDims.transposedRhs M K N).rhsIdx_val_of_single rfl (ix2 p n) _).trans hk)
  exact congrArg₂ (· * ·) (congrArg l el) (congrArg r er)

end dots

/-! ## Contracted over the first axis of both operands -/

section lhsT
variable {M K N : ℕ}

/-- [K, M] × [K, N] → [M, N], contracted over the first axis of both: entry (r, n) is ∑ k, l (k, r) · r (k, n).
    Stated for any dimension record with these axis lists. -/
theorem matmul_lhsT_zero_apply {φ₁ φ₂ : FTy} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    (prec : Option ContractPrecision)
    (l : FVec Ideal ⟨2, ![K, M]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 k p) * r (ix2 k n) := by
  obtain ⟨lc, rc, ln, rn, lb, rb, wf⟩ := d
  dsimp only at h1 h2 h3 h4 h5 h6
  subst h1 h2 h3 h4 h5 h6
  generalize hd : (⟨[0], [0], [1], [1], [], [], wf⟩ : DotDims ⟨2, ![K, M]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [0] := by subst hd; rfl
  have hrc : d.rhsContracting = [0] := by subst hd; rfl
  have lrow : ∀ (j : (⟨2, ![M, N]⟩ : Shape).Idx) (q : d.contr.Idx), (d.lhsIdx j q 1).val = (j 0).val := by
    intro j q; subst hd
    unfold DotDims.lhsIdx
    rw [dif_neg (show ¬(1 : Fin 2) ∈ ([] : List (Fin 2)) from List.not_mem_nil),
      dif_pos (show (1 : Fin 2) ∈ ([1] : List (Fin 2)) from List.mem_singleton.mpr rfl)]
    rfl
  have rrow : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 k p :=
    funext fun a => Fin.ext (by
      match a with
      | ⟨0, _⟩ => exact (d.lhsIdx_val_of_single hlc (ix2 p n) _).trans hk
      | ⟨1, _⟩ => exact lrow _ _)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rrow _ _)
  exact congrArg₂ (· * ·) (congrArg l el) (congrArg r er)

end lhsT

/-! ## Unit axes in front of a vector -/

/-- An `[a]` array cast to `[1, 1, a]` reads, at `(u, v, i)`, the operand at `i`. -/
theorem shapeCast_a_11a_apply {α : Type} {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

end Cert.LibRank2

end
-- ==== Proof.KI.R0Idx.lean ====
import proofs.«178722_j75866302316653_2_alg».proof.Proof.Gen.KernelIdeal.Skeleton
import proofs.«178722_j75866302316653_2_alg».proof.Proof.KSpec
import proofs.«178722_j75866302316653_2_alg».proof.Proof.LibRank2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Idealize.ShloMosaic Idealize.ShloMosaic.ValueIdx
open Cert.KernelIdeal Cert.KernelIdeal.Gen

/-! # The first pass's payloads read at an index, over the extended reals

One block of the pass: `x0` the adjacency block, `x1` the column of row scores, `x2` the row of column scores, `m` and
`l` the running maximum and the running sum the block finds. Every payload is read at explicit coordinates: row `r` and
column `q` of the block. -/

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An exponential at an index is the exponential of the element; -/
theorem vexp_apply {s : Shape} {φ : FTy} (a : FVec Ideal s φ) (i : s.Idx) : Idealize.ShloMosaic.exp a i = Ideal.exp (a i) := rfl
/-- a logarithm the logarithm of the element. -/
theorem vlog_apply {s : Shape} {φ : FTy} (a : FVec Ideal s φ) (i : s.Idx) : Idealize.ShloMosaic.log a i = Ideal.log (a i) := rfl

section
variable (x0 : Vec Ideal S1024x1024 .i32) (x1 : Vec Ideal S1024x1 .f32) (x2 : Vec Ideal S1x1024 .f32)

/-- The block's masked score at row `r`, column `q`: the leaky score where the adjacency is positive, the fill elsewhere. -/
def bval (r q : Fin 1024) : EReal :=
  Scalar.select (IntOp.cmpi .sgt (x0 (ix2 r q)) 0#32)
    (max (x1 (ix2 r (0 : Fin 1)) + x2 (ix2 (0 : Fin 1) q))
      (Cert.KSpec.slope * (x1 (ix2 r (0 : Fin 1)) + x2 (ix2 (0 : Fin 1) q))))
    Cert.KSpec.fill

/-- The masked score is pointwise: the column of row scores and the row of column scores broadcast over the block. -/
theorem pay7_apply (r q : Fin 1024) : k0_pay7 (F := Ideal) x1 x2 x0 (ix2 r q) = bval x0 x1 x2 r q := by
  unfold k0_pay7 bval
  rw [shapeCast_self, shapeCast_self]
  show Scalar.select (IntOp.cmpi .sgt (x0 (ix2 r q)) 0#32)
    (max (broadcastTo S1024x1024 x1 broadcasts_S1024x1_S1024x1024 (ix2 r q) + broadcastTo S1024x1024 x2 broadcasts_S1x1024_S1024x1024 (ix2 r q))
      (Ideal.ofBits .f32 0x3DCCCCCD#32 * (broadcastTo S1024x1024 x1 broadcasts_S1024x1_S1024x1024 (ix2 r q) + broadcastTo S1024x1024 x2 broadcasts_S1x1024_S1024x1024 (ix2 r q))))
    (Ideal.ofBits .f32 0xD9FFCB9E#32) = _
  rw [broadcastTo_a1_ab_apply, broadcastTo_1b_ab_apply]
  rfl

/-- The new running maximum at column `q`: the old one and the fold of max from `-∞` over the block's rows. -/
theorem pay8_apply (m : Vec Ideal S1x1024 .f32) (q : Fin 1024) :
    k0_pay8 (F := Ideal) x1 x2 x0 m (ix2 (0 : Fin 1) q)
      = max (m (ix2 (0 : Fin 1) q)) ((Finset.univ : Finset (Fin 1024)).fold max Cert.KSpec.negInf fun r => bval x0 x1 x2 r q) := by
  unfold k0_pay8
  rw [maximumf_apply, shapeCast_a_1a_apply]
  refine congrArg (max (m (ix2 (0 : Fin 1) q))) ?_
  refine (Cert.LibRank2.max_first _ _ _ _ _ q).trans ?_
  exact congrArg (fun f => (Finset.univ : Finset (Fin 1024)).fold max Cert.KSpec.negInf f) (funext fun r => pay7_apply x0 x1 x2 r q)

/-- The block's exponentials: the score shifted by the new running maximum of its column. -/
theorem pay9_apply (m : Vec Ideal S1x1024 .f32) (r q : Fin 1024) :
    k0_pay9 (F := Ideal) x1 x2 x0 m (ix2 r q)
      = Ideal.exp (bval x0 x1 x2 r q - k0_pay8 (F := Ideal) x1 x2 x0 m (ix2 (0 : Fin 1) q)) := by
  unfold k0_pay9
  rw [vexp_apply, subf_apply, broadcastTo_1b_ab_apply, pay7_apply]

/-- The new running sum at column `q`: the old sum rescaled by the exponential of (old maximum − new maximum), plus the
    sum of the block's exponentials down the column. -/
theorem pay10_apply (m m' l : Vec Ideal S1x1024 .f32) (q : Fin 1024) :
    k0_pay10 (F := Ideal) x1 x2 x0 m m' l (ix2 (0 : Fin 1) q)
      = Ideal.exp (m' (ix2 (0 : Fin 1) q) - k0_pay8 (F := Ideal) x1 x2 x0 m (ix2 (0 : Fin 1) q)) * l (ix2 (0 : Fin 1) q)
        + ∑ r : Fin 1024, k0_pay9 (F := Ideal) x1 x2 x0 m (ix2 r q) := by
  unfold k0_pay10
  rw [shapeCast_self, addf_apply, mulf_apply, vexp_apply, subf_apply, shapeCast_a_1a_apply]
  exact congrArg (fun z => Ideal.exp (m' (ix2 (0 : Fin 1) q) - k0_pay8 (F := Ideal) x1 x2 x0 m (ix2 (0 : Fin 1) q)) * l (ix2 (0 : Fin 1) q) + z)
    (Cert.LibRank2.sum_first _ _ _ _ _ q)

end
/-- The running maximum plus the logarithm of the running sum, columnwise. -/
theorem pay4_apply (a b : Vec Ideal S1x1024 .f32) (q : Fin 1024) :
    k0_pay4 (F := Ideal) a b (ix2 (0 : Fin 1) q) = a (ix2 (0 : Fin 1) q) + Ideal.log (b (ix2 (0 : Fin 1) q)) := rfl

/-- A row repeated on eight rows. -/
theorem pay3_apply (v : FVec Ideal S1x1024 .f32) (p : Fin 8) (q : Fin 1024) :
    k0_pay3 (F := Ideal) v (ix2 p q) = v (ix2 (0 : Fin 1) q) := by
  unfold k0_pay3
  rw [shapeCast_self, broadcastTo_1b_ab_apply]

/-- Narrowing the format changes no extended real. -/
theorem pay2_apply (v : FVec Ideal S1024x1024 .f32) (i : S1024x1024.Idx) : k0_pay2 (F := Ideal) v i = v i := rfl

/-- A cast to the same shape changes nothing. -/
theorem pay1_eq {F : FTy → Type} [FloatOps F] (v : FVec F S1x1024 .f32) : k0_pay1 (F := F) v = v := by
  unfold k0_pay1
  exact shapeCast_self v _

/-- The reset row of the running maximum is `-∞` everywhere. -/
theorem pay5_apply (i : S1x1024.Idx) : k0_pay5 (F := Ideal) i = Cert.KSpec.negInf := by
  unfold k0_pay5
  rw [shapeCast_self]
  rfl

/-- The reset row of the running sum is zero everywhere. -/
theorem pay6_apply (i : S1x1024.Idx) : k0_pay6 (F := Ideal) i = Cert.KSpec.zero := by
  unfold k0_pay6
  rw [shapeCast_self]
  rfl

end Cert.KernelIdeal.Reg

end
-- ==== Proof.KI.R0Step.lean ====
import proofs.«178722_j75866302316653_2_alg».proof.Proof.KI.R0Idx

set_option maxRecDepth 16384

noncomputable section

namespace Cert.KernelIdeal.Reg

open Idealize.ShloMosaic Idealize.ShloMosaic.ValueIdx
open Cert.KernelIdeal Cert.KernelIdeal.Gen Cert.KSpec

/-! # One block of the first pass, against the specification's recurrences

Column `q` of a block whose scores are the specification's masked scores of row block `I` at column `j`: the payloads the
body stores are the specification's running maximum and running sum after block `I`, given that the rows the block finds
hold them after block `I - 1` (for `I = 0`: the reset values). -/

section
variable (adj : Fin 8192 → Fin 8192 → BitVec 32) (sc sr : Fin 8192 → EReal)

/-- The running maximum a block finds: the reset value before the first block, the running maximum after the block before. -/
def mprev (j : Fin 8192) : (I : ℕ) → I < 8 → EReal
  | 0, _ => negInf
  | I + 1, h => mrun adj sc sr j I (by omega)

/-- The running sum a block finds. -/
def lprev (j : Fin 8192) : (I : ℕ) → I < 8 → EReal
  | 0, _ => zero
  | I + 1, h => lrun adj sc sr j I (by omega)

/-- The running maximum after block `I` is the one found and the block's maximum. -/
theorem mrun_eq (j : Fin 8192) : ∀ (I : ℕ) (h : I < 8), mrun adj sc sr j I h = max (mprev adj sc sr j I h) (bmax adj sc sr ⟨I, h⟩ j)
  | 0, _ => rfl
  | _ + 1, _ => rfl

/-- The running sum after block `I` is the one found rescaled, plus the block's sum. -/
theorem lrun_eq (j : Fin 8192) : ∀ (I : ℕ) (h : I < 8), lrun adj sc sr j I h
      = Ideal.exp (mprev adj sc sr j I h - mrun adj sc sr j I h) * lprev adj sc sr j I h + bsum adj sc sr ⟨I, h⟩ j (mrun adj sc sr j I h)
  | 0, _ => rfl
  | _ + 1, _ => rfl

theorem mrun_congr {j j' : Fin 8192} {I I' : ℕ} (hj : j = j') (hI : I = I') (h : I < 8) (h' : I' < 8) :
    mrun adj sc sr j I h = mrun adj sc sr j' I' h' := by subst hj; subst hI; rfl

theorem lrun_congr {j j' : Fin 8192} {I I' : ℕ} (hj : j = j') (hI : I = I') (h : I < 8) (h' : I' < 8) :
    lrun adj sc sr j I h = lrun adj sc sr j' I' h' := by subst hj; subst hI; rfl

theorem mprev_succ (j : Fin 8192) (I : ℕ) (h : I + 1 < 8) : mprev adj sc sr j (I + 1) h = mrun adj sc sr j I (by omega) := rfl
theorem lprev_succ (j : Fin 8192) (I : ℕ) (h : I + 1 < 8) : lprev adj sc sr j (I + 1) h = lrun adj sc sr j I (by omega) := rfl

variable (x0 : Vec Ideal S1024x1024 .i32) (x1 : Vec Ideal S1024x1 .f32) (x2 : Vec Ideal S1x1024 .f32)
variable (q : Fin 1024) (j : Fin 8192) (I : ℕ) (hI : I < 8)
variable (hv : ∀ r : Fin 1024, bval x0 x1 x2 r q = val adj sc sr (rowOf ⟨I, hI⟩ r) j)
include hv

/-- The block's column maximum is the specification's. -/
theorem bmax_of : ((Finset.univ : Finset (Fin 1024)).fold max negInf fun r => bval x0 x1 x2 r q) = bmax adj sc sr ⟨I, hI⟩ j :=
  congrArg (fun f => (Finset.univ : Finset (Fin 1024)).fold max negInf f) (funext hv)

/-- The new running maximum. -/
theorem pay8_spec (M : Vec Ideal S1x1024 .f32) (hM : M (ix2 (0 : Fin 1) q) = mprev adj sc sr j I hI) :
    k0_pay8 (F := Ideal) x1 x2 x0 M (ix2 (0 : Fin 1) q) = mrun adj sc sr j I hI := by
  rw [pay8_apply, hM, bmax_of adj sc sr x0 x1 x2 q j I hI hv, mrun_eq]

/-- The block's exponentials are the specification's matrix output on the block's rows. -/
theorem pay9_spec (M : Vec Ideal S1x1024 .f32) (hM : M (ix2 (0 : Fin 1) q) = mprev adj sc sr j I hI) (r : Fin 1024) :
    k0_pay9 (F := Ideal) x1 x2 x0 M (ix2 r q) = Ideal.exp (val adj sc sr (rowOf ⟨I, hI⟩ r) j - mrun adj sc sr j I hI) := by
  rw [pay9_apply, hv r, pay8_spec adj sc sr x0 x1 x2 q j I hI hv M hM]

/-- The new running sum. -/
theorem pay10_spec (M L : Vec Ideal S1x1024 .f32) (hM : M (ix2 (0 : Fin 1) q) = mprev adj sc sr j I hI)
    (hL : L (ix2 (0 : Fin 1) q) = lprev adj sc sr j I hI) :
    k0_pay10 (F := Ideal) x1 x2 x0 M M L (ix2 (0 : Fin 1) q) = lrun adj sc sr j I hI := by
  rw [pay10_apply, hM, hL, pay8_spec adj sc sr x0 x1 x2 q j I hI hv M hM, lrun_eq]
  refine congrArg (fun z => Ideal.exp (mprev adj sc sr j I hI - mrun adj sc sr j I hI) * lprev adj sc sr j I hI + z) ?_
  unfold bsum
  exact Finset.sum_congr rfl fun r _ => pay9_spec adj sc sr x0 x1 x2 q j I hI hv M hM r

end

section
variable (adj : Fin 8192 → Fin 8192 → BitVec 32) (sc sr : Fin 8192 → EReal)

/-- The matrix output on row `r` of row block `I`: the block's own running maximum is the one after block `I`. -/
theorem pOut_rowOf (I : ℕ) (hI : I < 8) (r : Fin 1024) (j : Fin 8192) :
    pOut adj sc sr (rowOf ⟨I, hI⟩ r) j = Ideal.exp (val adj sc sr (rowOf ⟨I, hI⟩ r) j - mrun adj sc sr j I hI) := by
  unfold pOut
  exact congrArg (fun z => Ideal.exp (val adj sc sr (rowOf ⟨I, hI⟩ r) j - z))
    (mrun_congr adj sc sr rfl (congrArg Fin.val (blockOf_rowOf ⟨I, hI⟩ r)) _ _)

/-- The table output on the eight rows of row block `I`. -/
theorem mtOut_row (I : ℕ) (hI : I < 8) (p : Fin 8) (k : Fin 64) (hk : k.val = 8 * I + p.val) (j : Fin 8192) :
    mtOut adj sc sr k j = mrun adj sc sr j I hI := by
  unfold mtOut
  exact mrun_congr adj sc sr rfl (by rw [hk]; omega) _ _

/-- The column output. -/
theorem lseOut_eq (j : Fin 8192) (h : 7 < 8) :
    lseOut adj sc sr j = mrun adj sc sr j 7 h + Ideal.log (lrun adj sc sr j 7 h) := rfl

end

end Cert.KernelIdeal.Reg

end
-- ==== Proof.KI.R0Blk.lean ====
import proofs.«178722_j75866302316653_2_alg».proof.Proof.KI.R0Base
import proofs.«178722_j75866302316653_2_alg».proof.Proof.KI.R0Idx

set_option maxRecDepth 16384

noncomputable section

namespace Cert.KernelIdeal.Reg

open Idealize.ShloMosaic Idealize.ShloMosaic.TcCoe Idealize.ShloMosaic.ValueIdx
open Idealize.SL.Sem
open Cert.KernelIdeal Cert.KernelIdeal.Gen

/-! # The first pass's blocks as entries of its arrays

At point `t = 8·J + I` the adjacency window's block is rows `1024·I …` and columns `1024·J …` of the adjacency, the
row-score window's block rows `1024·I …` of the column operand, the column-score window's block columns `1024·J …` of the
row operand; the three output windows sit at block `(0, J)`, `(I, J)`, `(I, J)`. -/

/-- The printed index maps, decided once over the grid: the inner coordinate is `t % 8`, the outer `t / 8`. -/
theorem idx_facts0 : ∀ t : Fin cfg0.N,
    win0_0.index t (0 : Fin 2) = t.val % 8 ∧ win0_0.index t (1 : Fin 2) = t.val / 8
    ∧ win0_1.index t (0 : Fin 2) = t.val % 8 ∧ win0_1.index t (1 : Fin 2) = 0
    ∧ win0_2.index t (0 : Fin 2) = 0 ∧ win0_2.index t (1 : Fin 2) = t.val / 8
    ∧ win0_3.index t (0 : Fin 2) = 0 ∧ win0_3.index t (1 : Fin 2) = t.val / 8
    ∧ win0_4.index t (0 : Fin 2) = t.val % 8 ∧ win0_4.index t (1 : Fin 2) = t.val / 8
    ∧ win0_5.index t (0 : Fin 2) = t.val % 8 ∧ win0_5.index t (1 : Fin 2) = t.val / 8 :=
  (by decide +kernel : ∀ t : Fin grid0.N, _)

section
variable (V : (c : Dev nD) → (b : Ref sig .tc) → Buf (Elt Ideal) ((c : Thread nD τ).loc b))

/-- The adjacency, the row scores (down the column operand) and the column scores (along the row operand), as the
    region finds them. -/
def adjOf (c : Dev nD) : Fin 8192 → Fin 8192 → BitVec 32 := fun i j => V c main_arg1 (ValueIdx.ix2 i j)
def scOf (c : Dev nD) : Fin 8192 → EReal := fun i => V c main_v2 (ValueIdx.ix2 i 0)
def srOf (c : Dev nD) : Fin 8192 → EReal := fun j => V c main_v3 (ValueIdx.ix2 0 j)

/-- The adjacency block at `(r, q)` is the adjacency at `(1024·(t % 8) + r, 1024·(t / 8) + q)`. -/
theorem iblk0_0_apply (c : Dev nD) (t : Fin cfg0.N) (r q : Fin 1024) (i j : Fin 8192)
    (hi : i.val = 1024 * (t.val % 8) + r.val) (hj : j.val = 1024 * (t.val / 8) + q.val) :
    (iblk0 V c 0 t : Vec Ideal S1024x1024 .i32) (ix2 r q) = adjOf V c i j := by
  obtain ⟨e0, e1, -⟩ := idx_facts0 t
  unfold iblk0 adjOf
  rw [View.read_apply]
  show V c main_arg1 _ = V c main_arg1 _
  refine congrArg (V c main_arg1) (funext fun a => Fin.ext ?_)
  match a with
  | ⟨0, _⟩ => show win0_0.index t (0 : Fin 2) * 1024 + 1 * r.val = i.val; rw [e0, hi]; omega
  | ⟨1, _⟩ => show win0_0.index t (1 : Fin 2) * 1024 + 1 * q.val = j.val; rw [e1, hj]; omega

/-- The row-score block at `(r, 0)` is the column operand at row `1024·(t % 8) + r`. -/
theorem iblk0_1_apply (c : Dev nD) (t : Fin cfg0.N) (r : Fin 1024) (i : Fin 8192)
    (hi : i.val = 1024 * (t.val % 8) + r.val) :
    (iblk0 V c 1 t : Vec Ideal S1024x1 .f32) (ix2 r (0 : Fin 1)) = scOf V c i := by
  obtain ⟨-, -, e0, e1, -⟩ := idx_facts0 t
  unfold iblk0 scOf
  rw [View.read_apply]
  show V c main_v2 _ = V c main_v2 _
  refine congrArg (V c main_v2) (funext fun a => Fin.ext ?_)
  match a with
  | ⟨0, _⟩ => show win0_1.index t (0 : Fin 2) * 1024 + 1 * r.val = i.val; rw [e0, hi]; omega
  | ⟨1, _⟩ => show win0_1.index t (1 : Fin 2) * 1 + 1 * 0 = 0; rw [e1]

/-- The column-score block at `(0, q)` is the row operand at column `1024·(t / 8) + q`. -/
theorem iblk0_2_apply (c : Dev nD) (t : Fin cfg0.N) (q : Fin 1024) (j : Fin 8192)
    (hj : j.val = 1024 * (t.val / 8) + q.val) :
    (iblk0 V c 2 t : Vec Ideal S1x1024 .f32) (ix2 (0 : Fin 1) q) = srOf V c j := by
  obtain ⟨-, -, -, -, e0, e1, -⟩ := idx_facts0 t
  unfold iblk0 srOf
  rw [View.read_apply]
  show V c main_v3 _ = V c main_v3 _
  refine congrArg (V c main_v3) (funext fun a => Fin.ext ?_)
  match a with
  | ⟨0, _⟩ => show win0_2.index t (0 : Fin 2) * 1 + 1 * 0 = 0; rw [e0]
  | ⟨1, _⟩ => show win0_2.index t (1 : Fin 2) * 1024 + 1 * q.val = j.val; rw [e1, hj]; omega

end

/-- A block whose three operands read the arrays at `(i, j)`, `i` and `j` has the specification's masked score there. -/
theorem bval_eq_val (adj : Fin 8192 → Fin 8192 → BitVec 32) (sc sr : Fin 8192 → EReal)
    (x0 : Vec Ideal S1024x1024 .i32) (x1 : Vec Ideal S1024x1 .f32) (x2 : Vec Ideal S1x1024 .f32) (r q : Fin 1024) (i j : Fin 8192)
    (h0 : x0 (ix2 r q) = adj i j) (h1 : x1 (ix2 r (0 : Fin 1)) = sc i) (h2 : x2 (ix2 (0 : Fin 1) q) = sr j) :
    bval x0 x1 x2 r q = Cert.KSpec.val adj sc sr i j := by
  unfold bval Cert.KSpec.val
  rw [h0, h1, h2]

section
variable (V : (c : Dev nD) → (b : Ref sig .tc) → Buf (Elt Ideal) ((c : Thread nD τ).loc b))

/-- At point `t = 8·J + I` the block's masked score at `(r, q)` is the specification's at row `r` of row block `I`, column `q`
    of column block `J`. -/
theorem bval_iblk0 (c : Dev nD) (t : Fin cfg0.N) (I J : ℕ) (hI : I < 8) (hJ : J < 8) (ht : t.val = 8 * J + I) (r q : Fin 1024) :
    bval (iblk0 V c 0 t) (iblk0 V c 1 t) (iblk0 V c 2 t) r q
      = Cert.KSpec.val (adjOf V c) (scOf V c) (srOf V c) (Cert.KSpec.rowOf ⟨I, hI⟩ r) (Cert.KSpec.rowOf ⟨J, hJ⟩ q) :=
  bval_eq_val (adjOf V c) (scOf V c) (srOf V c) (iblk0 V c 0 t) (iblk0 V c 1 t) (iblk0 V c 2 t) r q
    (Cert.KSpec.rowOf ⟨I, hI⟩ r) (Cert.KSpec.rowOf ⟨J, hJ⟩ q)
    (iblk0_0_apply V c t r q _ _ (by show 1024 * I + r.val = _; omega) (by show 1024 * J + q.val = _; omega))
    (iblk0_1_apply V c t r _ (by show 1024 * I + r.val = _; omega))
    (iblk0_2_apply V c t q _ (by show 1024 * J + q.val = _; omega))

end

end Cert.KernelIdeal.Reg

end
-- ==== Proof.KI.R0Ind.lean ====
import proofs.«178722_j75866302316653_2_alg».proof.Proof.KI.R0Pay
import proofs.«178722_j75866302316653_2_alg».proof.Proof.KI.R0Step
import proofs.«178722_j75866302316653_2_alg».proof.Proof.KI.R0Blk

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KSpec
open Idealize.ShloMosaic.ValueIdx

/-! # The first pass point by point: the running rows are the specification's recurrences

What the body finds in the two running rows at a point is the reset rows where the inner coordinate is `0` and what the
point before left elsewhere; in every case it leaves the same payloads of the point's three blocks and of the rows found.
By induction on the inner coordinate `I` (for each column block `J`), after point `8·J + I` the rows hold, at column `q`, the
specification's running maximum and running sum of column `1024·J + q` after row block `I`; the outputs follow. -/

section
variable (V : (c : Dev nD) → (b : Ref sig .tc) → Buf (Elt Ideal) ((c : Thread nD τ).loc b))

/-- The running maximum row the body finds at point `t`. -/
def foundM (c : Dev nD) (t : Fin cfg0.N) : Vec Ideal S1x1024 .f32 :=
  if t.val % 8 = 0 then k0_pay5 (F := Ideal) else (outsAt0 V c (t.val - 1) (Nat.lt_of_le_of_lt (Nat.sub_le _ _) t.isLt)).2.2.2.1

/-- The running sum row the body finds at point `t`. -/
def foundL (c : Dev nD) (t : Fin cfg0.N) : Vec Ideal S1x1024 .f32 :=
  if t.val % 8 = 0 then k0_pay6 (F := Ideal) else (outsAt0 V c (t.val - 1) (Nat.lt_of_le_of_lt (Nat.sub_le _ _) t.isLt)).2.2.2.2

theorem foundM_zero (c : Dev nD) (t : Fin cfg0.N) (h0 : t.val % 8 = 0) : foundM V c t = k0_pay5 (F := Ideal) := if_pos h0
theorem foundL_zero (c : Dev nD) (t : Fin cfg0.N) (h0 : t.val % 8 = 0) : foundL V c t = k0_pay6 (F := Ideal) := if_pos h0
theorem foundM_pos (c : Dev nD) (t : Fin cfg0.N) (h0 : ¬t.val % 8 = 0) :
    foundM V c t = (outsAt0 V c (t.val - 1) (Nat.lt_of_le_of_lt (Nat.sub_le _ _) t.isLt)).2.2.2.1 := if_neg h0
theorem foundL_pos (c : Dev nD) (t : Fin cfg0.N) (h0 : ¬t.val % 8 = 0) :
    foundL V c t = (outsAt0 V c (t.val - 1) (Nat.lt_of_le_of_lt (Nat.sub_le _ _) t.isLt)).2.2.2.2 := if_neg h0

/-- After every point the first running row is the new running maximum of what was found. -/
theorem outsAt0_s0 (c : Dev nD) (t : Fin cfg0.N) :
    (outsAt0 V c t.val t.isLt).2.2.2.1 = k0_pay1 (k0_pay8 (iblk0 V c 1 t) (iblk0 V c 2 t) (iblk0 V c 0 t) (foundM V c t)) := by
  by_cases h0 : t.val % 8 = 0
  · have h1 : ¬t.val % 8 = 7 := by omega
    rw [foundM_zero V c t h0, outsAt0_A V c t h0 h1]
    dsimp only
    exact sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t)
  · rw [foundM_pos V c t h0]
    by_cases h1 : t.val % 8 = 7
    · rw [outsAt0_C V c t h0 h1]
      dsimp only
      exact sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
    · rw [outsAt0_B V c t h0 h1]
      dsimp only
      exact sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

/-- After every point the second running row is the new running sum of what was found. -/
theorem outsAt0_s1 (c : Dev nD) (t : Fin cfg0.N) :
    (outsAt0 V c t.val t.isLt).2.2.2.2 = k0_pay10 (iblk0 V c 1 t) (iblk0 V c 2 t) (iblk0 V c 0 t) (foundM V c t) (foundM V c t) (foundL V c t) := by
  by_cases h0 : t.val % 8 = 0
  · have h1 : ¬t.val % 8 = 7 := by omega
    rw [foundM_zero V c t h0, foundL_zero V c t h0, outsAt0_A V c t h0 h1]
    dsimp only
    exact sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t)
  · rw [foundM_pos V c t h0, foundL_pos V c t h0]
    by_cases h1 : t.val % 8 = 7
    · rw [outsAt0_C V c t h0 h1]
      dsimp only
      exact sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
    · rw [outsAt0_B V c t h0 h1]
      dsimp only
      exact sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

/-- After every point the matrix output's buffer holds the block's exponentials. -/
theorem outsAt0_o4 (c : Dev nD) (t : Fin cfg0.N) :
    (outsAt0 V c t.val t.isLt).2.1 = k0_pay2 (k0_pay9 (iblk0 V c 1 t) (iblk0 V c 2 t) (iblk0 V c 0 t) (foundM V c t)) := by
  by_cases h0 : t.val % 8 = 0
  · have h1 : ¬t.val % 8 = 7 := by omega
    rw [foundM_zero V c t h0, outsAt0_A V c t h0 h1]
    dsimp only
    exact out0_A_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t)
  · rw [foundM_pos V c t h0]
    by_cases h1 : t.val % 8 = 7
    · rw [outsAt0_C V c t h0 h1]
      dsimp only
      exact out0_C_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
    · rw [outsAt0_B V c t h0 h1]
      dsimp only
      exact out0_B_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

/-- After every point the table output's buffer holds the new running maximum on its eight rows. -/
theorem outsAt0_o5 (c : Dev nD) (t : Fin cfg0.N) :
    (outsAt0 V c t.val t.isLt).2.2.1 = k0_pay3 (k0_pay8 (iblk0 V c 1 t) (iblk0 V c 2 t) (iblk0 V c 0 t) (foundM V c t)) := by
  by_cases h0 : t.val % 8 = 0
  · have h1 : ¬t.val % 8 = 7 := by omega
    rw [foundM_zero V c t h0, outsAt0_A V c t h0 h1]
    dsimp only
    exact out0_A_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t)
  · rw [foundM_pos V c t h0]
    by_cases h1 : t.val % 8 = 7
    · rw [outsAt0_C V c t h0 h1]
      dsimp only
      exact out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
    · rw [outsAt0_B V c t h0 h1]
      dsimp only
      exact out0_B_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

/-- Where the inner coordinate is `7` the column output's buffer holds the new running maximum plus the logarithm of the new
    running sum. -/
theorem outsAt0_o3 (c : Dev nD) (t : Fin cfg0.N) (h1 : t.val % 8 = 7) :
    (outsAt0 V c t.val t.isLt).1 = k0_pay4 (k0_pay1 (k0_pay8 (iblk0 V c 1 t) (iblk0 V c 2 t) (iblk0 V c 0 t) (foundM V c t))) (k0_pay10 (iblk0 V c 1 t) (iblk0 V c 2 t) (iblk0 V c 0 t) (foundM V c t) (foundM V c t) (foundL V c t)) := by
  have h0 : ¬t.val % 8 = 0 := by omega
  rw [foundM_pos V c t h0, foundL_pos V c t h0, outsAt0_C V c t h0 h1]
  dsimp only
  exact out0_C_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

/-! ## The induction -/

/-- Given what the rows found hold, the rows left hold the specification's values after block `I`. -/
theorem rows_of_found (c : Dev nD) (I : ℕ) (hI : I < 8) (J : ℕ) (hJ : J < 8) (t : Fin cfg0.N) (ht : t.val = 8 * J + I) (q : Fin 1024)
    (hM : foundM V c t (ix2 (0 : Fin 1) q) = mprev (adjOf V c) (scOf V c) (srOf V c) (rowOf ⟨J, hJ⟩ q) I hI)
    (hL : foundL V c t (ix2 (0 : Fin 1) q) = lprev (adjOf V c) (scOf V c) (srOf V c) (rowOf ⟨J, hJ⟩ q) I hI) :
    (outsAt0 V c t.val t.isLt).2.2.2.1 (ix2 (0 : Fin 1) q) = mrun (adjOf V c) (scOf V c) (srOf V c) (rowOf ⟨J, hJ⟩ q) I hI
    ∧ (outsAt0 V c t.val t.isLt).2.2.2.2 (ix2 (0 : Fin 1) q) = lrun (adjOf V c) (scOf V c) (srOf V c) (rowOf ⟨J, hJ⟩ q) I hI := by
  have hv : ∀ r : Fin 1024, bval (iblk0 V c 0 t) (iblk0 V c 1 t) (iblk0 V c 2 t) r q
      = val (adjOf V c) (scOf V c) (srOf V c) (rowOf ⟨I, hI⟩ r) (rowOf ⟨J, hJ⟩ q) := fun r => bval_iblk0 V c t I J hI hJ ht r q
  refine ⟨?_, ?_⟩
  · rw [outsAt0_s0 V c t, pay1_eq]
    exact pay8_spec (adjOf V c) (scOf V c) (srOf V c) (iblk0 V c 0 t) (iblk0 V c 1 t) (iblk0 V c 2 t) q (rowOf ⟨J, hJ⟩ q) I hI hv (foundM V c t) hM
  · rw [outsAt0_s1 V c t]
    exact pay10_spec (adjOf V c) (scOf V c) (srOf V c) (iblk0 V c 0 t) (iblk0 V c 1 t) (iblk0 V c 2 t) q (rowOf ⟨J, hJ⟩ q) I hI hv (foundM V c t) (foundL V c t) hM hL

/-- After point `8·J + I` the two running rows hold, at column `q`, the running maximum and the running sum of column
    `1024·J + q` after row block `I`. -/
theorem rows_inv (c : Dev nD) : ∀ (I : ℕ) (hI : I < 8) (J : ℕ) (hJ : J < 8) (t : Fin cfg0.N) (ht : t.val = 8 * J + I) (q : Fin 1024),
    (outsAt0 V c t.val t.isLt).2.2.2.1 (ix2 (0 : Fin 1) q) = mrun (adjOf V c) (scOf V c) (srOf V c) (rowOf ⟨J, hJ⟩ q) I hI
    ∧ (outsAt0 V c t.val t.isLt).2.2.2.2 (ix2 (0 : Fin 1) q) = lrun (adjOf V c) (scOf V c) (srOf V c) (rowOf ⟨J, hJ⟩ q) I hI
  | 0, hI, J, hJ, t, ht, q => by
    have h0 : t.val % 8 = 0 := by omega
    refine rows_of_found V c 0 hI J hJ t ht q ?_ ?_
    · rw [foundM_zero V c t h0]; exact pay5_apply _
    · rw [foundL_zero V c t h0]; exact pay6_apply _
  | I + 1, hI, J, hJ, t, ht, q => by
    have h0 : ¬t.val % 8 = 0 := by omega
    have ih := rows_inv c I (by omega) J hJ ⟨t.val - 1, (Nat.lt_of_le_of_lt (Nat.sub_le _ _) t.isLt)⟩ (by show t.val - 1 = 8 * J + I; omega) q
    refine rows_of_found V c (I + 1) hI J hJ t ht q ?_ ?_
    · rw [foundM_pos V c t h0]; exact ih.1
    · rw [foundL_pos V c t h0]; exact ih.2

/-- So what the body finds at point `8·J + I` is what the specification's recurrence starts block `I` from. -/
theorem found_inv (c : Dev nD) (I : ℕ) (hI : I < 8) (J : ℕ) (hJ : J < 8) (t : Fin cfg0.N) (ht : t.val = 8 * J + I) (q : Fin 1024) :
    foundM V c t (ix2 (0 : Fin 1) q) = mprev (adjOf V c) (scOf V c) (srOf V c) (rowOf ⟨J, hJ⟩ q) I hI
    ∧ foundL V c t (ix2 (0 : Fin 1) q) = lprev (adjOf V c) (scOf V c) (srOf V c) (rowOf ⟨J, hJ⟩ q) I hI := by
  cases I with
  | zero =>
    have h0 : t.val % 8 = 0 := by omega
    refine ⟨?_, ?_⟩
    · rw [foundM_zero V c t h0]; exact pay5_apply _
    · rw [foundL_zero V c t h0]; exact pay6_apply _
  | succ I =>
    have h0 : ¬t.val % 8 = 0 := by omega
    have ih := rows_inv V c I (by omega) J hJ ⟨t.val - 1, (Nat.lt_of_le_of_lt (Nat.sub_le _ _) t.isLt)⟩ (by show t.val - 1 = 8 * J + I; omega) q
    refine ⟨?_, ?_⟩
    · rw [foundM_pos V c t h0]; exact ih.1
    · rw [foundL_pos V c t h0]; exact ih.2

/-! ## The three outputs at a point -/

/-- The matrix output's buffer after point `8·J + I`: the specification's matrix output on rows `1024·I …`, columns `1024·J …`. -/
theorem out4_inv (c : Dev nD) (I : ℕ) (hI : I < 8) (J : ℕ) (hJ : J < 8) (t : Fin cfg0.N) (ht : t.val = 8 * J + I) (r q : Fin 1024) :
    (outsAt0 V c t.val t.isLt).2.1 (ix2 r q) = pOut (adjOf V c) (scOf V c) (srOf V c) (rowOf ⟨I, hI⟩ r) (rowOf ⟨J, hJ⟩ q) := by
  have hv : ∀ r : Fin 1024, bval (iblk0 V c 0 t) (iblk0 V c 1 t) (iblk0 V c 2 t) r q
      = val (adjOf V c) (scOf V c) (srOf V c) (rowOf ⟨I, hI⟩ r) (rowOf ⟨J, hJ⟩ q) := fun r => bval_iblk0 V c t I J hI hJ ht r q
  rw [outsAt0_o4 V c t, pay2_apply, pOut_rowOf]
  exact pay9_spec (adjOf V c) (scOf V c) (srOf V c) (iblk0 V c 0 t) (iblk0 V c 1 t) (iblk0 V c 2 t) q (rowOf ⟨J, hJ⟩ q) I hI hv (foundM V c t) (found_inv V c I hI J hJ t ht q).1 r

/-- The table output's buffer after point `8·J + I`: on each of its eight rows the running maximum after block `I`. -/
theorem out5_inv (c : Dev nD) (I : ℕ) (hI : I < 8) (J : ℕ) (hJ : J < 8) (t : Fin cfg0.N) (ht : t.val = 8 * J + I) (p : Fin 8) (q : Fin 1024) :
    (outsAt0 V c t.val t.isLt).2.2.1 (ix2 p q) = mrun (adjOf V c) (scOf V c) (srOf V c) (rowOf ⟨J, hJ⟩ q) I hI := by
  have hv : ∀ r : Fin 1024, bval (iblk0 V c 0 t) (iblk0 V c 1 t) (iblk0 V c 2 t) r q
      = val (adjOf V c) (scOf V c) (srOf V c) (rowOf ⟨I, hI⟩ r) (rowOf ⟨J, hJ⟩ q) := fun r => bval_iblk0 V c t I J hI hJ ht r q
  rw [outsAt0_o5 V c t, pay3_apply]
  exact pay8_spec (adjOf V c) (scOf V c) (srOf V c) (iblk0 V c 0 t) (iblk0 V c 1 t) (iblk0 V c 2 t) q (rowOf ⟨J, hJ⟩ q) I hI hv (foundM V c t) (found_inv V c I hI J hJ t ht q).1

/-- The column output's buffer after point `8·J + 7`: the column's log-sum-exp. -/
theorem out3_inv (c : Dev nD) (J : ℕ) (hJ : J < 8) (t : Fin cfg0.N) (ht : t.val = 8 * J + 7) (q : Fin 1024) :
    (outsAt0 V c t.val t.isLt).1 (ix2 (0 : Fin 1) q) = lseOut (adjOf V c) (scOf V c) (srOf V c) (rowOf ⟨J, hJ⟩ q) := by
  have h7 : (7 : ℕ) < 8 := by omega
  have hv : ∀ r : Fin 1024, bval (iblk0 V c 0 t) (iblk0 V c 1 t) (iblk0 V c 2 t) r q
      = val (adjOf V c) (scOf V c) (srOf V c) (rowOf ⟨7, h7⟩ r) (rowOf ⟨J, hJ⟩ q) := fun r => bval_iblk0 V c t 7 J h7 hJ ht r q
  have hf := found_inv V c 7 h7 J hJ t ht q
  rw [outsAt0_o3 V c t (by omega), pay4_apply, pay1_eq, lseOut_eq _ _ _ _ h7,
    pay8_spec (adjOf V c) (scOf V c) (srOf V c) (iblk0 V c 0 t) (iblk0 V c 1 t) (iblk0 V c 2 t) q (rowOf ⟨J, hJ⟩ q) 7 h7 hv (foundM V c t) hf.1,
    pay10_spec (adjOf V c) (scOf V c) (srOf V c) (iblk0 V c 0 t) (iblk0 V c 1 t) (iblk0 V c 2 t) q (rowOf ⟨J, hJ⟩ q) 7 h7 hv (foundM V c t) (foundL V c t) hf.1 hf.2]

end

end Cert.KernelIdeal.Reg

end
-- ==== Proof.KI.R0Acc.lean ====
import proofs.«178722_j75866302316653_2_alg».proof.Proof.KI.R0Ind

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KSpec
open Idealize.ShloMosaic.ValueIdx

/-! # The first pass's three output buffers after the point of column block `Jc` and row block `I`

The grid point is `8·Jc + I`. The matrix output's buffer holds the specification's matrix output on rows `1024·I …` and
columns `1024·Jc …`; the table output's buffer the specification's table rows `8·I …` at those columns; and where `I = 7`
the column output's buffer the specification's column output at those columns. -/

section
variable (V : (c : Dev nD) → (b : Ref sig .tc) → Buf (Elt Ideal) ((c : Thread nD τ).loc b))

theorem out0_4_at (c : Dev nD) (Jc I : Fin 8) (hn : 8 * Jc.val + I.val < cfg0.N) (r q : Fin 1024) :
    ((outsAt0 V c (8 * Jc.val + I.val) hn).2.1 (ix2 r q) : EReal)
      = Cert.KSpec.pOut (adjOf V c) (scOf V c) (srOf V c) (Cert.KSpec.rowOf I r) (Cert.KSpec.rowOf Jc q) :=
  out4_inv V c I.val I.isLt Jc.val Jc.isLt ⟨8 * Jc.val + I.val, hn⟩ rfl r q

theorem out0_5_at (c : Dev nD) (Jc I : Fin 8) (hn : 8 * Jc.val + I.val < cfg0.N) (u : Fin 8) (q : Fin 1024) :
    ((outsAt0 V c (8 * Jc.val + I.val) hn).2.2.1 (ix2 u q) : EReal)
      = Cert.KSpec.mtOut (adjOf V c) (scOf V c) (srOf V c) ⟨8 * I.val + u.val, by have := I.isLt; have := u.isLt; omega⟩ (Cert.KSpec.rowOf Jc q) :=
  (out5_inv V c I.val I.isLt Jc.val Jc.isLt ⟨8 * Jc.val + I.val, hn⟩ rfl u q).trans
    (mtOut_row (adjOf V c) (scOf V c) (srOf V c) I.val I.isLt u _ rfl (Cert.KSpec.rowOf Jc q)).symm

theorem out0_3_at (c : Dev nD) (Jc : Fin 8) (hn : 8 * Jc.val + 7 < cfg0.N) (q : Fin 1024) :
    ((outsAt0 V c (8 * Jc.val + 7) hn).1 (ix2 (0 : Fin 1) q) : EReal)
      = Cert.KSpec.lseOut (adjOf V c) (scOf V c) (srOf V c) (Cert.KSpec.rowOf Jc q) :=
  out3_inv V c Jc.val Jc.isLt ⟨8 * Jc.val + 7, hn⟩ rfl q

end

end Cert.KernelIdeal.Reg

end
-- ==== Proof.KI.R0Final.lean ====
import proofs.«178722_j75866302316653_2_alg».proof.Proof.KI.R0Acc
import proofs.«178722_j75866302316653_2_alg».proof.Proof.Gen.KernelIdeal.Points
import Idealize.ShloMosaic.Lib.ValueIdx
import Idealize.ShloMosaic.Lib.Pipeline.Value

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! # The first pass: the blocks its three output windows write back, and the three arrays when its region ends

Region 0's grid is 8 × 8, point `t = 8·J + I`: column block `J` outside, row block `I` inside. The window of the
per-column log-sum-exp sits at block `(0, J)` and is written back at the last row block of each column block; the
window of the stored terms at block `(I, J)` and the window of the table of running maxima at block `(I, J)` are
written back at every point. Each array therefore ends holding, entry by entry, the specification's value. -/

section
variable (V : (c : Dev nD) → (b : Ref sig .tc) → Buf (Elt Ideal) ((c : Thread nD τ).loc b))

/-- The point's contents do not depend on how its position is spelt. -/
theorem outsAt0_congr (c : Dev nD) (n n' : ℕ) (hn : n < cfg0.N) (hn' : n' < cfg0.N) (e : n = n') :
    outsAt0 V c n hn = outsAt0 V c n' hn' := by subst e; rfl

/-- What the three arrays end holding: the specification's per-column log-sum-exp, stored terms and table of running
    maxima, of the arrays the pass reads, entry by entry. -/
def G0_3 (c : Dev nD) : (⟨2, ![1, 8192]⟩ : Shape).Idx → EReal := fun y =>
  Cert.KSpec.lseOut (adjOf V c) (scOf V c) (srOf V c) ⟨(y 1).val, idx2_lt1 y⟩

def G0_4 (c : Dev nD) : (⟨2, ![8192, 8192]⟩ : Shape).Idx → EReal := fun y =>
  Cert.KSpec.pOut (adjOf V c) (scOf V c) (srOf V c) ⟨(y 0).val, idx2_lt0 y⟩ ⟨(y 1).val, idx2_lt1 y⟩

def G0_5 (c : Dev nD) : (⟨2, ![64, 8192]⟩ : Shape).Idx → EReal := fun y =>
  Cert.KSpec.mtOut (adjOf V c) (scOf V c) (srOf V c) ⟨(y 0).val, idx2_lt0 y⟩ ⟨(y 1).val, idx2_lt1 y⟩

/-! ## The stored terms -/

/-- What a point writes back of the stored terms is its block of `G0_4`. -/
theorem flushed0_4_eq (c : Dev nD) (t : Fin cfg0.N) (hf : (cfg0.win 4).flush t = true) :
    (dat0 V c).flushed 4 t = ((cfg0.win 4).blk t).view.read (Elt Ideal) (G0_4 V c) := by
  have hN : cfg0.N = 64 := N_0
  have htl := t.isLt
  obtain ⟨f00, f01, f10, f11, f20, f21, f30, f31, f40, f41, f50, f51⟩ := idx_facts0 t
  show (cfg0.win 4).cut (grid0.coords t) ((dat0 V c).after 4 t) = _
  rw [after0_4]
  funext j
  have hJ : t.val / 8 < 8 := by omega
  have hI : t.val % 8 < 8 := by omega
  have e1 := out0_4_at V c ⟨t.val / 8, hJ⟩ ⟨t.val % 8, hI⟩ (by dsimp only; omega) ⟨(j 0).val, (j 0).isLt⟩ ⟨(j 1).val, (j 1).isLt⟩
  rw [outsAt0_congr V c t.val (8 * (⟨t.val / 8, hJ⟩ : Fin 8).val + (⟨t.val % 8, hI⟩ : Fin 8).val) t.isLt (by dsimp only; omega) (by dsimp only; omega)]
  refine (show _ = _ from ?_ : (outsAt0 V c (8 * (⟨t.val / 8, hJ⟩ : Fin 8).val + (⟨t.val % 8, hI⟩ : Fin 8).val) _).2.1 j = _)
  have ej : j = ix2 (⟨(j 0).val, (j 0).isLt⟩ : Fin 1024) (⟨(j 1).val, (j 1).isLt⟩ : Fin 1024) := by
    funext a; match a with | ⟨0, _⟩ => rfl | ⟨1, _⟩ => rfl
  rw [ej]
  refine e1.trans ?_
  show _ = G0_4 V c (((cfg0.win 4).blk t).view.emb _)
  unfold G0_4
  refine congrArg₂ (Cert.KSpec.pOut (adjOf V c) (scOf V c) (srOf V c)) (Fin.ext ?_) (Fin.ext ?_)
  · show 1024 * (t.val % 8) + (j 0).val = win0_4.index t (0 : Fin 2) * 1024 + 1 * (j 0).val
    rw [f40]; omega
  · show 1024 * (t.val / 8) + (j 1).val = win0_4.index t (1 : Fin 2) * 1024 + 1 * (j 1).val
    rw [f41]; omega

/-- An entry of the stored-terms array is in point `t`'s block iff each coordinate is in the block's range. -/
theorem mem_blk0_4 (t : Fin cfg0.N) (i : S8192x8192.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v4_1).slice (win0_4.rect t)).set ↔ _
  rw [View.set_slice_whole, Rect.mem_set_unit]
  exact Iff.rfl

/-- THE STORED TERMS after the first pass: `G0_4` everywhere — point `8·J + I` covers rows of block `I`, columns of block `J`. -/
theorem final0_4_all (c : Dev nD) : (dat0 V c).arrAt 4 cfg0.N = G0_4 V c :=
  (dat0 V c).arrAt_eq_of_cover 4 (G0_4 V c) (flushed0_4_eq V c) fun i => by
    have hN : cfg0.N = 64 := N_0
    have hi0 : (i 0).val < 8192 := (i 0).isLt
    have hi1 : (i 1).val < 8192 := (i 1).isLt
    have ht : 8 * ((i 1).val / 1024) + (i 0).val / 1024 < cfg0.N := by omega
    obtain ⟨f00, f01, f10, f11, f20, f21, f30, f31, f40, f41, f50, f51⟩ := idx_facts0 ⟨8 * ((i 1).val / 1024) + (i 0).val / 1024, ht⟩
    refine ⟨⟨8 * ((i 1).val / 1024) + (i 0).val / 1024, ht⟩, flush0_4 _, ?_⟩
    rw [mem_blk0_4]
    intro a
    match a with
    | ⟨0, _⟩ => show win0_4.index _ (0 : Fin 2) * 1024 ≤ (i 0).val ∧ (i 0).val < win0_4.index _ (0 : Fin 2) * 1024 + 1024
                rw [f40]; dsimp only; omega
    | ⟨1, _⟩ => show win0_4.index _ (1 : Fin 2) * 1024 ≤ (i 1).val ∧ (i 1).val < win0_4.index _ (1 : Fin 2) * 1024 + 1024
                rw [f41]; dsimp only; omega

theorem final0_4 (c : Dev nD) (i j : Fin 8192) :
    (dat0 V c).arrAt 4 cfg0.N (ix2 i j) = Cert.KSpec.pOut (adjOf V c) (scOf V c) (srOf V c) i j :=
  congrFun (final0_4_all V c) (ix2 i j)

/-! ## The table of running maxima -/

/-- What a point writes back of the table is its block of `G0_5`. -/
theorem flushed0_5_eq (c : Dev nD) (t : Fin cfg0.N) (hf : (cfg0.win 5).flush t = true) :
    (dat0 V c).flushed 5 t = ((cfg0.win 5).blk t).view.read (Elt Ideal) (G0_5 V c) := by
  have hN : cfg0.N = 64 := N_0
  have htl := t.isLt
  obtain ⟨f00, f01, f10, f11, f20, f21, f30, f31, f40, f41, f50, f51⟩ := idx_facts0 t
  show (cfg0.win 5).cut (grid0.coords t) ((dat0 V c).after 5 t) = _
  rw [after0_5]
  funext j
  have hJ : t.val / 8 < 8 := by omega
  have hI : t.val % 8 < 8 := by omega
  have e1 := out0_5_at V c ⟨t.val / 8, hJ⟩ ⟨t.val % 8, hI⟩ (by dsimp only; omega) ⟨(j 0).val, (j 0).isLt⟩ ⟨(j 1).val, (j 1).isLt⟩
  rw [outsAt0_congr V c t.val (8 * (⟨t.val / 8, hJ⟩ : Fin 8).val + (⟨t.val % 8, hI⟩ : Fin 8).val) t.isLt (by dsimp only; omega) (by dsimp only; omega)]
  refine (show _ = _ from ?_ : (outsAt0 V c (8 * (⟨t.val / 8, hJ⟩ : Fin 8).val + (⟨t.val % 8, hI⟩ : Fin 8).val) _).2.2.1 j = _)
  have ej : j = ix2 (⟨(j 0).val, (j 0).isLt⟩ : Fin 8) (⟨(j 1).val, (j 1).isLt⟩ : Fin 1024) := by
    funext a; match a with | ⟨0, _⟩ => rfl | ⟨1, _⟩ => rfl
  rw [ej]
  refine e1.trans ?_
  show _ = G0_5 V c (((cfg0.win 5).blk t).view.emb _)
  unfold G0_5
  refine congrArg₂ (Cert.KSpec.mtOut (adjOf V c) (scOf V c) (srOf V c)) (Fin.ext ?_) (Fin.ext ?_)
  · show 8 * (t.val % 8) + (j 0).val = win0_5.index t (0 : Fin 2) * 8 + 1 * (j 0).val
    rw [f50]; omega
  · show 1024 * (t.val / 8) + (j 1).val = win0_5.index t (1 : Fin 2) * 1024 + 1 * (j 1).val
    rw [f51]; omega

/-- An entry of the table is in point `t`'s block iff each coordinate is in the block's range. -/
theorem mem_blk0_5 (t : Fin cfg0.N) (i : S64x8192.Idx) :
    i ∈ ((cfg0.win 5).blk t).view.set ↔ ∀ a : Fin 2, win0_5.index t a * S8x1024.size a ≤ (i a).val ∧ (i a).val < win0_5.index t a * S8x1024.size a + S8x1024.size a := by
  show i ∈ ((View.whole main_v4_2).slice (win0_5.rect t)).set ↔ _
  rw [View.set_slice_whole, Rect.mem_set_unit]
  exact Iff.rfl

/-- THE TABLE after the first pass: `G0_5` everywhere — point `8·J + I` covers the eight rows of block `I`, columns of block `J`. -/
theorem final0_5_all (c : Dev nD) : (dat0 V c).arrAt 5 cfg0.N = G0_5 V c :=
  (dat0 V c).arrAt_eq_of_cover 5 (G0_5 V c) (flushed0_5_eq V c) fun i => by
    have hN : cfg0.N = 64 := N_0
    have hi0 : (i 0).val < 64 := (i 0).isLt
    have hi1 : (i 1).val < 8192 := (i 1).isLt
    have ht : 8 * ((i 1).val / 1024) + (i 0).val / 8 < cfg0.N := by omega
    obtain ⟨f00, f01, f10, f11, f20, f21, f30, f31, f40, f41, f50, f51⟩ := idx_facts0 ⟨8 * ((i 1).val / 1024) + (i 0).val / 8, ht⟩
    refine ⟨⟨8 * ((i 1).val / 1024) + (i 0).val / 8, ht⟩, flush0_5 _, ?_⟩
    rw [mem_blk0_5]
    intro a
    match a with
    | ⟨0, _⟩ => show win0_5.index _ (0 : Fin 2) * 8 ≤ (i 0).val ∧ (i 0).val < win0_5.index _ (0 : Fin 2) * 8 + 8
                rw [f50]; dsimp only; omega
    | ⟨1, _⟩ => show win0_5.index _ (1 : Fin 2) * 1024 ≤ (i 1).val ∧ (i 1).val < win0_5.index _ (1 : Fin 2) * 1024 + 1024
                rw [f51]; dsimp only; omega

theorem final0_5 (c : Dev nD) (q : Fin 64) (j : Fin 8192) :
    (dat0 V c).arrAt 5 cfg0.N (ix2 q j) = Cert.KSpec.mtOut (adjOf V c) (scOf V c) (srOf V c) q j :=
  congrFun (final0_5_all V c) (ix2 q j)

/-! ## The per-column log-sum-exp -/

/-- What the last row block's point of a column block writes back of the log-sum-exp is its block of `G0_3`. -/
theorem flushed0_3_eq (c : Dev nD) (t : Fin cfg0.N) (hf : (cfg0.win 3).flush t = true) :
    (dat0 V c).flushed 3 t = ((cfg0.win 3).blk t).view.read (Elt Ideal) (G0_3 V c) := by
  have hN : cfg0.N = 64 := N_0
  have htl := t.isLt
  have h7 : t.val % 8 = 7 := (flush0_3 t).mp hf
  obtain ⟨f00, f01, f10, f11, f20, f21, f30, f31, f40, f41, f50, f51⟩ := idx_facts0 t
  show (cfg0.win 3).cut (grid0.coords t) ((dat0 V c).after 3 t) = _
  rw [after0_3]
  funext j
  have hJ : t.val / 8 < 8 := by omega
  have e1 := out0_3_at V c ⟨t.val / 8, hJ⟩ (by dsimp only; omega) ⟨(j 1).val, (j 1).isLt⟩
  rw [outsAt0_congr V c t.val (8 * (⟨t.val / 8, hJ⟩ : Fin 8).val + 7) t.isLt (by dsimp only; omega) (by dsimp only; omega)]
  refine (show _ = _ from ?_ : (outsAt0 V c (8 * (⟨t.val / 8, hJ⟩ : Fin 8).val + 7) _).1 j = _)
  have ej : j = ix2 (0 : Fin 1) (⟨(j 1).val, (j 1).isLt⟩ : Fin 1024) := by
    funext a
    match a with
    | ⟨0, _⟩ =>
      have h0 : (j 0).val < 1 := (j 0).isLt
      exact Fin.ext (by show (j 0).val = 0; omega)
    | ⟨1, _⟩ => rfl
  rw [ej]
  refine e1.trans ?_
  show _ = G0_3 V c (((cfg0.win 3).blk t).view.emb _)
  unfold G0_3
  refine congrArg (Cert.KSpec.lseOut (adjOf V c) (scOf V c) (srOf V c)) (Fin.ext ?_)
  show 1024 * (t.val / 8) + (j 1).val = win0_3.index t (1 : Fin 2) * 1024 + 1 * (j 1).val
  rw [f31]; omega

/-- An entry of the log-sum-exp array is in point `t`'s block iff each coordinate is in the block's range. -/
theorem mem_blk0_3 (t : Fin cfg0.N) (i : S1x8192.Idx) :
    i ∈ ((cfg0.win 3).blk t).view.set ↔ ∀ a : Fin 2, win0_3.index t a * S1x1024.size a ≤ (i a).val ∧ (i a).val < win0_3.index t a * S1x1024.size a + S1x1024.size a := by
  show i ∈ ((View.whole main_v4_0).slice (win0_3.rect t)).set ↔ _
  rw [View.set_slice_whole, Rect.mem_set_unit]
  exact Iff.rfl

/-- THE LOG-SUM-EXP after the first pass: `G0_3` everywhere — the last point of column block `J` covers its 1024 columns. -/
theorem final0_3_all (c : Dev nD) : (dat0 V c).arrAt 3 cfg0.N = G0_3 V c :=
  (dat0 V c).arrAt_eq_of_cover 3 (G0_3 V c) (flushed0_3_eq V c) fun i => by
    have hN : cfg0.N = 64 := N_0
    have hi0 : (i 0).val < 1 := (i 0).isLt
    have hi1 : (i 1).val < 8192 := (i 1).isLt
    have ht : 8 * ((i 1).val / 1024) + 7 < cfg0.N := by omega
    obtain ⟨f00, f01, f10, f11, f20, f21, f30, f31, f40, f41, f50, f51⟩ := idx_facts0 ⟨8 * ((i 1).val / 1024) + 7, ht⟩
    refine ⟨⟨8 * ((i 1).val / 1024) + 7, ht⟩, (flush0_3 _).mpr (by dsimp only; omega), ?_⟩
    rw [mem_blk0_3]
    intro a
    match a with
    | ⟨0, _⟩ => show win0_3.index _ (0 : Fin 2) * 1 ≤ (i 0).val ∧ (i 0).val < win0_3.index _ (0 : Fin 2) * 1 + 1
                rw [f30]; omega
    | ⟨1, _⟩ => show win0_3.index _ (1 : Fin 2) * 1024 ≤ (i 1).val ∧ (i 1).val < win0_3.index _ (1 : Fin 2) * 1024 + 1024
                rw [f31]; dsimp only; omega

theorem final0_3 (c : Dev nD) (j : Fin 8192) :
    (dat0 V c).arrAt 3 cfg0.N (ix2 (0 : Fin 1) j) = Cert.KSpec.lseOut (adjOf V c) (scOf V c) (srOf V c) j :=
  congrFun (final0_3_all V c) (ix2 (0 : Fin 1) j)

end

end Cert.KernelIdeal.Reg

end
-- ==== Proof.RefRun.lean ====
/- The reference program's @main as a list of its host operations, the operations of the functions it calls
   listed at the call sites over each call's buffer record, and its run read back: every weakly fair execution
   terminates with the result buffer at the operations' composed pure term of the four argument arrays, the
   arguments unchanged. -/
import proofs.«178722_j75866302316653_2_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's fifty-one operations, in order, the calls unfolded: eight of @main's own (the two products, the
    slice, the transpose, the two broadcasts, their sum, the slope), @leaky_relu's six and its @_where's select,
    four of @main's own (the integer zero, its broadcast, the signed comparison, the fill), @_where_0's two,
    fifteen of @main's own (the column maximum, the shifted exponentials, the column sums, the quotient, the
    last product), @elu's seven, its @_where_1's three, @elu's four, and its @_where_2's select. -/
abbrev ops : List (HloOp τ sig (Elt F)) :=
  [ binary main_arg0 main_arg2 main_v0 ((fun l r => Host.dotGeneral dot_S8192x512_S512x64_S8192x64_1_0_0_1_n_n none l r) : (⟨S8192x512, .f32⟩ : BufTy).Contents (Elt F) → (⟨S512x64, .f32⟩ : BufTy).Contents (Elt F) → (⟨S8192x64, .f32⟩ : BufTy).Contents (Elt F)),
    unary main_arg3 main_v1 ((extractStridedSlice S64x1 ![0, 0] · slices_S128x1_S64x1_0_0) : (⟨S128x1, .f32⟩ : BufTy).Contents (Elt F) → (⟨S64x1, .f32⟩ : BufTy).Contents (Elt F)),
    binary main_v0 main_v1 main_v2 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    unary main_v2 main_v3 ((transpose S1x8192 [1, 0] · transposes_S8192x1_S1x8192_1_0) : (⟨S8192x1, .f32⟩ : BufTy).Contents (Elt F) → (⟨S1x8192, .f32⟩ : BufTy).Contents (Elt F)),
    unary main_v2 main_v4 (broadcastInDim S8192x8192 ![0, 1] bcast_S8192x1_S8192x8192_0_1 : (⟨S8192x1, .f32⟩ : BufTy).Contents (Elt F) → (⟨S8192x8192, .f32⟩ : BufTy).Contents (Elt F)),
    unary main_v3 main_v5 (broadcastInDim S8192x8192 ![0, 1] bcast_S1x8192_S8192x8192_0_1 : (⟨S1x8192, .f32⟩ : BufTy).Contents (Elt F) → (⟨S8192x8192, .f32⟩ : BufTy).Contents (Elt F)),
    binary main_v4 main_v5 main_v6 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3DCCCCCD#32),
    TRef.nullary main_call0.cst (constant S_ .f32 0x00000000#32),
    TRef.unary main_call0.cst main_call0.v0 (broadcastInDim S8192x8192 ![] bcast_S_S8192x8192),
    TRef.binary (.of main_v6 : TRef sig ⟨S8192x8192, .f32⟩) main_call0.v0 main_call0.v1 (cmpf .oge),
    TRef.unary (.of main_cst : TRef sig ⟨S_, .f32⟩) main_call0.v2 id,
    TRef.unary main_call0.v2 main_call0.v3 (broadcastInDim S8192x8192 ![] bcast_S_S8192x8192),
    TRef.binary main_call0.v3 (.of main_v6 : TRef sig ⟨S8192x8192, .f32⟩) main_call0.v4 mulf,
    TRef.ternary main_call0.v1 (.of main_v6 : TRef sig ⟨S8192x8192, .f32⟩) main_call0.v4 main_call0.call0.v0 select,
    nullary main_c (constantI S_ 32 0#32),
    unary main_c main_v8 (broadcastInDim S8192x8192 ![] bcast_S_S8192x8192 : (⟨S_, .i32⟩ : BufTy).Contents (Elt F) → (⟨S8192x8192, .i32⟩ : BufTy).Contents (Elt F)),
    binary main_arg1 main_v8 main_v9 (cmpi .sgt : (⟨S8192x8192, .i32⟩ : BufTy).Contents (Elt F) → (⟨S8192x8192, .i32⟩ : BufTy).Contents (Elt F) → (⟨S8192x8192, .i1⟩ : BufTy).Contents (Elt F)),
    nullary main_cst_0 (constant S_ .f32 0xD9FFCB9E#32),
    TRef.unary (.of main_cst_0 : TRef sig ⟨S_, .f32⟩) main_call1.v0 (broadcastInDim S8192x8192 ![] bcast_S_S8192x8192),
    TRef.ternary (.of main_v9 : TRef sig ⟨S8192x8192, .i1⟩) (.of main_v7 : TRef sig ⟨S8192x8192, .f32⟩) main_call1.v0 main_call1.v1 select,
    nullary main_cst_1 (constant S_ .f32 0xFF800000#32),
    binary main_v10 main_cst_1 main_v11 ((fun x v => Host.reduce FloatOps.maximumf x v reducesTo_S8192x8192_S8192_d0 h_S_) : (⟨S8192x8192, .f32⟩ : BufTy).Contents (Elt F) → (⟨S_, .f32⟩ : BufTy).Contents (Elt F) → (⟨S8192, .f32⟩ : BufTy).Contents (Elt F)),
    nullary main_cst_2 (constant S_ .f32 0xFF800000#32),
    unary main_cst_2 main_v12 (broadcastInDim S8192 ![] bcast_S_S8192 : (⟨S_, .f32⟩ : BufTy).Contents (Elt F) → (⟨S8192, .f32⟩ : BufTy).Contents (Elt F)),
    binary main_v12 main_v11 main_v13 (maximumf : (⟨S8192, .f32⟩ : BufTy).Contents (Elt F) → (⟨S8192, .f32⟩ : BufTy).Contents (Elt F) → (⟨S8192, .f32⟩ : BufTy).Contents (Elt F)),
    unary main_v13 main_v14 (broadcastInDim S1x8192 ![1] bcast_S8192_S1x8192_1 : (⟨S8192, .f32⟩ : BufTy).Contents (Elt F) → (⟨S1x8192, .f32⟩ : BufTy).Contents (Elt F)),
    unary main_v14 main_v15 (broadcastInDim S8192x8192 ![0, 1] bcast_S1x8192_S8192x8192_0_1 : (⟨S1x8192, .f32⟩ : BufTy).Contents (Elt F) → (⟨S8192x8192, .f32⟩ : BufTy).Contents (Elt F)),
    binary main_v10 main_v15 main_v16 (subf : (⟨S8192x8192, .f32⟩ : BufTy).Contents (Elt F) → (⟨S8192x8192, .f32⟩ : BufTy).Contents (Elt F) → (⟨S8192x8192, .f32⟩ : BufTy).Contents (Elt F)),
    unary main_v16 main_v17 (Host.exp : (⟨S8192x8192, .f32⟩ : BufTy).Contents (Elt F) → (⟨S8192x8192, .f32⟩ : BufTy).Contents (Elt F)),
    nullary main_cst_3 (constant S_ .f32 0x00000000#32),
    binary main_v17 main_cst_3 main_v18 ((fun x v => Host.reduceAdd x v reducesTo_S8192x8192_S8192_d0 h_S_) : (⟨S8192x8192, .f32⟩ : BufTy).Contents (Elt F) → (⟨S_, .f32⟩ : BufTy).Contents (Elt F) → (⟨S8192, .f32⟩ : BufTy).Contents (Elt F)),
    unary main_v18 main_v19 (broadcastInDim S1x8192 ![1] bcast_S8192_S1x8192_1 : (⟨S8192, .f32⟩ : BufTy).Contents (Elt F) → (⟨S1x8192, .f32⟩ : BufTy).Contents (Elt F)),
    unary main_v19 main_v20 (broadcastInDim S8192x8192 ![0, 1] bcast_S1x8192_S8192x8192_0_1 : (⟨S1x8192, .f32⟩ : BufTy).Contents (Elt F) → (⟨S8192x8192, .f32⟩ : BufTy).Contents (Elt F)),
    binary main_v17 main_v20 main_v21 (Host.divf : (⟨S8192x8192, .f32⟩ : BufTy).Contents (Elt F) → (⟨S8192x8192, .f32⟩ : BufTy).Contents (Elt F) → (⟨S8192x8192, .f32⟩ : BufTy).Contents (Elt F)),
    binary main_v21 main_v0 main_v22 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    TRef.nullary main_call2.cst (constant S_ .f32 0x00000000#32),
    TRef.unary main_call2.cst main_call2.v0 (broadcastInDim S8192x64 ![] bcast_S_S8192x64),
    TRef.binary (.of main_v22 : TRef sig ⟨S8192x64, .f32⟩) main_call2.v0 main_call2.v1 (cmpf .ogt),
    TRef.nullary main_call2.cst_0 (constant S_ .f32 0x00000000#32),
    TRef.unary main_call2.cst_0 main_call2.v2 (broadcastInDim S8192x64 ![] bcast_S_S8192x64),
    TRef.binary (.of main_v22 : TRef sig ⟨S8192x64, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S8192x64 ![] bcast_S_S8192x64),
    TRef.ternary main_call2.v3 main_call2.call0.v1 (.of main_v22 : TRef sig ⟨S8192x64, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S8192x64 ![] bcast_S_S8192x64),
    TRef.binary main_call2.v6 main_call2.v5 main_call2.v7 mulf,
    TRef.ternary main_call2.v1 (.of main_v22 : TRef sig ⟨S8192x64, .f32⟩) main_call2.v7 main_call2.call1.v0 select ]

-- fifty-one binds re-associated: the rewrite under the chain recurses once per statement
set_option maxRecDepth 4096 in
/-- @main is that straight line: the functions' definitions unfolded at their calls and the records at their
    fields, both sides are one chain of steps once sequencing is reassociated. -/
theorem main_eq (c : Dev nD) : main (F := F) c = seq ops := by
  simp only [main, fn_leaky_relu.body, fn_where.body, fn_where_0.body, fn_elu.body, fn_where_1.body, fn_where_2.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., binary_bufs_sub .., unary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., nullary_bufs_sub .., unary_bufs_sub .., binary_bufs_sub ..,
    nullary_bufs_sub .., unary_bufs_sub .., ternary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

/-! ## The composed term, stage by stage, at the extended reals -/

/-- The projected features: the first product. -/
def rWh (h : FVec Ideal S8192x512 .f32) (W : FVec Ideal S512x64 .f32) : FVec Ideal S8192x64 .f32 :=
  Host.dotGeneral (F := Ideal) dot_S8192x512_S512x64_S8192x64_1_0_0_1_n_n none h W

/-- The per-row score: the projected features against the first sixty-four rows of the attention vector. -/
def rS (h : FVec Ideal S8192x512 .f32) (W : FVec Ideal S512x64 .f32) (a : FVec Ideal S128x1 .f32) : FVec Ideal S8192x1 .f32 :=
  Host.dotGeneral (F := Ideal) dot_S8192x64_S64x1_S8192x1_1_0_0_1_n_n none (rWh h W)
    (extractStridedSlice S64x1 ![0, 0] a slices_S128x1_S64x1_0_0)

/-- The pairwise logits: a row's score plus a column's. -/
def rX (s : FVec Ideal S8192x1 .f32) : FVec Ideal S8192x8192 .f32 :=
  addf (broadcastInDim S8192x8192 ![0, 1] bcast_S8192x1_S8192x8192_0_1 s)
    (broadcastInDim S8192x8192 ![0, 1] bcast_S1x8192_S8192x8192_0_1 (transpose S1x8192 [1, 0] s transposes_S8192x1_S1x8192_1_0))

/-- The leaky rectifier: the value where it is at least zero, the slope times the value elsewhere. -/
def rLeaky (x : FVec Ideal S8192x8192 .f32) : FVec Ideal S8192x8192 .f32 :=
  select (cmpf .oge x (broadcastInDim S8192x8192 ![] bcast_S_S8192x8192 (constant (F := Ideal) S_ .f32 0x00000000#32))) x
    (mulf (broadcastInDim S8192x8192 ![] bcast_S_S8192x8192 (id (constant (F := Ideal) S_ .f32 0x3DCCCCCD#32))) x)

/-- The masked logits: the rectified logit where the adjacency entry is positive, the fill elsewhere. -/
def rVal (adj : IVec S8192x8192 32) (x : FVec Ideal S8192x8192 .f32) : FVec Ideal S8192x8192 .f32 :=
  select (cmpi .sgt adj (broadcastInDim S8192x8192 ![] bcast_S_S8192x8192 (constantI S_ 32 0#32))) (rLeaky x)
    (broadcastInDim S8192x8192 ![] bcast_S_S8192x8192 (constant (F := Ideal) S_ .f32 0xD9FFCB9E#32))

/-- The column maximum, from the least element. -/
def rM (v : FVec Ideal S8192x8192 .f32) : FVec Ideal S8192 .f32 :=
  maximumf (broadcastInDim S8192 ![] bcast_S_S8192 (constant (F := Ideal) S_ .f32 0xFF800000#32))
    (Host.reduce FloatOps.maximumf v (constant (F := Ideal) S_ .f32 0xFF800000#32) reducesTo_S8192x8192_S8192_d0 h_S_)

/-- The exponential of the logit less its column's maximum. -/
def rE (v : FVec Ideal S8192x8192 .f32) : FVec Ideal S8192x8192 .f32 :=
  Host.exp (F := Ideal) (subf v (broadcastInDim S8192x8192 ![0, 1] bcast_S1x8192_S8192x8192_0_1
    (broadcastInDim S1x8192 ![1] bcast_S8192_S1x8192_1 (rM v))))

/-- The column sums of the exponentials, from zero. -/
def rL (e : FVec Ideal S8192x8192 .f32) : FVec Ideal S8192 .f32 :=
  Host.reduceAdd (F := Ideal) e (constant (F := Ideal) S_ .f32 0x00000000#32) reducesTo_S8192x8192_S8192_d0 h_S_

/-- The exponentials over their column's sum. -/
def rP (e : FVec Ideal S8192x8192 .f32) : FVec Ideal S8192x8192 .f32 :=
  Host.divf (F := Ideal) e (broadcastInDim S8192x8192 ![0, 1] bcast_S1x8192_S8192x8192_0_1
    (broadcastInDim S1x8192 ![1] bcast_S8192_S1x8192_1 (rL e)))

/-- The exponential linear unit as printed: the value where positive, one times the exponential less one of
    (zero where positive, the value elsewhere) elsewhere. -/
def rElu (x : FVec Ideal S8192x64 .f32) : FVec Ideal S8192x64 .f32 :=
  select (cmpf .ogt x (broadcastInDim S8192x64 ![] bcast_S_S8192x64 (constant (F := Ideal) S_ .f32 0x00000000#32))) x
    (mulf (broadcastInDim S8192x64 ![] bcast_S_S8192x64 (constant (F := Ideal) S_ .f32 0x3F800000#32))
      (Host.expm1 (F := Ideal)
        (select (cmpf .ogt x (broadcastInDim S8192x64 ![] bcast_S_S8192x64 (constant (F := Ideal) S_ .f32 0x00000000#32)))
          (broadcastInDim S8192x64 ![] bcast_S_S8192x64 (id (constant (F := Ideal) S_ .f32 0x00000000#32))) x)))

/-- The weighted features before the last unit: the normalized exponentials against the projected features. -/
def rHp (h : FVec Ideal S8192x512 .f32) (adj : IVec S8192x8192 32) (W : FVec Ideal S512x64 .f32)
    (a : FVec Ideal S128x1 .f32) : FVec Ideal S8192x64 .f32 :=
  Host.dotGeneral (F := Ideal) dot_S8192x8192_S8192x64_S8192x64_1_0_0_1_n_n none
    (rP (rE (rVal adj (rX (rS h W a))))) (rWh h W)

/-- What the reference computes from the four arguments' contents. -/
def refOut (h : FVec Ideal S8192x512 .f32) (adj : IVec S8192x8192 32) (W : FVec Ideal S512x64 .f32)
    (a : FVec Ideal S128x1 .f32) : FVec Ideal S8192x64 .f32 :=
  rElu (rHp h adj W a)

/-! ## The fold at the result and at the arguments -/

attribute [local irreducible] Host.reduce Host.reduceAdd Host.exp Host.expm1 Host.divf in
set_option maxRecDepth 16384 in
set_option maxHeartbeats 2000000 in
/-- The fold at the result buffer is `refOut` of the arguments' contents by computation: each operation's result
    decides whether the buffer read is the one it writes, and the typed references' casts are the identity at
    these literal references. The reductions, the products and the transcendental maps are kept folded meanwhile:
    the equation never looks inside them. -/
theorem out_eq (V : Valuation τ sig (Elt Ideal)) :
    after ops V (main_v23 : DevRef τ sig)
      = refOut (V (main_arg0 : DevRef τ sig)) (V (main_arg1 : DevRef τ sig)) (V (main_arg2 : DevRef τ sig))
          (V (main_arg3 : DevRef τ sig)) := by
  after_results_simp
  rfl

theorem arg0_eq (V : Valuation τ sig (Elt Ideal)) :
    after ops V (main_arg0 : DevRef τ sig) = V (main_arg0 : DevRef τ sig) := by
  after_results_simp

theorem arg1_eq (V : Valuation τ sig (Elt Ideal)) :
    after ops V (main_arg1 : DevRef τ sig) = V (main_arg1 : DevRef τ sig) := by
  after_results_simp

theorem arg2_eq (V : Valuation τ sig (Elt Ideal)) :
    after ops V (main_arg2 : DevRef τ sig) = V (main_arg2 : DevRef τ sig) := by
  after_results_simp

theorem arg3_eq (V : Valuation τ sig (Elt Ideal)) :
    after ops V (main_arg3 : DevRef τ sig) = V (main_arg3 : DevRef τ sig) := by
  after_results_simp

/-- On every device, at the extended reals, from any memory with zero counters: every weakly fair execution of
    @main terminates with the result at `refOut` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23) = refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v23).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.ReferenceIdeal.RefValue

end
-- ==== Proof.KI.Host.lean ====
import proofs.«178722_j75866302316653_2_alg».proof.Proof.KI.Run
import Idealize.ShloMosaic.Lib.StableHlo.Run
import Idealize.ShloMosaic.PureOps.Ideal
import Idealize.ShloMosaic.Lib.ValueIdx
import Idealize.ShloMosaic.Lib.ValueLayout
import Idealize.ShloMosaic.Lib.Pipeline.Value
import Idealize.ShloMosaic.Lib.StackMember

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! # The host prefix as values of the arguments

Before the first pass the program computes `Wh = h · W`, cuts the first 64 rows of `a`, forms the score column
`s = Wh · a₁` and reshapes it into a row. Read at an entry: `Wh (i, k) = ∑ f, h (i, f) · W (f, k)`,
`s (i, 0) = ∑ k, Wh (i, k) · a (k, 0)`, and the row at `(0, j)` is the column at `(j, 0)`. -/

section
variable (m : (ℓ : Loc nD τ sig) → Buf (Elt Ideal) ℓ)

def hWh (c : Dev nD) : FVec Ideal S8192x64 .f32 :=
  Host.dotGeneral (F := Ideal) (φ₁ := .f32) (φ₂ := .f32) dot_S8192x512_S512x64_S8192x64_1_0_0_1_n_n none (m ((c : Thread nD τ).loc main_arg0)) (m ((c : Thread nD τ).loc main_arg2))
def hA1 (c : Dev nD) : FVec Ideal S64x1 .f32 :=
  extractStridedSlice S64x1 ![0, 0] (m ((c : Thread nD τ).loc main_arg3)) slices_S128x1_S64x1_0_0
def hS (c : Dev nD) : FVec Ideal S8192x1 .f32 :=
  Host.dotGeneral (F := Ideal) (φ₁ := .f32) (φ₂ := .f32) dot_S8192x64_S64x1_S8192x1_1_0_0_1_n_n none (hWh m c) (hA1 m c)

theorem V1_v0 (c : Dev nD) : V1 m c main_v0 = hWh m c := by
  show StableHlo.after hostOps0 (Gen.V0 m c) (Proc.devRef .tc main_v0) = _
  after_results
  rfl

theorem V1_v2 (c : Dev nD) : V1 m c main_v2 = hS m c := by
  show StableHlo.after hostOps0 (Gen.V0 m c) (Proc.devRef .tc main_v2) = _
  after_results
  rfl

theorem V1_v3 (c : Dev nD) : V1 m c main_v3 = shapeCast S1x8192 (hS m c) shapeCasts_S8192x1_S1x8192 := by
  show StableHlo.after hostOps0 (Gen.V0 m c) (Proc.devRef .tc main_v3) = _
  after_results
  rfl

theorem V1_arg1 (c : Dev nD) : V1 m c main_arg1 = m ((c : Thread nD τ).loc main_arg1) :=
  Gen.V1_of m c main_arg1 (by decide)

/-- The arguments by coordinates. -/
def hOf (c : Dev nD) : Fin 8192 → Fin 512 → EReal := fun i f => m ((c : Thread nD τ).loc main_arg0) (ix2 i f)
def adjOf0 (c : Dev nD) : Fin 8192 → Fin 8192 → BitVec 32 := fun i j => m ((c : Thread nD τ).loc main_arg1) (ix2 i j)
def wOf (c : Dev nD) : Fin 512 → Fin 64 → EReal := fun f k => m ((c : Thread nD τ).loc main_arg2) (ix2 f k)
def aOf (c : Dev nD) : Fin 64 → EReal := fun k => m ((c : Thread nD τ).loc main_arg3) (ix2 (⟨k.val, Nat.lt_of_lt_of_le k.isLt (by decide)⟩ : Fin 128) (0 : Fin 1))

theorem hWh_apply (c : Dev nD) (i : Fin 8192) (k : Fin 64) :
    hWh m c (ix2 i k) = ∑ f : Fin 512, hOf m c i f * wOf m c f k :=
  StackMember.dotGeneral_plain_apply (m := 8192) (n := 64) (k := 512) none _ _ i k

theorem hA1_apply (c : Dev nD) (k : Fin 64) : hA1 m c (ix2 k (0 : Fin 1)) = aOf m c k :=
  slice2_axis0_apply 0 _ slices_S128x1_S64x1_0_0 k 0 ⟨k.val, Nat.lt_of_lt_of_le k.isLt (by decide)⟩ (Nat.zero_add _).symm

theorem hS_apply (c : Dev nD) (i : Fin 8192) :
    hS m c (ix2 i (0 : Fin 1)) = ∑ k : Fin 64, hWh m c (ix2 i k) * aOf m c k := by
  refine (StackMember.dotGeneral_plain_apply (m := 8192) (n := 1) (k := 64) none (hWh m c) (hA1 m c) i 0).trans ?_
  exact Finset.sum_congr rfl fun k _ => by rw [hA1_apply]

/-- The score row is the score column, re-laid. -/
theorem row_apply (c : Dev nD) (j : Fin 8192) :
    shapeCast S1x8192 (hS m c) shapeCasts_S8192x1_S1x8192 (ix2 (0 : Fin 1) j) = hS m c (ix2 j (0 : Fin 1)) :=
  shapeCast_apply _ _ _ _ (by
    rw [Shape.rowMajor_val_two, Shape.rowMajor_val_two]
    show j.val * 1 + 0 = 0 * 8192 + j.val
    omega)

end

end Cert.KernelIdeal.Reg

end
-- ==== Proof.RefSpec.lean ====
/- What the reference computes, as mathematics over plain functions of coordinates: the projected features, the
   per-row scores, the pairwise logits, the masked and rectified logits, their column maxima, the column sums of
   the shifted exponentials, the weighted features and the final exponential linear unit. No program is named
   here; a value read off either program is compared with these. -/
import Idealize.ShloMosaic.PureOps.Ideal
import Idealize.ShloMosaic.Lib.ValueIdx
import Mathlib.Data.Finset.Fold

noncomputable section

open scoped BigOperators

namespace Cert.RefSpec

open Idealize.ShloMosaic

/-- A condition bit is set exactly when its condition holds. -/
private theorem ofBool_eq_one {b : Bool} : BitVec.ofBool b = (1 : BitVec 1) ↔ b = true := by cases b <;> decide

/-- The rectifier's slope below zero, as the word the programs carry (one tenth, rounded to the format). -/
def slope : EReal := Ideal.ofBits .f32 0x3DCCCCCD#32

/-- The value a masked logit takes (minus nine times ten to the fifteenth, rounded to the format). -/
def fill : EReal := Ideal.ofBits .f32 0xD9FFCB9E#32

section
variable (h : Fin 8192 → Fin 512 → EReal) (adj : Fin 8192 → Fin 8192 → BitVec 32)
  (W : Fin 512 → Fin 64 → EReal) (a : Fin 64 → EReal)

/-- The projected features: row `i` of `h` against column `k` of `W`. -/
def Wh (i : Fin 8192) (k : Fin 64) : EReal := ∑ f : Fin 512, h i f * W f k

/-- Row `i`'s score: its projected features against the attention vector. -/
def s (i : Fin 8192) : EReal := ∑ k : Fin 64, Wh h W i k * a k

/-- The logit of the pair: the two rows' scores added. -/
def x (i j : Fin 8192) : EReal := s h W a i + s h W a j

/-- The rectified logit where the adjacency entry is positive as a signed word, the fill elsewhere; the rectifier
    keeps a logit that is at least zero and scales the others by the slope. -/
def val (i j : Fin 8192) : EReal :=
  if 0 < (adj i j).toInt then (if 0 ≤ x h W a i j then x h W a i j else slope * x h W a i j) else fill

/-- Column `j`'s maximum over the rows, from the least element. -/
def M (j : Fin 8192) : EReal := (Finset.univ : Finset (Fin 8192)).fold max ⊥ fun i => val h adj W a i j

/-- The exponential of a logit less its column's maximum. -/
def e (i j : Fin 8192) : EReal := Ideal.exp (val h adj W a i j - M h adj W a j)

/-- Column `j`'s sum of the shifted exponentials. -/
def L (j : Fin 8192) : EReal := ∑ i : Fin 8192, e h adj W a i j

/-- The weighted features: the normalized exponentials of row `i` against column `k` of the projected features. -/
def hp (i : Fin 8192) (k : Fin 64) : EReal :=
  ∑ j : Fin 8192, Ideal.div (e h adj W a i j) (L h adj W a j) * Wh h W j k

/-- The result: the exponential linear unit of the weighted features. -/
def out (i : Fin 8192) (k : Fin 64) : EReal :=
  if 0 < hp h adj W a i k then hp h adj W a i k else Ideal.exp (hp h adj W a i k) - 1

/-- The masked logit as the two selects the programs spell: the signed comparison of the adjacency word with the
    zero word, then the ordered comparison of the logit with the zero of the format. -/
theorem val_eq_select (i j : Fin 8192) :
    val h adj W a i j
      = Scalar.select (IntOp.cmpi .sgt (adj i j) 0#32)
          (Scalar.select (Ideal.cmp .oge (x h W a i j) (Ideal.ofBits .f32 0x00000000#32)) (x h W a i j)
            (slope * x h W a i j)) fill := by
  unfold val Scalar.select
  have hz : Ideal.ofBits .f32 0x00000000#32 = 0 := by simp [Ideal.ofBits, Ideal.ieee]
  rw [hz]
  have h1 : (IntOp.cmpi .sgt (adj i j) 0#32 = (1 : BitVec 1)) ↔ 0 < (adj i j).toInt := by
    simp only [IntOp.cmpi, ofBool_eq_one, BitVec.slt_iff_toInt_lt, BitVec.toInt_zero]
  have h2 : (Ideal.cmp .oge (x h W a i j) 0 = (1 : BitVec 1)) ↔ 0 ≤ x h W a i j := by
    simp only [Ideal.cmp, ofBool_eq_one, decide_eq_true_eq]
  simp only [h1, h2]

/-- Every logit of a column is at most the column's maximum. -/
theorem val_le_M (i j : Fin 8192) : val h adj W a i j ≤ M h adj W a j :=
  (Finset.le_fold_max _).mpr (Or.inr ⟨i, Finset.mem_univ i, le_rfl⟩)

end

/-- A fold of the maximum from a start is the start or one of the folded values. -/
theorem fold_max_eq {ι : Type} [DecidableEq ι] (t : Finset ι) (b : EReal) (f : ι → EReal) :
    t.fold max b f = b ∨ ∃ i ∈ t, t.fold max b f = f i := by
  induction t using Finset.induction_on with
  | empty => exact Or.inl (Finset.fold_empty)
  | insert c t hc ih =>
    rw [Finset.fold_insert hc]
    rcases max_choice (f c) (t.fold max b f) with hm | hm
    · exact Or.inr ⟨c, Finset.mem_insert_self c t, hm⟩
    · rw [hm]
      rcases ih with ih | ⟨i, hi, ih⟩
      · exact Or.inl ih
      · exact Or.inr ⟨i, Finset.mem_insert_of_mem hi, ih⟩

/-- A column's maximum is the least element or the logit of one of its rows. -/
theorem M_eq_bot_or (h : Fin 8192 → Fin 512 → EReal) (adj : Fin 8192 → Fin 8192 → BitVec 32)
    (W : Fin 512 → Fin 64 → EReal) (a : Fin 64 → EReal) (j : Fin 8192) :
    M h adj W a j = ⊥ ∨ ∃ i, M h adj W a j = val h adj W a i j := by
  rcases fold_max_eq (Finset.univ : Finset (Fin 8192)) ⊥ (fun i => val h adj W a i j) with hb | ⟨i, -, hi⟩
  · exact Or.inl hb
  · exact Or.inr ⟨i, hi⟩

/-- A column's maximum is attained: the least element is below every logit, so the fold over the rows, which are
    not none, is the logit of one of them. -/
theorem exists_M_eq (h : Fin 8192 → Fin 512 → EReal) (adj : Fin 8192 → Fin 8192 → BitVec 32)
    (W : Fin 512 → Fin 64 → EReal) (a : Fin 64 → EReal) (j : Fin 8192) :
    ∃ i, M h adj W a j = val h adj W a i j := by
  rcases M_eq_bot_or h adj W a j with hb | hi
  · refine ⟨⟨0, by decide⟩, ?_⟩
    have hle := val_le_M h adj W a ⟨0, by decide⟩ j
    rw [hb] at hle ⊢
    exact (le_bot_iff.mp hle).symm
  · exact hi

end Cert.RefSpec

end
-- ==== Proof.RefRead.lean ====
/- The reference's composed term read at an index, stage by stage, as the mathematics of `Cert.RefSpec`: each
   product a sum over the contracted coordinate, each broadcast the operand at the kept coordinate, the column
   maximum a fold of the maximum over the rows, the column sum a sum over the rows, the selects the conditions
   they test. -/
import proofs.«178722_j75866302316653_2_alg».proof.Proof.RefRun
import proofs.«178722_j75866302316653_2_alg».proof.Proof.RefSpec
import Idealize.ShloMosaic.Lib.ValueIdx
import Idealize.ShloMosaic.Lib.ValueLayout
import Idealize.ShloMosaic.Lib.IdealHost
import Idealize.ShloMosaic.Lib.KernelVsHost
import Idealize.ShloMosaic.Lib.StackMember
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## Layout operations at an index -/

/-- A one-column matrix broadcast along `n` columns, read at (r, t), is the column at (r, 0). -/
theorem broadcastInDim_oneCol_apply {α : Type} {m n : Nat}
    (hbc : (⟨2, ![m, 1]⟩ : Shape).BroadcastsInDim ⟨2, ![m, n]⟩ ![0, 1])
    (y : (⟨2, ![m, 1]⟩ : Shape).Idx → α) (r : Fin m) (t : Fin n) :
    broadcastInDim ⟨2, ![m, n]⟩ ![0, 1] hbc y (ix2 r t) = y (ix2 r (0 : Fin 1)) := by
  refine broadcastInDim_apply ![0, 1] hbc y (ix2 r t) (ix2 r (0 : Fin 1)) ?_
  intro a
  fin_cases a
  · show r.val = if m = 1 then 0 else r.val
    split_ifs with hm
    · have := r.isLt; omega
    · rfl
  · show (0 : ℕ) = if (1 : ℕ) = 1 then 0 else _
    simp

/-- A vector laid as the one row of a matrix, read at (0, t), is the vector at t. -/
theorem broadcastInDim_vecRow_apply {α : Type} {n : Nat}
    (hbc : (⟨1, ![n]⟩ : Shape).BroadcastsInDim ⟨2, ![1, n]⟩ ![1])
    (y : (⟨1, ![n]⟩ : Shape).Idx → α) (t : Fin n) :
    broadcastInDim ⟨2, ![1, n]⟩ ![1] hbc y (ix2 (0 : Fin 1) t) = y (ix1 t) := by
  refine broadcastInDim_apply ![1] hbc y (ix2 (0 : Fin 1) t) (ix1 t) ?_
  intro a
  fin_cases a
  show t.val = if n = 1 then 0 else t.val
  split_ifs with hn
  · have := t.isLt; omega
  · rfl

/-- A column index with the row coordinate put back is (row, column). -/
theorem lift_ix2 {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- The word of minus infinity is the least extended real. -/
theorem ofBits_neg_inf : Ideal.ofBits .f32 0xFF800000#32 = ⊥ := by simp [Ideal.ofBits, Ideal.ieee]

/-- The reduction over the rows is stated over the kept axis. -/
theorem reduces_rows : S8192x8192.Reduces [0] S8192 := by decide

/-! ## The stages at an index -/

theorem rWh_apply (h : FVec Ideal S8192x512 .f32) (W : FVec Ideal S512x64 .f32) (i : Fin 8192) (k : Fin 64) :
    rWh h W (ix2 i k) = ∑ f : Fin 512, h (ix2 i f) * W (ix2 f k) :=
  StackMember.dotGeneral_plain_apply (m := 8192) (n := 64) (k := 512) none h W i k

theorem slice_apply (a : FVec Ideal S128x1 .f32) (k : Fin 64) :
    extractStridedSlice S64x1 ![0, 0] a slices_S128x1_S64x1_0_0 (ix2 k (0 : Fin 1))
      = a (ix2 (⟨k.val, Nat.lt_of_lt_of_le k.isLt (by decide)⟩ : Fin 128) (0 : Fin 1)) :=
  slice2_axis0_apply 0 a slices_S128x1_S64x1_0_0 k 0 ⟨k.val, Nat.lt_of_lt_of_le k.isLt (by decide)⟩ (Nat.zero_add _).symm

theorem rS_apply (h : FVec Ideal S8192x512 .f32) (W : FVec Ideal S512x64 .f32) (a : FVec Ideal S128x1 .f32) (i : Fin 8192) :
    rS h W a (ix2 i (0 : Fin 1))
      = ∑ k : Fin 64, rWh h W (ix2 i k) * a (ix2 (⟨k.val, Nat.lt_of_lt_of_le k.isLt (by decide)⟩ : Fin 128) (0 : Fin 1)) := by
  refine (StackMember.dotGeneral_plain_apply (m := 8192) (n := 1) (k := 64) none (rWh h W)
    (extractStridedSlice S64x1 ![0, 0] a slices_S128x1_S64x1_0_0) i 0).trans ?_
  exact Finset.sum_congr rfl fun k _ => by rw [slice_apply]

theorem rX_apply (s : FVec Ideal S8192x1 .f32) (i j : Fin 8192) :
    rX s (ix2 i j) = s (ix2 i (0 : Fin 1)) + s (ix2 j (0 : Fin 1)) := by
  show broadcastInDim S8192x8192 ![0, 1] bcast_S8192x1_S8192x8192_0_1 s (ix2 i j)
      + broadcastInDim S8192x8192 ![0, 1] bcast_S1x8192_S8192x8192_0_1
          (transpose S1x8192 [1, 0] s transposes_S8192x1_S1x8192_1_0) (ix2 i j) = _
  rw [broadcastInDim_oneCol_apply bcast_S8192x1_S8192x8192_0_1 s i j,
    broadcastInDim_oneRow_apply bcast_S1x8192_S8192x8192_0_1 _ i j,
    transpose_ix2_apply s transposes_S8192x1_S1x8192_1_0 (0 : Fin 1) j]

theorem rLeaky_apply (x : FVec Ideal S8192x8192 .f32) (p : S8192x8192.Idx) :
    rLeaky x p = Scalar.select (Ideal.cmp .oge (x p) (Ideal.ofBits .f32 0x00000000#32)) (x p) (Cert.RefSpec.slope * x p) :=
  rfl

theorem rVal_apply (adj : IVec S8192x8192 32) (x : FVec Ideal S8192x8192 .f32) (p : S8192x8192.Idx) :
    rVal adj x p = Scalar.select (IntOp.cmpi .sgt (adj p) 0#32) (rLeaky x p) Cert.RefSpec.fill :=
  rfl

/-- From minus infinity the reduce with a maximum body over the rows of a matrix, at column `t`, is the fold of the
    maximum from the least element over that column's entries. -/
theorem hostReduce_max_rows {m n : Nat} (x : FVec Ideal ⟨2, ![m, n]⟩ .f32)
    (h' : (⟨2, ![m, n]⟩ : Shape).ReducesTo [0] (⟨1, ![n]⟩ : Shape))
    (h : (⟨2, ![m, n]⟩ : Shape).Reduces [0] (⟨1, ![n]⟩ : Shape)) (hu : 0 < (⟨0, ![]⟩ : Shape).numel) (t : Fin n) :
    Host.reduce FloatOps.maximumf x (constant (F := Ideal) (⟨0, ![]⟩ : Shape) .f32 0xFF800000#32) h' hu (ix1 t)
      = (Finset.univ : Finset (Fin m)).fold max ⊥ fun k => x (ix2 k t) := by
  rw [Host.reduce_eq_fold_single FloatOps.maximumf x _ h' h hu]
  have hf : (x ∘ h.lift (ix1 t)) = fun k : Fin m => x (ix2 k t) := funext fun k => congrArg x (lift_ix2 h t k)
  refine Eq.trans ?_ (congrArg (fun b => Finset.fold max b (fun k : Fin m => x (ix2 k t)) Finset.univ) ofBits_neg_inf)
  exact congrArg (fun f => Finset.fold max (Ideal.ofBits .f32 0xFF800000#32) f (Finset.univ : Finset (Fin m))) hf

theorem rM_apply (v : FVec Ideal S8192x8192 .f32) (j : Fin 8192) :
    rM v (ix1 j) = (Finset.univ : Finset (Fin 8192)).fold max ⊥ fun i => v (ix2 i j) := by
  unfold rM
  rw [maximumf_apply, broadcastInDim_scalar_apply, constant_apply,
    hostReduce_max_rows v reducesTo_S8192x8192_S8192_d0 reduces_rows h_S_ j, ofBits_neg_inf, max_bot_left]

theorem rE_apply (v : FVec Ideal S8192x8192 .f32) (i j : Fin 8192) :
    rE v (ix2 i j) = Ideal.exp (v (ix2 i j) - rM v (ix1 j)) := by
  show Ideal.exp (v (ix2 i j) - broadcastInDim S8192x8192 ![0, 1] bcast_S1x8192_S8192x8192_0_1
    (broadcastInDim S1x8192 ![1] bcast_S8192_S1x8192_1 (rM v)) (ix2 i j)) = _
  rw [broadcastInDim_oneRow_apply bcast_S1x8192_S8192x8192_0_1 _ i j, broadcastInDim_vecRow_apply bcast_S8192_S1x8192_1 _ j]

theorem rL_apply (e : FVec Ideal S8192x8192 .f32) (j : Fin 8192) :
    rL e (ix1 j) = ∑ i : Fin 8192, e (ix2 i j) := by
  show Ideal.hostReduceAdd reducesTo_S8192x8192_S8192_d0 e (Ideal.ofBits .f32 0x00000000#32) (ix1 j) = _
  rw [Ideal.hostReduceAdd_single reducesTo_S8192x8192_S8192_d0 reduces_rows, Ideal.ofBits_zero_f32, zero_add]
  exact Finset.sum_congr rfl fun k _ => congrArg e (lift_ix2 reduces_rows j k)

theorem rP_apply (e : FVec Ideal S8192x8192 .f32) (i j : Fin 8192) :
    rP e (ix2 i j) = Ideal.div (e (ix2 i j)) (rL e (ix1 j)) := by
  show Ideal.div (e (ix2 i j)) (broadcastInDim S8192x8192 ![0, 1] bcast_S1x8192_S8192x8192_0_1
    (broadcastInDim S1x8192 ![1] bcast_S8192_S1x8192_1 (rL e)) (ix2 i j)) = _
  rw [broadcastInDim_oneRow_apply bcast_S1x8192_S8192x8192_0_1 _ i j, broadcastInDim_vecRow_apply bcast_S8192_S1x8192_1 _ j]

theorem rHp_apply (h : FVec Ideal S8192x512 .f32) (adj : IVec S8192x8192 32) (W : FVec Ideal S512x64 .f32)
    (a : FVec Ideal S128x1 .f32) (i : Fin 8192) (k : Fin 64) :
    rHp h adj W a (ix2 i k)
      = ∑ j : Fin 8192, rP (rE (rVal adj (rX (rS h W a)))) (ix2 i j) * rWh h W (ix2 j k) :=
  StackMember.dotGeneral_plain_apply (m := 8192) (n := 64) (k := 8192) none _ (rWh h W) i k

/-- The printed unit on one value: the value where it is positive, the exponential less one elsewhere (there the
    inner select returns the value itself, and the factor is one). -/
theorem elu_eq (y : EReal) :
    Scalar.select (Ideal.cmp .ogt y (Ideal.ofBits .f32 0x00000000#32)) y
        (Ideal.ofBits .f32 0x3F800000#32
          * (Ideal.exp (Scalar.select (Ideal.cmp .ogt y (Ideal.ofBits .f32 0x00000000#32)) (Ideal.ofBits .f32 0x00000000#32) y) - 1))
      = if 0 < y then y else Ideal.exp y - 1 := by
  rw [Ideal.ofBits_zero_f32, Ideal.ofBits_one_f32, one_mul]
  unfold Scalar.select
  have h1 : (Ideal.cmp .ogt y 0 = (1 : BitVec 1)) ↔ 0 < y := by
    unfold Ideal.cmp
    by_cases hy : 0 < y <;> simp [hy]
  simp only [h1]
  split_ifs <;> rfl

theorem rElu_apply (x : FVec Ideal S8192x64 .f32) (p : S8192x64.Idx) :
    rElu x p = if 0 < x p then x p else Ideal.exp (x p) - 1 :=
  Eq.trans rfl (elu_eq (x p))

/-! ## The stages as the specification's -/

section Spec
variable (h : FVec Ideal S8192x512 .f32) (adj : IVec S8192x8192 32) (W : FVec Ideal S512x64 .f32) (a : FVec Ideal S128x1 .f32)

/-- The four arguments as plain functions of coordinates; of the attention vector, its first sixty-four rows. -/
abbrev hF : Fin 8192 → Fin 512 → EReal := fun i f => h (ix2 i f)
abbrev adjF : Fin 8192 → Fin 8192 → BitVec 32 := fun i j => adj (ix2 i j)
abbrev wF : Fin 512 → Fin 64 → EReal := fun f k => W (ix2 f k)
abbrev aF : Fin 64 → EReal := fun k => a (ix2 (⟨k.val, Nat.lt_of_lt_of_le k.isLt (by decide)⟩ : Fin 128) (0 : Fin 1))

theorem rWh_spec (i : Fin 8192) (k : Fin 64) : rWh h W (ix2 i k) = Cert.RefSpec.Wh (hF h) (wF W) i k :=
  rWh_apply h W i k

theorem rS_spec (i : Fin 8192) : rS h W a (ix2 i (0 : Fin 1)) = Cert.RefSpec.s (hF h) (wF W) (aF a) i := by
  rw [rS_apply]
  exact Finset.sum_congr rfl fun k _ => by rw [rWh_spec]

theorem rX_spec (i j : Fin 8192) : rX (rS h W a) (ix2 i j) = Cert.RefSpec.x (hF h) (wF W) (aF a) i j := by
  rw [rX_apply, rS_spec, rS_spec]; rfl

theorem rVal_spec (i j : Fin 8192) :
    rVal adj (rX (rS h W a)) (ix2 i j) = Cert.RefSpec.val (hF h) (adjF adj) (wF W) (aF a) i j := by
  rw [rVal_apply, rLeaky_apply, rX_spec, Cert.RefSpec.val_eq_select]

theorem rM_spec (j : Fin 8192) :
    rM (rVal adj (rX (rS h W a))) (ix1 j) = Cert.RefSpec.M (hF h) (adjF adj) (wF W) (aF a) j := by
  rw [rM_apply]
  exact congrArg (fun f => Finset.fold max ⊥ f (Finset.univ : Finset (Fin 8192))) (funext fun i => rVal_spec h adj W a i j)

theorem rE_spec (i j : Fin 8192) :
    rE (rVal adj (rX (rS h W a))) (ix2 i j) = Cert.RefSpec.e (hF h) (adjF adj) (wF W) (aF a) i j := by
  rw [rE_apply, rVal_spec, rM_spec]; rfl

theorem rL_spec (j : Fin 8192) :
    rL (rE (rVal adj (rX (rS h W a)))) (ix1 j) = Cert.RefSpec.L (hF h) (adjF adj) (wF W) (aF a) j := by
  rw [rL_apply]
  exact Finset.sum_congr rfl fun i _ => rE_spec h adj W a i j

theorem rP_spec (i j : Fin 8192) :
    rP (rE (rVal adj (rX (rS h W a)))) (ix2 i j)
      = Ideal.div (Cert.RefSpec.e (hF h) (adjF adj) (wF W) (aF a) i j) (Cert.RefSpec.L (hF h) (adjF adj) (wF W) (aF a) j) := by
  rw [rP_apply, rE_spec, rL_spec]

theorem rHp_spec (i : Fin 8192) (k : Fin 64) :
    rHp h adj W a (ix2 i k) = Cert.RefSpec.hp (hF h) (adjF adj) (wF W) (aF a) i k := by
  rw [rHp_apply]
  exact Finset.sum_congr rfl fun j _ => by rw [rP_spec, rWh_spec]

/-- The reference's result at row `i` and column `k` is the specification's. -/
theorem refOut_apply (i : Fin 8192) (k : Fin 64) :
    refOut h adj W a (ix2 i k)
      = Cert.RefSpec.out (fun i f => h (ix2 i f)) (fun i j => adj (ix2 i j)) (fun f k => W (ix2 f k))
          (fun k => a (ix2 (⟨k.val, Nat.lt_of_lt_of_le k.isLt (by decide)⟩ : Fin 128) (0 : Fin 1))) i k := by
  show rElu (rHp h adj W a) (ix2 i k) = _
  rw [rElu_apply, rHp_spec]
  rfl

end Spec

end Cert.ReferenceIdeal.RefValue

end
-- ==== Proof.LibOnlineSoftmax.lean ====
/-
  Softmax statistics accumulated block by block, as pure mathematics.

  A column of real values is read in blocks `0, 1, 2, …` of `κ` rows each.  Two numbers are kept: a shift
  `μ k` and a sum `lam k`.  When block `k + 1` arrives the old sum is rescaled by `exp (μ k - μ (k + 1))`
  and the new block's terms `exp (x - μ (k + 1))` are added.  Three facts, each independent of the others:

  * whatever the shifts are, `lam k` is the sum, over every row read so far, of `exp (x - μ k)`
    (`running_sum`): rescaling a sum of exponentials from one shift to another is exact over the reals;
  * when each shift is the larger of the previous shift and the new block's maximum, `μ k` is the maximum
    of every row read so far (`running_max_ge`, `running_max_attained`, `running_max_is_max`);
  * a term stored under an earlier shift, `exp (x - a)`, times the correction `exp (a - (M + log L))`,
    is the softmax entry `exp (x - M) / L` (`stored_term_corrected`): the earlier shift cancels.

  The last section restates the single steps on the extended reals, where the very first block starts
  from the shift `⊥` and the sum `0`: the rescaled old sum is `exp ⊥ * 0 = 0`, and from then on every
  quantity is a real number.
-/
import Idealize.ShloMosaic.PureOps.Ideal

noncomputable section

namespace ProofLib.OnlineSoftmax

open Idealize.ShloMosaic

/-! ## Over the reals -/

section Reals

/-- One term moved from the shift `a` to the shift `b`. -/
theorem exp_rescale (x a b : ℝ) : Real.exp (a - b) * Real.exp (x - a) = Real.exp (x - b) := by
  rw [← Real.exp_add]
  congr 1
  ring

/-- A whole sum of terms moved from the shift `a` to the shift `b`. -/
theorem sum_rescale {ι : Type*} (s : Finset ι) (v : ι → ℝ) (a b : ℝ) :
    Real.exp (a - b) * ∑ i ∈ s, Real.exp (v i - a) = ∑ i ∈ s, Real.exp (v i - b) := by
  rw [Finset.mul_sum]
  exact Finset.sum_congr rfl fun i _ => exp_rescale (v i) a b

variable {κ : Type*} [Fintype κ]

/-- THE RUNNING SUM.  `β b r` is row `r` of block `b`.  If the sum starts at block `0`'s terms under the
    shift `μ 0`, and each later block rescales the old sum to the new shift and adds its own terms, then after
    block `k` the sum is that of ALL rows of blocks `0 … k` under the shift `μ k`.  Nothing is asked of the
    shifts. -/
theorem running_sum (β : ℕ → κ → ℝ) (μ lam : ℕ → ℝ)
    (h0 : lam 0 = ∑ r, Real.exp (β 0 r - μ 0))
    (hs : ∀ k, lam (k + 1)
      = Real.exp (μ k - μ (k + 1)) * lam k + ∑ r, Real.exp (β (k + 1) r - μ (k + 1))) :
    ∀ k, lam k = ∑ b ∈ Finset.range (k + 1), ∑ r, Real.exp (β b r - μ k) := by
  intro k
  induction k with
  | zero => rw [h0, Finset.sum_range_one]
  | succ k ih =>
    rw [hs k, ih, Finset.mul_sum, Finset.sum_range_succ _ (k + 1)]
    congr 1
    exact Finset.sum_congr rfl fun b _ => sum_rescale Finset.univ (β b) (μ k) (μ (k + 1))

/-- Every term is positive, so the sum over at least one row is. -/
theorem total_pos [Nonempty κ] (β : ℕ → κ → ℝ) (a : ℝ) (k : ℕ) :
    0 < ∑ b ∈ Finset.range (k + 1), ∑ r, Real.exp (β b r - a) :=
  Finset.sum_pos (fun _ _ => Finset.sum_pos (fun _ _ => Real.exp_pos _) Finset.univ_nonempty)
    Finset.nonempty_range_add_one

/-- THE RUNNING MAXIMUM dominates every block maximum seen so far. -/
theorem running_max_ge (bm μ : ℕ → ℝ) (h0 : μ 0 = bm 0) (hs : ∀ k, μ (k + 1) = max (μ k) (bm (k + 1))) :
    ∀ k b, b ≤ k → bm b ≤ μ k := by
  intro k
  induction k with
  | zero =>
    intro b hb
    obtain rfl : b = 0 := Nat.le_zero.mp hb
    exact h0.ge
  | succ k ih =>
    intro b hb
    rw [hs k]
    rcases Nat.lt_or_ge b (k + 1) with h | h
    · exact le_max_of_le_left (ih b (Nat.lt_succ_iff.mp h))
    · obtain rfl : b = k + 1 := le_antisymm hb h
      exact le_max_right _ _

/-- THE RUNNING MAXIMUM is one of the block maxima seen so far. -/
theorem running_max_attained (bm μ : ℕ → ℝ) (h0 : μ 0 = bm 0)
    (hs : ∀ k, μ (k + 1) = max (μ k) (bm (k + 1))) : ∀ k, ∃ b, b ≤ k ∧ μ k = bm b := by
  intro k
  induction k with
  | zero => exact ⟨0, le_rfl, h0⟩
  | succ k ih =>
    obtain ⟨b, hb, e⟩ := ih
    rcases le_total (μ k) (bm (k + 1)) with h | h
    · exact ⟨k + 1, le_rfl, by rw [hs k, max_eq_right h]⟩
    · exact ⟨b, Nat.le_succ_of_le hb, by rw [hs k, max_eq_left h, e]⟩

/-- With `bm b` the maximum of block `b`'s rows, the running maximum after block `k` is the maximum of all
    rows of blocks `0 … k`: it dominates each of them and is one of them. -/
theorem running_max_is_max (β : ℕ → κ → ℝ) (bm μ : ℕ → ℝ)
    (hge : ∀ b r, β b r ≤ bm b) (hatt : ∀ b, ∃ r, bm b = β b r)
    (h0 : μ 0 = bm 0) (hs : ∀ k, μ (k + 1) = max (μ k) (bm (k + 1))) (k : ℕ) :
    (∀ b r, b ≤ k → β b r ≤ μ k) ∧ ∃ b r, b ≤ k ∧ μ k = β b r := by
  refine ⟨fun b r hb => (hge b r).trans (running_max_ge bm μ h0 hs k b hb), ?_⟩
  obtain ⟨b, hb, e⟩ := running_max_attained bm μ h0 hs k
  obtain ⟨r, er⟩ := hatt b
  exact ⟨b, r, hb, e.trans er⟩

/-- A term stored under the shift `a`, corrected by `exp (a - (M + log L))`, is the softmax entry: the
    stored shift cancels, `exp (-(log L)) = 1 / L`. -/
theorem stored_term_corrected (x a M L : ℝ) (hL : 0 < L) :
    Real.exp (x - a) * Real.exp (a - (M + Real.log L)) = Real.exp (x - M) / L := by
  rw [← Real.exp_add, show x - a + (a - (M + Real.log L)) = x - M - Real.log L by ring, Real.exp_sub,
    Real.exp_log hL]

end Reals

/-! ## The single steps on the extended reals -/

section Extended

/-- The coercion of the reals into the extended reals goes through finite sums. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The exponential of a difference of two reals is the real exponential. -/
theorem exp_coe_sub (x a : ℝ) : Ideal.exp ((x : EReal) - (a : EReal)) = ((Real.exp (x - a) : ℝ) : EReal) := by
  rw [← EReal.coe_sub]
  rfl

/-- The shift `⊥` gives way to any real. -/
theorem max_bot_coe (a : ℝ) : max (⊥ : EReal) (a : EReal) = a := max_eq_right bot_le

/-- The larger of two reals, taken in the extended reals. -/
theorem max_coe_coe (a b : ℝ) : max (a : EReal) (b : EReal) = ((max a b : ℝ) : EReal) :=
  (EReal.coe_strictMono.monotone.map_max).symm

/-- THE FIRST BLOCK: from the shift `⊥` the rescaling factor is `exp ⊥ = 0`, so the old sum `0` stays `0`
    and the new sum is the block's own. -/
theorem first_step (m : ℝ) (s : EReal) : Ideal.exp (⊥ - (m : EReal)) * 0 + s = s := by
  rw [EReal.bot_sub, Ideal.exp_bot, zero_mul, zero_add]

/-- A LATER BLOCK: every quantity is real, and the step is the real one. -/
theorem later_step (m m' l s : ℝ) :
    Ideal.exp ((m : EReal) - (m' : EReal)) * (l : EReal) + (s : EReal)
      = ((Real.exp (m - m') * l + s : ℝ) : EReal) := by
  rw [exp_coe_sub, ← EReal.coe_mul, ← EReal.coe_add]

/-- The final log-sum-exp `M + log L` of a positive real sum is real. -/
theorem add_log_coe (M L : ℝ) (hL : 0 < L) :
    (M : EReal) + Ideal.log (L : EReal) = ((M + Real.log L : ℝ) : EReal) := by
  rw [Ideal.log_coe, if_neg (not_le.mpr hL), ← EReal.coe_add]

/-- The stored term times its correction, on the extended reals, is the quotient the plain softmax forms. -/
theorem softmax_entry (x a M L : ℝ) (hL : 0 < L) :
    ((Real.exp (x - a) : ℝ) : EReal) * Ideal.exp ((a : EReal) - ((M : EReal) + Ideal.log (L : EReal)))
      = Ideal.div ((Real.exp (x - M) : ℝ) : EReal) (L : EReal) := by
  rw [add_log_coe M L hL, exp_coe_sub, ← EReal.coe_mul, stored_term_corrected x a M L hL,
    Ideal.div_coe hL.ne', ← EReal.coe_mul, div_eq_mul_one_div]

end Extended

end ProofLib.OnlineSoftmax

end
-- ==== Proof.LibERealFinite.lean ====
/-
  General facts about sums and minima of extended reals that are real numbers.
-/
import Mathlib.Data.EReal.Inv
import Mathlib.Algebra.BigOperators.Group.Finset.Basic
import Mathlib.Data.Finset.Fold

namespace LibERealFinite

open scoped BigOperators

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of extended reals each of which is a real number is the coercion of the real sum. -/
theorem sum_eq_coe {ι : Type*} (s : Finset ι) (F : ι → EReal) (f : ι → ℝ) (h : ∀ i ∈ s, F i = (f i : EReal)) :
    ∑ i ∈ s, F i = ((∑ i ∈ s, f i : ℝ) : EReal) := by
  rw [coe_finset_sum]; exact Finset.sum_congr rfl h

/-- The coercion of the reals into the extended reals commutes with binary minima. -/
theorem coe_min (a b : ℝ) : ((min a b : ℝ) : EReal) = min (a : EReal) (b : EReal) := by
  rcases le_total a b with h | h
  · rw [min_eq_left h, min_eq_left (EReal.coe_le_coe_iff.mpr h)]
  · rw [min_eq_right h, min_eq_right (EReal.coe_le_coe_iff.mpr h)]

/-- The coercion of the reals into the extended reals commutes with binary maxima. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- A finite sum of extended reals each of which is a real number is a real number. -/
theorem exists_sum_eq_coe {ι : Type*} (s : Finset ι) (F : ι → EReal) (h : ∀ i ∈ s, ∃ r : ℝ, F i = (r : EReal)) :
    ∃ r : ℝ, ∑ i ∈ s, F i = (r : EReal) := by
  classical
  induction s using Finset.induction_on with
  | empty => exact ⟨0, by simp⟩
  | insert a s ha ih =>
    obtain ⟨r, hr⟩ := h a (Finset.mem_insert_self a s)
    obtain ⟨r', hr'⟩ := ih (fun i hi => h i (Finset.mem_insert_of_mem hi))
    exact ⟨r + r', by rw [Finset.sum_insert ha, hr, hr', EReal.coe_add]⟩

/-- A map that preserves order preserves binary minima. -/
theorem map_min_of_monotone {g : EReal → EReal} (hg : Monotone g) (a b : EReal) : g (min a b) = min (g a) (g b) := by
  rcases le_total a b with h | h
  · rw [min_eq_left h, min_eq_left (hg h)]
  · rw [min_eq_right h, min_eq_right (hg h)]

/-- A monotone map that fixes `⊤` commutes with the minimum (folded from `⊤`) of a finite family. -/
theorem map_fold_min {ι : Type*} (s : Finset ι) {g : EReal → EReal} (hg : Monotone g) (htop : g ⊤ = ⊤)
    (f : ι → EReal) : g (s.fold min ⊤ f) = s.fold min ⊤ (fun i => g (f i)) := by
  have := Finset.fold_hom (op := (min : EReal → EReal → EReal)) (op' := min) (s := s) (b := ⊤) (f := f)
    (m := g) (map_min_of_monotone hg)
  rw [htop] at this
  exact this.symm

/-- The minimum, folded from `⊤`, of a NONEMPTY finite family of real numbers is a real number. -/
theorem exists_fold_min_eq_coe {ι : Type*} (s : Finset ι) (hs : s.Nonempty) (f : ι → ℝ) :
    ∃ r : ℝ, s.fold min ⊤ (fun i => (f i : EReal)) = (r : EReal) := by
  classical
  induction hs using Finset.Nonempty.cons_induction with
  | singleton a => exact ⟨f a, by simp⟩
  | cons a s ha hs ih =>
    obtain ⟨r, hr⟩ := ih
    refine ⟨min (f a) r, ?_⟩
    rw [Finset.fold_cons, hr, coe_min]

end LibERealFinite
-- ==== Proof.LibBlockSum.lean ====
/-
  A finite sum accumulated block by block. The terms term 0, …, term (N - 1) are added up B at a time: after k
  blocks the accumulator holds the sum of the terms of index below k * B. This file states the three facts such an
  accumulation needs: the accumulator starts at zero, one more block adds exactly the B terms of that block, and
  once the bound reaches N the accumulator is the whole sum.
-/
import Mathlib.Algebra.BigOperators.Fin

namespace BlockSum

open scoped BigOperators

variable {M : Type*} [AddCommMonoid M] {N : ℕ}

/-- The kk-th index of block k lies below N as soon as the first k + 1 blocks of size B fit in N:
    k * B + kk < k * B + B = (k + 1) * B ≤ N. -/
theorem block_lt {B : ℕ} {k : ℕ} (hk : (k + 1) * B ≤ N) (kk : Fin B) : k * B + kk.val < N :=
  calc k * B + kk.val < k * B + B := Nat.add_lt_add_left kk.isLt _
    _ = (k + 1) * B := (Nat.succ_mul k B).symm
    _ ≤ N := hk

/-- The sum of the terms of index below n, for n ≤ N, is the sum over Fin n of the same terms: the indices of
    Fin N below n are exactly the images of Fin n under the inclusion Fin n → Fin N. -/
theorem partial_eq_sum_fin (term : Fin N → M) (n : ℕ) (hn : n ≤ N) :
    (∑ j ∈ Finset.univ.filter (fun j : Fin N => j.val < n), term j)
      = ∑ i : Fin n, term ⟨i.val, lt_of_lt_of_le i.isLt hn⟩ := by
  symm
  refine Finset.sum_bij (fun (i : Fin n) _ => (⟨i.val, lt_of_lt_of_le i.isLt hn⟩ : Fin N)) ?_ ?_ ?_ ?_
  · intro i _
    exact Finset.mem_filter.mpr ⟨Finset.mem_univ _, i.isLt⟩
  · intro a _ b _ h
    have hv : (⟨a.val, lt_of_lt_of_le a.isLt hn⟩ : Fin N).val = (⟨b.val, lt_of_lt_of_le b.isLt hn⟩ : Fin N).val :=
      congrArg Fin.val h
    exact Fin.ext hv
  · intro j hj
    exact ⟨⟨j.val, (Finset.mem_filter.mp hj).2⟩, Finset.mem_univ _, Fin.ext rfl⟩
  · intro i _
    rfl

/-- Before any block has been added the accumulator is zero: no index is below 0. -/
theorem partial_zero (term : Fin N → M) :
    (∑ j ∈ Finset.univ.filter (fun j : Fin N => j.val < 0), term j) = 0 := by
  rw [Finset.filter_false_of_mem (fun j _ => Nat.not_lt_zero j.val)]
  exact Finset.sum_empty

/-- One more block: the sum of the terms of index below (k + 1) * B is the sum of the terms of index below k * B
    plus the B terms of block k, those of index k * B + kk for kk < B. -/
theorem partial_step (term : Fin N → M) (B k : ℕ) (hk : (k + 1) * B ≤ N) :
    (∑ j ∈ Finset.univ.filter (fun j : Fin N => j.val < (k + 1) * B), term j)
      = (∑ j ∈ Finset.univ.filter (fun j : Fin N => j.val < k * B), term j)
        + ∑ kk : Fin B, term ⟨k * B + kk.val, block_lt hk kk⟩ := by
  have hk' : k * B ≤ N := le_trans (Nat.mul_le_mul_right B (Nat.le_succ k)) hk
  have e : k * B + B = (k + 1) * B := (Nat.succ_mul k B).symm
  rw [partial_eq_sum_fin term _ hk, partial_eq_sum_fin term _ hk']
  rw [← Fin.sum_congr' (fun i : Fin ((k + 1) * B) => term ⟨i.val, lt_of_lt_of_le i.isLt hk⟩) e,
    Fin.sum_univ_add]
  rfl

/-- Once the bound reaches N every index is below it, and the accumulator is the whole sum. -/
theorem partial_full (term : Fin N → M) (n : ℕ) (hn : N ≤ n) :
    (∑ j ∈ Finset.univ.filter (fun j : Fin N => j.val < n), term j) = ∑ j, term j := by
  rw [Finset.filter_true_of_mem (fun j _ => lt_of_lt_of_le j.isLt hn)]

end BlockSum
-- ==== Proof.Bridge.lean ====
/- The two passes of the kernel, composed, against the reference, as mathematics: for real arguments the second pass
   applied to what the first pass leaves is the reference's result. The masked scores are real; the running maximum
   of a column after its last block is the column's maximum; the running rescaled sum is then the column's sum of
   shifted exponentials; a stored term times its correction is the normalized exponential; the accumulator after
   the last column block is the whole weighted sum; and the two spellings of the exponential linear unit agree. -/
import proofs.«178722_j75866302316653_2_alg».proof.Proof.RefSpec
import proofs.«178722_j75866302316653_2_alg».proof.Proof.KSpec
import proofs.«178722_j75866302316653_2_alg».proof.Proof.LibOnlineSoftmax
import proofs.«178722_j75866302316653_2_alg».proof.Proof.LibERealFinite
import proofs.«178722_j75866302316653_2_alg».proof.Proof.LibBlockSum
import Idealize.ShloMosaic.Lib.IdealHost

noncomputable section

open scoped BigOperators

namespace Cert.Bridge

open Idealize.ShloMosaic Cert ProofLib.OnlineSoftmax

/-! ## The words as numbers -/

theorem zero_eq : KSpec.zero = 0 := Ideal.ofBits_zero_f32
theorem one_eq : KSpec.one = 1 := Ideal.ofBits_one_f32
theorem negInf_eq : KSpec.negInf = ⊥ := by simp [KSpec.negInf, Ideal.ofBits, Ideal.ieee]

/-- The slope: one tenth rounded to the format, 13421773 · 2⁻²⁷. -/
def σ : ℝ := 13421773 / 134217728

theorem slope_eq : RefSpec.slope = (σ : EReal) := by
  unfold RefSpec.slope σ
  simp [Ideal.ofBits, Ideal.ieee, -EReal.coe_mul]
  norm_num

theorem σ_pos : 0 < σ := by unfold σ; norm_num
theorem σ_lt_one : σ < 1 := by unfold σ; norm_num

/-- The fill: minus 16763806 · 2²⁹. -/
def fillR : ℝ := -(16763806 * 2 ^ 29)

theorem fill_eq : RefSpec.fill = (fillR : EReal) := by
  unfold RefSpec.fill fillR
  simp [Ideal.ofBits, Ideal.ieee, -EReal.coe_mul, -EReal.coe_neg]

/-- A condition bit is set exactly when its condition holds. -/
private theorem ofBool_eq_one {b : Bool} : BitVec.ofBool b = (1 : BitVec 1) ↔ b = true := by cases b <;> decide

/-- The signed comparison with the zero word. -/
theorem cmpi_sgt_zero (w : BitVec 32) : (IntOp.cmpi .sgt w 0#32 = (1 : BitVec 1)) ↔ 0 < w.toInt := by
  simp only [IntOp.cmpi, ofBool_eq_one, BitVec.slt_iff_toInt_lt, BitVec.toInt_zero]

/-- The rectifier on a real: keeping the value from zero up and scaling it below is the larger of the value and
    its scaling, the slope lying between zero and one. -/
theorem leaky_real (x : ℝ) : (if 0 ≤ x then x else σ * x) = max x (σ * x) := by
  split_ifs with hx
  · exact (max_eq_left (by nlinarith [σ_lt_one])).symm
  · have hx' : x < 0 := not_le.mp hx
    exact (max_eq_right (by nlinarith [σ_lt_one])).symm

/-! ## The masked score over the reals -/

/-- The masked score for real row scores. -/
def valR (adj : Fin 8192 → Fin 8192 → BitVec 32) (sr : Fin 8192 → ℝ) (i j : Fin 8192) : ℝ :=
  if 0 < (adj i j).toInt then max (sr i + sr j) (σ * (sr i + sr j)) else fillR

section KernelSide

variable (adj : Fin 8192 → Fin 8192 → BitVec 32) (s : Fin 8192 → EReal) (sr : Fin 8192 → ℝ)

theorem k_val (hs : ∀ i, s i = (sr i : EReal)) (i j : Fin 8192) :
    KSpec.val adj s s i j = (valR adj sr i j : EReal) := by
  unfold KSpec.val valR Scalar.select
  rw [hs i, hs j, show KSpec.slope = (σ : EReal) from slope_eq, show KSpec.fill = (fillR : EReal) from fill_eq,
    ← EReal.coe_add, ← EReal.coe_mul, ← LibERealFinite.coe_max]
  by_cases hadj : 0 < (adj i j).toInt
  · rw [if_pos ((cmpi_sgt_zero _).mpr hadj), if_pos hadj]
  · rw [if_neg (fun hc => hadj ((cmpi_sgt_zero _).mp hc)), if_neg hadj]

/-! ## The running maximum -/

theorem mrun_zero (j : Fin 8192) (h : 0 < 8) :
    KSpec.mrun adj s s j 0 h = max KSpec.negInf (KSpec.bmax adj s s ⟨0, h⟩ j) := rfl

theorem mrun_succ (j : Fin 8192) (I : ℕ) (h : I + 1 < 8) :
    KSpec.mrun adj s s j (I + 1) h
      = max (KSpec.mrun adj s s j I (by omega)) (KSpec.bmax adj s s ⟨I + 1, h⟩ j) := rfl

theorem mrun_congr (j : Fin 8192) {n n' : ℕ} (e : n = n') (h : n < 8) (h' : n' < 8) :
    KSpec.mrun adj s s j n h = KSpec.mrun adj s s j n' h' := by
  subst e; rfl

/-- Every row is the row of its block at its place in the block. -/
theorem rowOf_blockOf (i : Fin 8192) :
    KSpec.rowOf (KSpec.blockOf i) ⟨i.val % 1024, Nat.mod_lt _ (by norm_num)⟩ = i :=
  Fin.ext (by show 1024 * (i.val / 1024) + i.val % 1024 = i.val; exact Nat.div_add_mod _ _)

theorem bmax_ge (I : Fin 8) (r : Fin 1024) (j : Fin 8192) :
    KSpec.val adj s s (KSpec.rowOf I r) j ≤ KSpec.bmax adj s s I j :=
  (Finset.le_fold_max _).mpr (Or.inr ⟨r, Finset.mem_univ r, le_rfl⟩)

theorem bmax_att (I : Fin 8) (j : Fin 8192) :
    ∃ r, KSpec.bmax adj s s I j = KSpec.val adj s s (KSpec.rowOf I r) j := by
  rcases RefSpec.fold_max_eq (Finset.univ : Finset (Fin 1024)) KSpec.negInf
    (fun r => KSpec.val adj s s (KSpec.rowOf I r) j) with hb | ⟨r, -, hr⟩
  · refine ⟨⟨0, by norm_num⟩, ?_⟩
    have hle := bmax_ge adj s I ⟨0, by norm_num⟩ j
    have hb' : KSpec.bmax adj s s I j = ⊥ := hb.trans negInf_eq
    rw [hb'] at hle ⊢
    exact (le_bot_iff.mp hle).symm
  · exact ⟨r, hr⟩

/-- The running maximum after block `I` is above every score of the blocks read so far. -/
theorem mrun_ge (j : Fin 8192) : ∀ (I : ℕ) (h : I < 8) (I' : ℕ) (h' : I' < 8), I' ≤ I → ∀ r : Fin 1024,
    KSpec.val adj s s (KSpec.rowOf ⟨I', h'⟩ r) j ≤ KSpec.mrun adj s s j I h
  | 0, h, I', h', hle, r => by
    obtain rfl : I' = 0 := Nat.le_zero.mp hle
    rw [mrun_zero]
    exact le_max_of_le_right (bmax_ge adj s ⟨0, h'⟩ r j)
  | I + 1, h, I', h', hle, r => by
    rw [mrun_succ]
    rcases Nat.lt_or_ge I' (I + 1) with hlt | hge
    · exact le_max_of_le_left (mrun_ge j I (by omega) I' h' (Nat.lt_succ_iff.mp hlt) r)
    · obtain rfl : I' = I + 1 := le_antisymm hle hge
      exact le_max_of_le_right (bmax_ge adj s ⟨I + 1, h'⟩ r j)

/-- The running maximum after block `I` is one of the scores read so far. -/
theorem mrun_att (j : Fin 8192) : ∀ (I : ℕ) (h : I < 8),
    ∃ (I' : Fin 8) (r : Fin 1024), KSpec.mrun adj s s j I h = KSpec.val adj s s (KSpec.rowOf I' r) j
  | 0, h => by
    obtain ⟨r, hr⟩ := bmax_att adj s ⟨0, h⟩ j
    exact ⟨⟨0, h⟩, r, by rw [mrun_zero, negInf_eq, max_bot_left, hr]⟩
  | I + 1, h => by
    obtain ⟨I', r', e⟩ := mrun_att j I (by omega)
    obtain ⟨r, hr⟩ := bmax_att adj s ⟨I + 1, h⟩ j
    rw [mrun_succ]
    rcases max_choice (KSpec.mrun adj s s j I (by omega)) (KSpec.bmax adj s s ⟨I + 1, h⟩ j) with hm | hm
    · exact ⟨I', r', hm.trans e⟩
    · exact ⟨⟨I + 1, h⟩, r, hm.trans hr⟩

/-- After the last block the running maximum is the maximum of the whole column. -/
theorem mrun_last (j : Fin 8192) :
    KSpec.mrun adj s s j 7 (by omega)
      = (Finset.univ : Finset (Fin 8192)).fold max ⊥ fun i => KSpec.val adj s s i j := by
  apply le_antisymm
  · obtain ⟨I', r, e⟩ := mrun_att adj s j 7 (by omega)
    rw [e]
    exact (Finset.le_fold_max _).mpr (Or.inr ⟨_, Finset.mem_univ _, le_rfl⟩)
  · refine (Finset.fold_max_le _).mpr ⟨bot_le, fun i _ => ?_⟩
    have hge := mrun_ge adj s j 7 (by omega) (KSpec.blockOf i).val (KSpec.blockOf i).isLt
      (by have := (KSpec.blockOf i).isLt; omega) ⟨i.val % 1024, Nat.mod_lt _ (by norm_num)⟩
    have hrow : KSpec.rowOf ⟨(KSpec.blockOf i).val, (KSpec.blockOf i).isLt⟩ ⟨i.val % 1024, Nat.mod_lt _ (by norm_num)⟩ = i :=
      rowOf_blockOf i
    rw [hrow] at hge
    exact hge

/-- For real scores every running maximum is real. -/
theorem mrun_real (hs : ∀ i, s i = (sr i : EReal)) (j : Fin 8192) (I : ℕ) (h : I < 8) :
    ∃ m : ℝ, KSpec.mrun adj s s j I h = (m : EReal) := by
  obtain ⟨I', r, e⟩ := mrun_att adj s j I h
  exact ⟨valR adj sr (KSpec.rowOf I' r) j, e.trans (k_val adj s sr hs _ j)⟩

/-! ## Sums over the rows read so far -/

/-- The `q`-th row of block `k`. -/
theorem block_index (k : ℕ) (hk : k < 8) (q : Fin 1024) (hlt : k * 1024 + q.val < 8192) :
    (⟨k * 1024 + q.val, hlt⟩ : Fin 8192) = KSpec.rowOf ⟨k, hk⟩ q :=
  Fin.ext (by show k * 1024 + q.val = 1024 * k + q.val; omega)

/-- One more block of 1024 rows. -/
theorem part_step {M : Type*} [AddCommMonoid M] (t : Fin 8192 → M) (k : ℕ) (hk : k < 8) :
    (∑ i ∈ Finset.univ.filter (fun i : Fin 8192 => i.val < (k + 1) * 1024), t i)
      = (∑ i ∈ Finset.univ.filter (fun i : Fin 8192 => i.val < k * 1024), t i)
        + ∑ q : Fin 1024, t (KSpec.rowOf ⟨k, hk⟩ q) := by
  rw [BlockSum.partial_step t 1024 k (by omega)]
  congr 1
  exact Finset.sum_congr rfl fun q _ => congrArg t (block_index k hk q _)

/-- No row before the first block. -/
theorem part_zero {M : Type*} [AddCommMonoid M] (t : Fin 8192 → M) :
    (∑ i ∈ Finset.univ.filter (fun i : Fin 8192 => i.val < 0 * 1024), t i) = 0 := by
  rw [Nat.zero_mul]
  exact BlockSum.partial_zero t

/-! ## The running sum -/

theorem lrun_zero (j : Fin 8192) (h : 0 < 8) :
    KSpec.lrun adj s s j 0 h
      = Ideal.exp (KSpec.negInf - KSpec.mrun adj s s j 0 h) * KSpec.zero
        + KSpec.bsum adj s s ⟨0, h⟩ j (KSpec.mrun adj s s j 0 h) := rfl

theorem lrun_succ (j : Fin 8192) (I : ℕ) (h : I + 1 < 8) :
    KSpec.lrun adj s s j (I + 1) h
      = Ideal.exp (KSpec.mrun adj s s j I (by omega) - KSpec.mrun adj s s j (I + 1) h) * KSpec.lrun adj s s j I (by omega)
        + KSpec.bsum adj s s ⟨I + 1, h⟩ j (KSpec.mrun adj s s j (I + 1) h) := rfl

/-- A block's sum of exponentials shifted by a real is real. -/
theorem bsum_real (hs : ∀ i, s i = (sr i : EReal)) (I : Fin 8) (j : Fin 8192) (m : ℝ) :
    KSpec.bsum adj s s I j (m : EReal)
      = ((∑ r : Fin 1024, Real.exp (valR adj sr (KSpec.rowOf I r) j - m) : ℝ) : EReal) := by
  unfold KSpec.bsum
  rw [LibERealFinite.coe_finset_sum]
  exact Finset.sum_congr rfl fun r _ => by rw [k_val adj s sr hs, exp_coe_sub]

/-- The running rescaled sum after block `I` is the sum, over the rows read so far, of the exponentials shifted by
    the running maximum after block `I`. -/
theorem lrun_eq (hs : ∀ i, s i = (sr i : EReal)) (j : Fin 8192) : ∀ (I : ℕ) (h : I < 8) (m : ℝ),
    KSpec.mrun adj s s j I h = (m : EReal) →
    KSpec.lrun adj s s j I h
      = ((∑ i ∈ Finset.univ.filter (fun i : Fin 8192 => i.val < (I + 1) * 1024), Real.exp (valR adj sr i j - m) : ℝ) : EReal)
  | 0, h, m, hm => by
    rw [lrun_zero, hm, negInf_eq, zero_eq, first_step, bsum_real adj s sr hs,
      part_step (fun i => Real.exp (valR adj sr i j - m)) 0 h, part_zero, zero_add]
  | I + 1, h, m', hm' => by
    obtain ⟨m, hm⟩ := mrun_real adj s sr hs j I (by omega)
    rw [lrun_succ, hm, hm', lrun_eq hs j I (by omega) m hm, bsum_real adj s sr hs, later_step, sum_rescale,
      part_step (fun i => Real.exp (valR adj sr i j - m')) (I + 1) h]

/-- After the last block the running sum is the whole column's. -/
theorem lrun_last (hs : ∀ i, s i = (sr i : EReal)) (j : Fin 8192) (Mr : ℝ)
    (hM : KSpec.mrun adj s s j 7 (by omega) = (Mr : EReal)) :
    KSpec.lrun adj s s j 7 (by omega) = ((∑ i : Fin 8192, Real.exp (valR adj sr i j - Mr) : ℝ) : EReal) := by
  rw [lrun_eq adj s sr hs j 7 (by omega) Mr hM, BlockSum.partial_full _ _ (by norm_num)]

end KernelSide

/-! ## The reference's quantities for real scores -/

section ReferenceSide

variable (h : Fin 8192 → Fin 512 → EReal) (adj : Fin 8192 → Fin 8192 → BitVec 32)
  (W : Fin 512 → Fin 64 → EReal) (a : Fin 64 → EReal) (sr : Fin 8192 → ℝ)

theorem ref_val (hs : ∀ i, RefSpec.s h W a i = (sr i : EReal)) (i j : Fin 8192) :
    RefSpec.val h adj W a i j = (valR adj sr i j : EReal) := by
  unfold RefSpec.val RefSpec.x valR
  rw [hs i, hs j, slope_eq, fill_eq, ← EReal.coe_add, ← EReal.coe_mul, ← leaky_real]
  by_cases hadj : 0 < (adj i j).toInt
  · rw [if_pos hadj, if_pos hadj]
    by_cases hx : 0 ≤ sr i + sr j
    · rw [if_pos hx, if_pos (EReal.coe_nonneg.mpr hx)]
    · rw [if_neg hx, if_neg (fun hc => hx (EReal.coe_nonneg.mp hc))]
  · rw [if_neg hadj, if_neg hadj]

/-- The two columns' maxima are one. -/
theorem M_eq (hs : ∀ i, RefSpec.s h W a i = (sr i : EReal)) (j : Fin 8192) :
    KSpec.mrun adj (RefSpec.s h W a) (RefSpec.s h W a) j 7 (by omega) = RefSpec.M h adj W a j := by
  rw [mrun_last]
  unfold RefSpec.M
  exact congrArg (fun f => Finset.fold max ⊥ f (Finset.univ : Finset (Fin 8192)))
    (funext fun i => (k_val adj _ sr hs i j).trans (ref_val h adj W a sr hs i j).symm)

theorem ref_e (hs : ∀ i, RefSpec.s h W a i = (sr i : EReal)) (i j : Fin 8192) (Mr : ℝ)
    (hM : RefSpec.M h adj W a j = (Mr : EReal)) :
    RefSpec.e h adj W a i j = ((Real.exp (valR adj sr i j - Mr) : ℝ) : EReal) := by
  unfold RefSpec.e
  rw [ref_val h adj W a sr hs, hM, exp_coe_sub]

theorem ref_L (hs : ∀ i, RefSpec.s h W a i = (sr i : EReal)) (j : Fin 8192) (Mr : ℝ)
    (hM : RefSpec.M h adj W a j = (Mr : EReal)) :
    RefSpec.L h adj W a j = ((∑ i : Fin 8192, Real.exp (valR adj sr i j - Mr) : ℝ) : EReal) := by
  unfold RefSpec.L
  rw [LibERealFinite.coe_finset_sum]
  exact Finset.sum_congr rfl fun i _ => ref_e h adj W a sr hs i j Mr hM

/-! ## One stored term, corrected -/

theorem term_eq (hs : ∀ i, RefSpec.s h W a i = (sr i : EReal)) (wh : Fin 8192 → Fin 64 → EReal)
    (i : Fin 8192) (J : Fin 8) (q : Fin 1024) (k : Fin 64) :
    KSpec.term (KSpec.pOut adj (RefSpec.s h W a) (RefSpec.s h W a)) (KSpec.mtOut adj (RefSpec.s h W a) (RefSpec.s h W a))
        (KSpec.lseOut adj (RefSpec.s h W a) (RefSpec.s h W a)) wh i J q k
      = Ideal.div (RefSpec.e h adj W a i (KSpec.rowOf J q)) (RefSpec.L h adj W a (KSpec.rowOf J q)) * wh (KSpec.rowOf J q) k := by
  obtain ⟨Mr, hM⟩ := mrun_real adj (RefSpec.s h W a) sr hs (KSpec.rowOf J q) 7 (by omega)
  obtain ⟨mb, hmb⟩ := mrun_real adj (RefSpec.s h W a) sr hs (KSpec.rowOf J q) (KSpec.blockOf i).val (KSpec.blockOf i).isLt
  have hL := lrun_last adj (RefSpec.s h W a) sr hs (KSpec.rowOf J q) Mr hM
  have hLpos : 0 < ∑ i' : Fin 8192, Real.exp (valR adj sr i' (KSpec.rowOf J q) - Mr) :=
    Finset.sum_pos (fun _ _ => Real.exp_pos _) Finset.univ_nonempty
  have hMref : RefSpec.M h adj W a (KSpec.rowOf J q) = (Mr : EReal) := (M_eq h adj W a sr hs _).symm.trans hM
  have hdiv : (KSpec.tableRow (KSpec.blockOf i)).val / 8 = (KSpec.blockOf i).val := by
    show 8 * (KSpec.blockOf i).val / 8 = (KSpec.blockOf i).val
    omega
  unfold KSpec.term KSpec.pOut KSpec.mtOut KSpec.lseOut
  rw [mrun_congr adj (RefSpec.s h W a) (KSpec.rowOf J q) hdiv _ (KSpec.blockOf i).isLt, hmb, hM, hL,
    k_val adj (RefSpec.s h W a) sr hs i, exp_coe_sub, softmax_entry _ _ _ _ hLpos,
    ref_e h adj W a sr hs i _ Mr hMref, ref_L h adj W a sr hs _ Mr hMref]

/-! ## The accumulator -/

theorem acc_zero (pA : Fin 8192 → Fin 8192 → EReal) (mt : Fin 64 → Fin 8192 → EReal) (ls : Fin 8192 → EReal)
    (wh : Fin 8192 → Fin 64 → EReal) (i : Fin 8192) (k : Fin 64) (hJ : 0 < 8) :
    KSpec.acc pA mt ls wh i k 0 hJ = KSpec.zero + ∑ q : Fin 1024, KSpec.term pA mt ls wh i ⟨0, hJ⟩ q k := rfl

theorem acc_succ (pA : Fin 8192 → Fin 8192 → EReal) (mt : Fin 64 → Fin 8192 → EReal) (ls : Fin 8192 → EReal)
    (wh : Fin 8192 → Fin 64 → EReal) (i : Fin 8192) (k : Fin 64) (J : ℕ) (hJ : J + 1 < 8) :
    KSpec.acc pA mt ls wh i k (J + 1) hJ
      = KSpec.acc pA mt ls wh i k J (by omega) + ∑ q : Fin 1024, KSpec.term pA mt ls wh i ⟨J + 1, hJ⟩ q k := rfl

/-- The accumulator after column block `J` is the sum of the normalized terms of the columns read so far. -/
theorem acc_eq (hs : ∀ i, RefSpec.s h W a i = (sr i : EReal)) (wh : Fin 8192 → Fin 64 → EReal)
    (i : Fin 8192) (k : Fin 64) : ∀ (J : ℕ) (hJ : J < 8),
    KSpec.acc (KSpec.pOut adj (RefSpec.s h W a) (RefSpec.s h W a)) (KSpec.mtOut adj (RefSpec.s h W a) (RefSpec.s h W a))
        (KSpec.lseOut adj (RefSpec.s h W a) (RefSpec.s h W a)) wh i k J hJ
      = ∑ j ∈ Finset.univ.filter (fun j : Fin 8192 => j.val < (J + 1) * 1024),
          Ideal.div (RefSpec.e h adj W a i j) (RefSpec.L h adj W a j) * wh j k
  | 0, hJ => by
    rw [acc_zero, zero_eq, zero_add,
      part_step (fun j => Ideal.div (RefSpec.e h adj W a i j) (RefSpec.L h adj W a j) * wh j k) 0 hJ, part_zero, zero_add]
    exact Finset.sum_congr rfl fun q _ => term_eq h adj W a sr hs wh i ⟨0, hJ⟩ q k
  | J + 1, hJ => by
    rw [acc_succ, acc_eq hs wh i k J (by omega),
      part_step (fun j => Ideal.div (RefSpec.e h adj W a i j) (RefSpec.L h adj W a j) * wh j k) (J + 1) hJ]
    congr 1
    exact Finset.sum_congr rfl fun q _ => term_eq h adj W a sr hs wh i ⟨J + 1, hJ⟩ q k

end ReferenceSide

/-! ## The exponential linear unit, and the whole -/

theorem elu_eq (x : EReal) : KSpec.elu x = if 0 < x then x else Ideal.exp x - 1 := by
  unfold KSpec.elu Scalar.select
  rw [zero_eq, one_eq]
  have h1 : (FloatOps.cmpf (F := Ideal) (φ := .f32) .ogt x 0 = (1 : BitVec 1)) ↔ 0 < x := by
    show (Ideal.cmp .ogt x 0 = (1 : BitVec 1)) ↔ _
    unfold Ideal.cmp
    by_cases hy : 0 < x <;> simp [hy]
  by_cases hx : 0 < x
  · rw [if_pos (h1.mpr hx), if_pos hx]
  · rw [if_neg (fun hc => hx (h1.mp hc)), if_neg hx]

/-- Real arguments give real projected features and real scores. -/
theorem Wh_real (h : Fin 8192 → Fin 512 → EReal) (W : Fin 512 → Fin 64 → EReal)
    (hh : ∀ i f, ∃ x : ℝ, h i f = (x : EReal)) (hW : ∀ f k, ∃ x : ℝ, W f k = (x : EReal)) (i : Fin 8192) (k : Fin 64) :
    ∃ r : ℝ, RefSpec.Wh h W i k = (r : EReal) :=
  LibERealFinite.exists_sum_eq_coe Finset.univ (fun f => h i f * W f k) fun f _ => by
    obtain ⟨x, hx⟩ := hh i f
    obtain ⟨y, hy⟩ := hW f k
    exact ⟨x * y, by rw [hx, hy, EReal.coe_mul]⟩

theorem s_real (h : Fin 8192 → Fin 512 → EReal) (W : Fin 512 → Fin 64 → EReal) (a : Fin 64 → EReal)
    (hh : ∀ i f, ∃ x : ℝ, h i f = (x : EReal)) (hW : ∀ f k, ∃ x : ℝ, W f k = (x : EReal))
    (ha : ∀ k, ∃ x : ℝ, a k = (x : EReal)) (i : Fin 8192) :
    ∃ r : ℝ, RefSpec.s h W a i = (r : EReal) :=
  LibERealFinite.exists_sum_eq_coe Finset.univ (fun k => RefSpec.Wh h W i k * a k) fun k _ => by
    obtain ⟨x, hx⟩ := Wh_real h W hh hW i k
    obtain ⟨y, hy⟩ := ha k
    exact ⟨x * y, by rw [hx, hy, EReal.coe_mul]⟩

/-- For real arguments the second pass applied to what the first pass leaves — the scores those of the reference, the
    matrix the projected features — is the reference's result. -/
theorem eluOut_eq (h : Fin 8192 → Fin 512 → EReal) (adj : Fin 8192 → Fin 8192 → BitVec 32)
    (W : Fin 512 → Fin 64 → EReal) (a : Fin 64 → EReal)
    (hh : ∀ i f, ∃ x : ℝ, h i f = (x : EReal)) (hW : ∀ f k, ∃ x : ℝ, W f k = (x : EReal))
    (ha : ∀ k, ∃ x : ℝ, a k = (x : EReal)) (i : Fin 8192) (k : Fin 64) :
    KSpec.eluOut (KSpec.pOut adj (RefSpec.s h W a) (RefSpec.s h W a)) (KSpec.mtOut adj (RefSpec.s h W a) (RefSpec.s h W a))
        (KSpec.lseOut adj (RefSpec.s h W a) (RefSpec.s h W a)) (RefSpec.Wh h W) i k
      = RefSpec.out h adj W a i k := by
  choose sr hsr using s_real h W a hh hW ha
  unfold KSpec.eluOut RefSpec.out
  rw [elu_eq, acc_eq h adj W a sr hsr (RefSpec.Wh h W) i k 7 (by omega), BlockSum.partial_full _ _ (by norm_num)]
  rfl

end Cert.Bridge

end
-- ==== Proof.Finite.lean ====
/-
  From the precondition to real numbers. The precondition says, of each float argument array, that every entry's
  absolute value is below the word `+∞`, all such comparisons and-ed together; an extended real whose absolute value
  is below `+∞` is neither infinity, hence a real number.
-/
import proofs.«178722_j75866302316653_2_alg».proof.Pre_finite_inputs
import Idealize.ShloMosaic.Lib.ReduceAll
import Idealize.ShloMosaic.PureOps.Ideal.Laws
import Idealize.ShloMosaic.Lib.ValueIdx

noncomputable section

namespace Cert.FiniteIn

open Idealize.ShloMosaic Cert.Pre_finite_inputs

variable [Cert.Pre_finite_inputs.Facts]
open Cert.Pre_finite_inputs.Facts

instance : Subsingleton S_.Idx := ⟨fun a b => funext fun d => d.elim0⟩

/-- The word `0x7F800000` denotes `+∞`. -/
theorem top_word : Ideal.ofBits .f32 0x7F800000#32 = ⊤ := by simp [Ideal.ofBits, Ideal.ieee]

/-- An extended real whose absolute value is below `+∞` is a real number. -/
theorem real_of_abs_lt (x : EReal) (h : max x (-x) < ⊤) : ∃ r : ℝ, x = (r : EReal) := by
  induction x using EReal.rec with
  | bot => simp at h
  | top => simp at h
  | coe r => exact ⟨r, rfl⟩

/-- The printed comparison of one entry, read back. -/
theorem real_of_cmp (x : EReal)
    (hc : FloatOps.cmpf (F := Ideal) (φ := .f32) .olt (FloatOps.hostAbsf (F := Ideal) (φ := .f32) x) (Ideal.ofBits .f32 0x7F800000#32) = 1#1) :
    ∃ r : ℝ, x = (r : EReal) := by
  refine real_of_abs_lt x ?_
  rw [top_word] at hc
  have h2 : Ideal.cmp .olt (max x (-x)) ⊤ = 1#1 := hc
  by_contra hn
  have h0 : Ideal.cmp .olt (max x (-x)) ⊤ = 0#1 := by
    unfold Ideal.cmp
    rw [decide_eq_false hn]
    rfl
  rw [h0] at h2
  exact absurd h2 (by decide)

/-- Under the precondition every entry of the three float arguments is a real number. -/
theorem finite_of_pre (h : FVec Ideal S8192x512 .f32) (adj : IVec S8192x8192 32) (W : FVec Ideal S512x64 .f32) (a : FVec Ideal S128x1 .f32)
    (hp : fn (F := Ideal) h adj W a = fun _ => 1#1) :
    (∀ i, ∃ r : ℝ, h i = (r : EReal)) ∧ (∀ i, ∃ r : ℝ, W i = (r : EReal)) ∧ (∀ i, ∃ r : ℝ, a i = (r : EReal)) := by
  have e := congrFun hp ValueIdx.ix0
  dsimp only [fn] at e
  obtain ⟨e8, e12⟩ := IntOp.andi_eq_one.mp e
  obtain ⟨e3, e7⟩ := IntOp.andi_eq_one.mp e8
  refine ⟨fun i => ?_, fun i => ?_, fun i => ?_⟩
  · exact real_of_cmp (h i) (Host.reduce_andi_all _ _ reducesTo_S8192x512_S_d0_1 h_S_ ValueIdx.ix0 e3 i)
  · exact real_of_cmp (W i) (Host.reduce_andi_all _ _ reducesTo_S512x64_S_d0_1 h_S_ ValueIdx.ix0 e7 i)
  · exact real_of_cmp (a i) (Host.reduce_andi_all _ _ reducesTo_S128x1_S_d0_1 h_S_ ValueIdx.ix0 e12 i)

end Cert.FiniteIn

end
-- ==== Proof.Alg.lean ====
/-
  The kernel's result equals the reference's, entry by entry, over the extended reals.

  The second pass leaves the exponential linear unit of its finished accumulator, computed from the first pass's
  three outputs and `Wh`; the first pass's outputs are the running-maximum / running-sum recurrences of the masked
  scores; the host prefix supplies `Wh = h · W` and the scores `s = Wh · a₁` (as a column and, re-laid, as a row).
  Substituting each into the next gives the kernel side of the bridge lemma, whose other side is the reference's
  value; the bridge holds because every argument entry is a real number.
-/
import proofs.«178722_j75866302316653_2_alg».proof.Proof.KI.R1Final
import proofs.«178722_j75866302316653_2_alg».proof.Proof.KI.Host
import proofs.«178722_j75866302316653_2_alg».proof.Proof.RefRead
import proofs.«178722_j75866302316653_2_alg».proof.Proof.Bridge
import proofs.«178722_j75866302316653_2_alg».proof.Proof.Finite
import proofs.«178722_j75866302316653_2_alg».proof.Proof.Gen.Pre_finite_inputs

noncomputable section

namespace Cert.Proof.Alg

open Idealize.ShloMosaic Idealize.ShloMosaic.ValueIdx Idealize.SL.Sem
open Cert.KernelIdeal Cert.KernelIdeal.Gen Cert.KernelIdeal.Reg

variable (m : (ℓ : Loc nD τ sig) → Buf (Elt Ideal) ℓ)

/-- The score of row `i`, as the host prefix computes it. -/
abbrev sOf (c : Dev nD) : Fin 8192 → EReal := Cert.RefSpec.s (hOf m c) (wOf m c) (aOf m c)

theorem hWh_spec (c : Dev nD) (i : Fin 8192) (k : Fin 64) : hWh m c (ix2 i k) = Cert.RefSpec.Wh (hOf m c) (wOf m c) i k :=
  hWh_apply m c i k

theorem hS_spec (c : Dev nD) (i : Fin 8192) : hS m c (ix2 i (0 : Fin 1)) = sOf m c i := by
  rw [hS_apply]
  exact Finset.sum_congr rfl fun k _ => by rw [hWh_spec]

/-- The score column and the score row the first pass reads are both `s`. -/
theorem sc_eq (c : Dev nD) : (fun i : Fin 8192 => (V1 m c main_v2 (ix2 i (0 : Fin 1)) : EReal)) = sOf m c :=
  funext fun i => (congrFun (V1_v2 m c) _).trans (hS_spec m c i)

theorem sr_eq (c : Dev nD) : (fun j : Fin 8192 => (V1 m c main_v3 (ix2 (0 : Fin 1) j) : EReal)) = sOf m c :=
  funext fun j => (congrFun (V1_v3 m c) _).trans ((row_apply m c j).trans (hS_spec m c j))

theorem adj_eq (c : Dev nD) : (fun i j : Fin 8192 => (V1 m c main_arg1 (ix2 i j) : BitVec 32)) = adjOf0 m c :=
  funext fun i => funext fun j => congrFun (V1_arg1 m c) _

/-- `Wh` as the second pass reads it is the host prefix's. -/
theorem wh_eq (c : Dev nD) : whOf (V2 m) c = Cert.RefSpec.Wh (hOf m c) (wOf m c) :=
  funext fun j => funext fun k =>
    (congrFun (W2_of_ne m c main_v0 (by decide)) _).trans ((congrFun (V1_v0 m c) _).trans (hWh_spec m c j k))

section
variable (c : Dev nD)
  (H3 : ∀ j : Fin 8192, (dat0 (V1 m) c).arrAt 3 cfg0.N (ix2 (0 : Fin 1) j)
    = Cert.KSpec.lseOut (fun i j => V1 m c main_arg1 (ix2 i j)) (fun i => V1 m c main_v2 (ix2 i (0 : Fin 1))) (fun j => V1 m c main_v3 (ix2 (0 : Fin 1) j)) j)
  (H4 : ∀ i j : Fin 8192, (dat0 (V1 m) c).arrAt 4 cfg0.N (ix2 i j)
    = Cert.KSpec.pOut (fun i j => V1 m c main_arg1 (ix2 i j)) (fun i => V1 m c main_v2 (ix2 i (0 : Fin 1))) (fun j => V1 m c main_v3 (ix2 (0 : Fin 1) j)) i j)
  (H5 : ∀ (q : Fin 64) (j : Fin 8192), (dat0 (V1 m) c).arrAt 5 cfg0.N (ix2 q j)
    = Cert.KSpec.mtOut (fun i j => V1 m c main_arg1 (ix2 i j)) (fun i => V1 m c main_v2 (ix2 i (0 : Fin 1))) (fun j => V1 m c main_v3 (ix2 (0 : Fin 1) j)) q j)

include H3 H4 H5

theorem p_eq : pOf (V2 m) c = Cert.KSpec.pOut (adjOf0 m c) (sOf m c) (sOf m c) :=
  funext fun i => funext fun j => by
    refine (congrFun (W2_arr m c 4) (ix2 i j)).trans ((H4 i j).trans ?_)
    rw [adj_eq, sc_eq, sr_eq]

theorem mt_eq : mtOf (V2 m) c = Cert.KSpec.mtOut (adjOf0 m c) (sOf m c) (sOf m c) :=
  funext fun q => funext fun j => by
    refine (congrFun (W2_arr m c 5) (ix2 q j)).trans ((H5 q j).trans ?_)
    rw [adj_eq, sc_eq, sr_eq]

theorem ls_eq : lsOf (V2 m) c = Cert.KSpec.lseOut (adjOf0 m c) (sOf m c) (sOf m c) :=
  funext fun j => by
    refine (congrFun (W2_arr m c 3) (ix2 (0 : Fin 1) j)).trans ((H3 j).trans ?_)
    rw [adj_eq, sc_eq, sr_eq]

/-- THE KERNEL'S RESULT ARRAY IS THE REFERENCE'S VALUE of the same arguments, under the precondition. -/
theorem kernel_eq_ref [Cert.Pre_finite_inputs.Facts] [Cert.ReferenceIdeal.Facts]
    (hp : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    G1 (V2 m) c = Cert.ReferenceIdeal.RefValue.refOut (m ((c.tc : Thread nD τ).loc main_arg0)) (m ((c.tc : Thread nD τ).loc main_arg1))
      (m ((c.tc : Thread nD τ).loc main_arg2)) (m ((c.tc : Thread nD τ).loc main_arg3)) := by
  obtain ⟨fh, fW, fa⟩ := Cert.FiniteIn.finite_of_pre _ _ _ _ hp
  funext y
  obtain ⟨i, k, rfl⟩ : ∃ (i : Fin 8192) (k : Fin 64), y = ix2 i k := ⟨y 0, y 1, eq_ix2 y⟩
  rw [Cert.ReferenceIdeal.RefValue.refOut_apply]
  show Cert.KSpec.eluOut (pOf (V2 m) c) (mtOf (V2 m) c) (lsOf (V2 m) c) (whOf (V2 m) c) i k = _
  rw [p_eq m c H3 H4 H5, mt_eq m c H3 H4 H5, ls_eq m c H3 H4 H5, wh_eq]
  exact Cert.Bridge.eluOut_eq (hOf m c) (adjOf0 m c) (wOf m c) (aOf m c) (fun i f => fh _) (fun f k => fW _) (fun k => fa _) i k

end

end Cert.Proof.Alg

end
-- ==== Proof.lean ====
/-
  The graph-attention layer in two streaming passes equals its plain reference, over the extended reals.

  THE PROGRAMS.  Both compute `Wh = h · W` and the row scores `s = Wh · a₁` (`a₁` the first 64 rows of `a`), the masked
  score `val (i, j)` = leaky (`s i + s j`) where the adjacency is positive and a large negative fill elsewhere, the
  softmax of `val` down each COLUMN, the product of that matrix with `Wh`, and the exponential linear unit. The reference
  does it whole. The kernel makes two passes over 1024 × 1024 blocks. The first, for each column block, walks the eight
  row blocks keeping a running maximum and a running rescaled sum per column (reset at the first block), and writes
  the exponentials shifted by the running maximum of the row block they were computed in, that running maximum, and at
  the last block the column's log-sum-exp. The second, for each row block, walks the eight column blocks accumulating
  (stored exponential · exp (stored maximum − log-sum-exp)) · `Wh` into a buffer cleared at the first block, and writes
  the exponential linear unit at the last.

  WHY THEY AGREE.  Every argument entry is a real number (the precondition), so every score is. Rescaling a sum of
  exponentials from one shift to another is exact over the reals, so the running sum after the last block is the
  column's sum of `exp (val − M)` with `M` the column's maximum, which the running maximum has become; a stored
  `exp (val − m)` times `exp (m − (M + log L))` is `exp (val − M) / L` whatever the intermediate maximum `m` was; a sum over
  8192 columns is the sum of its eight block sums; and `max (x, α x)` is the leaky unit for a slope `α` between 0 and 1.

  THE FRAMES.  Each pass is a region whose body is run once per control case (first block, middle block, last
  block); what the scratch buffers and the outputs hold after each grid point is a recursion on the point, carried from
  point to point by the region's invariant; the two regions and the host prefix are chained into the whole run, which
  also gives the result buffer as the fold of the second pass's write-backs. The same text, read at the word level,
  is the frame of the program as printed. The reference's run is its thirty host operations in order.
-/
import proofs.«178722_j75866302316653_2_alg».proof.Defs
import proofs.«178722_j75866302316653_2_alg».proof.Proof.Gen.Kernel
import proofs.«178722_j75866302316653_2_alg».proof.Proof.Gen.KernelIdeal
import proofs.«178722_j75866302316653_2_alg».proof.Proof.Gen.ReferenceIdeal
import proofs.«178722_j75866302316653_2_alg».proof.Proof.Gen.Pre_finite_inputs
import proofs.«178722_j75866302316653_2_alg».proof.Proof.KB.Run
import proofs.«178722_j75866302316653_2_alg».proof.Proof.KI.Run
import proofs.«178722_j75866302316653_2_alg».proof.Proof.KI.R1Final
import proofs.«178722_j75866302316653_2_alg».proof.Proof.KI.R0Final
import proofs.«178722_j75866302316653_2_alg».proof.Proof.RefRun
import proofs.«178722_j75866302316653_2_alg».proof.Proof.Alg

noncomputable section

namespace Cert.Proof

open Idealize.ShloMosaic Idealize.SL.Sem

/-- The program as printed runs and leaves its arguments alone: its whole run, the result dropped. -/
theorem frame_k : Cert.frame_Kernel := fun m ρ _ =>
  (θ_run Cert.Kernel.defs _ _).mono (fun _ h c => (h c).2) (Cert.Kernel.Reg.run_main (F := Bits) m ρ)

/-- So does its idealization. -/
theorem frame_ki : Cert.frame_KernelIdeal := fun m ρ _ =>
  (θ_run Cert.KernelIdeal.defs _ _).mono (fun _ h c => (h c).2) (Cert.KernelIdeal.Reg.run_main (F := Ideal) m ρ)

/-- And the reference. -/
theorem frame_ri : Cert.frame_ReferenceIdeal := fun m ρ _ =>
  (θ_run Cert.ReferenceIdeal.defs _ _).mono (fun _ h c => (h c).2) (Cert.ReferenceIdeal.RefValue.run m ρ)

/-- The ideal pass rewrote nothing. -/
theorem preserves : Cert.preserves_Kernel_KernelIdeal := trivial

/-- From memories agreeing on the arguments both programs end with the same result array: the kernel's is the second
    pass's `eluOut` of the first pass's outputs (the runs' value legs), which under the precondition is the reference's
    value of the same arguments (`Alg.kernel_eq_ref`). -/
theorem algebraic : Cert.algebraic_KernelIdeal_ReferenceIdeal := by
  intro m ρ m' ρ' hpre hagree
  refine ⟨fun c => Cert.KernelIdeal.Reg.G1 (Cert.KernelIdeal.Reg.V2 m) c, ?_, ?_⟩
  · exact (θ_run Cert.KernelIdeal.defs _ _).mono
      (fun _ h c => ⟨(h c).1.trans (Cert.KernelIdeal.Reg.final1 (Cert.KernelIdeal.Reg.V2 m) c), (h c).2⟩)
      (Cert.KernelIdeal.Reg.run_main (F := Ideal) m ρ)
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2.1, (hagree c).2.2.2]
    exact (Cert.Proof.Alg.kernel_eq_ref m c
      (Cert.KernelIdeal.Reg.final0_3 (Cert.KernelIdeal.Reg.V1 m) c)
      (Cert.KernelIdeal.Reg.final0_4 (Cert.KernelIdeal.Reg.V1 m) c)
      (Cert.KernelIdeal.Reg.final0_5 (Cert.KernelIdeal.Reg.V1 m) c) (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
